-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x32768x256 : Shape := ⟨3, ![4, 32768, 256]⟩
abbrev S8x1x32 : Shape := ⟨3, ![8, 1, 32]⟩
abbrev S_ : Shape := ⟨0, ![]⟩

class Facts : Prop where
  bcast_S_S4x32768x256 : S_.BroadcastsInDim S4x32768x256 (![] : Fin 0 → Fin S4x32768x256.rank)
  reducesTo_S4x32768x256_S_d0_1_2 : S4x32768x256.ReducesTo [0, 1, 2] S_
  h_S_ : 0 < S_.numel
  bcast_S_S8x1x32 : S_.BroadcastsInDim S8x1x32 (![] : Fin 0 → Fin S8x1x32.rank)
  reducesTo_S8x1x32_S_d0_1_2 : S8x1x32.ReducesTo [0, 1, 2] S_

variable [Facts]

def fn_part1 {F : FTy → Type} [FloatOps F] (main_arg4 : FVec F S8x1x32 .f32) (main_v13 : IVec S_ 1) (main_v16 : IVec S8x1x32 1) : IVec S_ 1 :=
  let main_c_5 : IVec S_ 1 := constantI S_ 1 1#1
  let main_v17 : IVec S_ 1 := (fun x v => Host.reduce IntOp.andi x v reducesTo_S8x1x32_S_d0_1_2 h_S_) main_v16 main_c_5
  let main_v18 : IVec S_ 1 := andi main_v13 main_v17
  let main_v19 : FVec F S8x1x32 .f32 := Host.absf main_arg4
  let main_cst_6 : FVec F S_ .f32 := constant S_ .f32 0x7F800000#32
  let main_v20 : FVec F S8x1x32 .f32 := broadcastInDim S8x1x32 ![] bcast_S_S8x1x32 main_cst_6
  let main_v21 : IVec S8x1x32 1 := cmpf .olt main_v19 main_v20
  let main_c_7 : IVec S_ 1 := constantI S_ 1 1#1
  let main_v22 : IVec S_ 1 := (fun x v => Host.reduce IntOp.andi x v reducesTo_S8x1x32_S_d0_1_2 h_S_) main_v21 main_c_7
  let main_v23 : IVec S_ 1 := andi main_v18 main_v22
  main_v23

def fn {F : FTy → Type} [FloatOps F] (main_arg0 : FVec F S4x32768x256 .f32) (main_arg1 : FVec F S8x1x32 .f32) (main_arg2 : FVec F S8x1x32 .f32) (main_arg3 : FVec F S8x1x32 .f32) (main_arg4 : FVec F S8x1x32 .f32) : IVec S_ 1 :=
  let main_v0 : FVec F S4x32768x256 .f32 := Host.absf main_arg0
  let main_cst : FVec F S_ .f32 := constant S_ .f32 0x7F800000#32
  let main_v1 : FVec F S4x32768x256 .f32 := broadcastInDim S4x32768x256 ![] bcast_S_S4x32768x256 main_cst
  let main_v2 : IVec S4x32768x256 1 := cmpf .olt main_v0 main_v1
  let main_c : IVec S_ 1 := constantI S_ 1 1#1
  let main_v3 : IVec S_ 1 := (fun x v => Host.reduce IntOp.andi x v reducesTo_S4x32768x256_S_d0_1_2 h_S_) main_v2 main_c
  let main_v4 : FVec F S8x1x32 .f32 := Host.absf main_arg1
  let main_cst_0 : FVec F S_ .f32 := constant S_ .f32 0x7F800000#32
  let main_v5 : FVec F S8x1x32 .f32 := broadcastInDim S8x1x32 ![] bcast_S_S8x1x32 main_cst_0
  let main_v6 : IVec S8x1x32 1 := cmpf .olt main_v4 main_v5
  let main_c_1 : IVec S_ 1 := constantI S_ 1 1#1
  let main_v7 : IVec S_ 1 := (fun x v => Host.reduce IntOp.andi x v reducesTo_S8x1x32_S_d0_1_2 h_S_) main_v6 main_c_1
  let main_v8 : IVec S_ 1 := andi main_v3 main_v7
  let main_v9 : FVec F S8x1x32 .f32 := Host.absf main_arg2
  let main_cst_2 : FVec F S_ .f32 := constant S_ .f32 0x7F800000#32
  let main_v10 : FVec F S8x1x32 .f32 := broadcastInDim S8x1x32 ![] bcast_S_S8x1x32 main_cst_2
  let main_v11 : IVec S8x1x32 1 := cmpf .olt main_v9 main_v10
  let main_c_3 : IVec S_ 1 := constantI S_ 1 1#1
  let main_v12 : IVec S_ 1 := (fun x v => Host.reduce IntOp.andi x v reducesTo_S8x1x32_S_d0_1_2 h_S_) main_v11 main_c_3
  let main_v13 : IVec S_ 1 := andi main_v8 main_v12
  let main_v14 : FVec F S8x1x32 .f32 := Host.absf main_arg3
  let main_cst_4 : FVec F S_ .f32 := constant S_ .f32 0x7F800000#32
  let main_v15 : FVec F S8x1x32 .f32 := broadcastInDim S8x1x32 ![] bcast_S_S8x1x32 main_cst_4
  let main_v16 : IVec S8x1x32 1 := cmpf .olt main_v14 main_v15
  fn_part1 (F := F) main_arg4 main_v13 main_v16
-- ==== Kernel.lean ====
abbrev S4x32768x256 : Shape := ⟨3, ![4, 32768, 256]⟩
abbrev S8x1x32 : Shape := ⟨3, ![8, 1, 32]⟩
abbrev S1x256 : Shape := ⟨2, ![1, 256]⟩
abbrev S4x8x32x32 : Shape := ⟨4, ![4, 8, 32, 32]⟩
abbrev S1x4096x256 : Shape := ⟨3, ![1, 4096, 256]⟩
abbrev S1x8x32x32 : Shape := ⟨4, ![1, 8, 32, 32]⟩
abbrev S8x32x32 : Shape := ⟨3, ![8, 32, 32]⟩
abbrev S4096x256 : Shape := ⟨2, ![4096, 256]⟩
abbrev S256 : Shape := ⟨1, ![256]⟩
abbrev S4096x32 : Shape := ⟨2, ![4096, 32]⟩
abbrev S32 : Shape := ⟨1, ![32]⟩
abbrev S4096 : Shape := ⟨1, ![4096]⟩
abbrev S4096x1 : Shape := ⟨2, ![4096, 1]⟩
abbrev S1x32 : Shape := ⟨2, ![1, 32]⟩
abbrev S32x32 : Shape := ⟨2, ![32, 32]⟩
abbrev S1x32x32 : Shape := ⟨3, ![1, 32, 32]⟩
abbrev S1x1x32x32 : Shape := ⟨4, ![1, 1, 32, 32]⟩

abbrev nBuf : Space → Nat
  | .hbm => 11
  | .vmem => 15
  | .smem => 0
  | _ => 0

abbrev bufTy : (tb : Table) → Fin (tcTables nBuf tb) → BufTy
  | .hbm, ⟨0, _⟩ => ⟨S4x32768x256, .f32⟩
  | .hbm, ⟨1, _⟩ => ⟨S8x1x32, .f32⟩
  | .hbm, ⟨2, _⟩ => ⟨S8x1x32, .f32⟩
  | .hbm, ⟨3, _⟩ => ⟨S8x1x32, .f32⟩
  | .hbm, ⟨4, _⟩ => ⟨S8x1x32, .f32⟩
  | .hbm, ⟨5, _⟩ => ⟨S1x256, .f32⟩
  | .hbm, ⟨6, _⟩ => ⟨S1x256, .f32⟩
  | .hbm, ⟨7, _⟩ => ⟨S1x256, .f32⟩
  | .hbm, ⟨8, _⟩ => ⟨S1x256, .f32⟩
  | .hbm, ⟨9, _⟩ => ⟨S4x8x32x32, .f32⟩
  | .hbm, ⟨10, _⟩ => ⟨S4x32768x256, .f32⟩
  | .local _ .vmem, ⟨0, _⟩ => ⟨S1x4096x256, .f32⟩
  | .local _ .vmem, ⟨1, _⟩ => ⟨S1x4096x256, .f32⟩
  | .local _ .vmem, ⟨2, _⟩ => ⟨S1x256, .f32⟩
  | .local _ .vmem, ⟨3, _⟩ => ⟨S1x256, .f32⟩
  | .local _ .vmem, ⟨4, _⟩ => ⟨S1x256, .f32⟩
  | .local _ .vmem, ⟨5, _⟩ => ⟨S1x256, .f32⟩
  | .local _ .vmem, ⟨6, _⟩ => ⟨S1x8x32x32, .f32⟩
  | .local _ .vmem, ⟨7, _⟩ => ⟨S1x8x32x32, .f32⟩
  | .local _ .vmem, ⟨8, _⟩ => ⟨S8x32x32, .f32⟩
  | .local _ .vmem, ⟨9, _⟩ => ⟨S1x4096x256, .f32⟩
  | .local _ .vmem, ⟨10, _⟩ => ⟨S1x4096x256, .f32⟩
  | .local _ .vmem, ⟨11, _⟩ => ⟨S1x8x32x32, .f32⟩
  | .local _ .vmem, ⟨12, _⟩ => ⟨S1x8x32x32, .f32⟩
  | .local _ .vmem, ⟨13, _⟩ => ⟨S1x4096x256, .f32⟩
  | .local _ .vmem, ⟨14, _⟩ => ⟨S1x4096x256, .f32⟩
  | _, _ => ⟨S4x32768x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13

abbrev nD : Nat := 1
abbrev τ : Topo := Topo.v7x

variable {F : FTy → Type} [FloatOps F]

abbrev grid0 : Pipeline.Grid := ⟨2, ![4, 8], ![false, false]⟩

def k0_cond2 (i : grid0.Coords) : BitVec 1 :=
  let arg1 : BitVec 32 := BitVec.ofNat 32 (i 1).val
  let c7_i32 : BitVec 32 := 7#32
  let v349 : BitVec 1 := Scalar.cmpi .eq arg1 c7_i32
  let v350 : BitVec 32 := Scalar.extui v349
  let c0_i32_99 : BitVec 32 := 0#32
  let v351 : BitVec 1 := Scalar.cmpi .ne v350 c0_i32_99
  v351

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x8x32x32 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev grid1 : Pipeline.Grid := ⟨2, ![4, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x4096x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x8x32x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x4096x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

class Facts₀ : Prop where
  shapeCasts_S8x1x32_S1x256 : S8x1x32.ShapeCasts S1x256
  inb_S8x32x32_S8x32x32_0_0_0 : ∀ a, (![0, 0, 0] : Fin 3 → Nat) a + S8x32x32.size a ≤ S8x32x32.size a
  h_S8x32x32 : 0 < S8x32x32.numel
  shapeCasts_S8x32x32_S8x32x32 : S8x32x32.ShapeCasts S8x32x32
  inb_S1x4096x256_S1x4096x256_0_0_0 : ∀ a, (![0, 0, 0] : Fin 3 → Nat) a + S1x4096x256.size a ≤ S1x4096x256.size a
  h_S1x4096x256 : 0 < S1x4096x256.numel
  shapeCasts_S1x4096x256_S4096x256 : S1x4096x256.ShapeCasts S4096x256
  inb_S1x256_S1x256_0_0 : ∀ a, (![0, 0] : Fin 2 → Nat) a + S1x256.size a ≤ S1x256.size a
  h_S1x256 : 0 < S1x256.numel
  shapeCasts_S1x256_S256 : S1x256.ShapeCasts S256
  slices_S4096x256_o0_0_S4096x32 : S4096x256.Slices ![0, 0] S4096x32
  slices_S256_o0_S32 : S256.Slices ![0] S32
  reduces_S4096x32_S4096 : S4096x32.Reduces [1] S4096
  shapeCasts_S4096_S4096x1 : S4096.ShapeCasts S4096x1
  broadcasts_S4096x1_S4096x32 : S4096x1.Broadcasts S4096x32
  shapeCasts_S32_S1x32 : S32.ShapeCasts S1x32
  broadcasts_S1x32_S4096x32 : S1x32.Broadcasts S4096x32
  bitsLt_bf16_f32 : FTy.bits .bf16 < FTy.bits .f32
  inb_S8x32x32_S1x32x32_0_0_0 : ∀ a, (![0, 0, 0] : Fin 3 → Nat) a + S1x32x32.size a ≤ S8x32x32.size a
  h_S1x32x32 : 0 < S1x32x32.numel
  shapeCasts_S1x32x32_S32x32 : S1x32x32.ShapeCasts S32x32
  shapeCasts_S32x32_S1x32x32 : S32x32.ShapeCasts S1x32x32
  slices_S4096x256_o0_32_S4096x32 : S4096x256.Slices ![0, 32] S4096x32
  slices_S256_o32_S32 : S256.Slices ![32] S32
  inb_S8x32x32_S1x32x32_1_0_0 : ∀ a, (![1, 0, 0] : Fin 3 → Nat) a + S1x32x32.size a ≤ S8x32x32.size a
  slices_S4096x256_o0_64_S4096x32 : S4096x256.Slices ![0, 64] S4096x32
  slices_S256_o64_S32 : S256.Slices ![64] S32
  inb_S8x32x32_S1x32x32_2_0_0 : ∀ a, (![2, 0, 0] : Fin 3 → Nat) a + S1x32x32.size a ≤ S8x32x32.size a
  slices_S4096x256_o0_96_S4096x32 : S4096x256.Slices ![0, 96] S4096x32
  slices_S256_o96_S32 : S256.Slices ![96] S32
  inb_S8x32x32_S1x32x32_3_0_0 : ∀ a, (![3, 0, 0] : Fin 3 → Nat) a + S1x32x32.size a ≤ S8x32x32.size a
  slices_S4096x256_o0_128_S4096x32 : S4096x256.Slices ![0, 128] S4096x32
  slices_S256_o128_S32 : S256.Slices ![128] S32
  inb_S8x32x32_S1x32x32_4_0_0 : ∀ a, (![4, 0, 0] : Fin 3 → Nat) a + S1x32x32.size a ≤ S8x32x32.size a
  slices_S4096x256_o0_160_S4096x32 : S4096x256.Slices ![0, 160] S4096x32
  slices_S256_o160_S32 : S256.Slices ![160] S32
  inb_S8x32x32_S1x32x32_5_0_0 : ∀ a, (![5, 0, 0] : Fin 3 → Nat) a + S1x32x32.size a ≤ S8x32x32.size a
  slices_S4096x256_o0_192_S4096x32 : S4096x256.Slices ![0, 192] S4096x32
  slices_S256_o192_S32 : S256.Slices ![192] S32
  inb_S8x32x32_S1x32x32_6_0_0 : ∀ a, (![6, 0, 0] : Fin 3 → Nat) a + S1x32x32.size a ≤ S8x32x32.size a
  slices_S4096x256_o0_224_S4096x32 : S4096x256.Slices ![0, 224] S4096x32
  slices_S256_o224_S32 : S256.Slices ![224] S32
  inb_S8x32x32_S1x32x32_7_0_0 : ∀ a, (![7, 0, 0] : Fin 3 → Nat) a + S1x32x32.size a ≤ S8x32x32.size a
  inb_S1x8x32x32_S1x8x32x32_0_0_0_0 : ∀ a, (![0, 0, 0, 0] : Fin 4 → Nat) a + S1x8x32x32.size a ≤ S1x8x32x32.size a
  h_S1x8x32x32 : 0 < S1x8x32x32.numel
  shapeCasts_S1x8x32x32_S8x32x32 : S1x8x32x32.ShapeCasts S8x32x32
  shapeCasts_S8x32x32_S1x8x32x32 : S8x32x32.ShapeCasts S1x8x32x32
  inb_S1x8x32x32_S1x1x32x32_0_0_0_0 : ∀ a, (![0, 0, 0, 0] : Fin 4 → Nat) a + S1x1x32x32.size a ≤ S1x8x32x32.size a
  h_S1x1x32x32 : 0 < S1x1x32x32.numel
  shapeCasts_S1x1x32x32_S32x32 : S1x1x32x32.ShapeCasts S32x32
  inb_S1x8x32x32_S1x1x32x32_0_1_0_0 : ∀ a, (![0, 1, 0, 0] : Fin 4 → Nat) a + S1x1x32x32.size a ≤ S1x8x32x32.size a
  inb_S1x8x32x32_S1x1x32x32_0_2_0_0 : ∀ a, (![0, 2, 0, 0] : Fin 4 → Nat) a + S1x1x32x32.size a ≤ S1x8x32x32.size a
  inb_S1x8x32x32_S1x1x32x32_0_3_0_0 : ∀ a, (![0, 3, 0, 0] : Fin 4 → Nat) a + S1x1x32x32.size a ≤ S1x8x32x32.size a
  inb_S1x8x32x32_S1x1x32x32_0_4_0_0 : ∀ a, (![0, 4, 0, 0] : Fin 4 → Nat) a + S1x1x32x32.size a ≤ S1x8x32x32.size a
  inb_S1x8x32x32_S1x1x32x32_0_5_0_0 : ∀ a, (![0, 5, 0, 0] : Fin 4 → Nat) a + S1x1x32x32.size a ≤ S1x8x32x32.size a
  inb_S1x8x32x32_S1x1x32x32_0_6_0_0 : ∀ a, (![0, 6, 0, 0] : Fin 4 → Nat) a + S1x1x32x32.size a ≤ S1x8x32x32.size a
  inb_S1x8x32x32_S1x1x32x32_0_7_0_0 : ∀ a, (![0, 7, 0, 0] : Fin 4 → Nat) a + S1x1x32x32.size a ≤ S1x8x32x32.size a
  concatenates_S4096x32_S4096x32_S4096x32_S4096x32_S4096x32_S4096x32_S4096x32_S4096x32_S4096x256_d1 : Shape.Concatenates [S4096x32, S4096x32, S4096x32, S4096x32, S4096x32, S4096x32, S4096x32, S4096x32] S4096x256 1
  shapeCasts_S4096x256_S1x4096x256 : S4096x256.ShapeCasts S1x4096x256
  dot_S4096x32_S4096x32_S32x32_0_0_1_1_n_n_wf : DotDims.WF S4096x32 S4096x32 S32x32 [0] [0] [1] [1] [] []
  dot_S4096x32_S32x32_S4096x32_1_0_0_1_n_n_wf : DotDims.WF S4096x32 S32x32 S4096x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4096x256.size a ≤ S4x32768x256.size a
  hwx0_0 : ∀ i : grid0.Coords, EltTy.bits .f32 = 32 ∨ (Rect.block (s := S4x32768x256) S1x4096x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x256.size a ≤ S1x256.size a
  hwx0_1 : ∀ i : grid0.Coords, EltTy.bits .f32 = 32 ∨ (Rect.block (s := S1x256) S1x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x8x32x32.size a ≤ S4x8x32x32.size a
  hwx0_5 : ∀ i : grid0.Coords, EltTy.bits .f32 = 32 ∨ (Rect.block (s := S4x8x32x32) S1x8x32x32.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x4096x256.size a ≤ S4x32768x256.size a
  hwx1_0 : ∀ i : grid1.Coords, EltTy.bits .f32 = 32 ∨ (Rect.block (s := S4x32768x256) S1x4096x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x8x32x32.size a ≤ S4x8x32x32.size a
  hwx1_1 : ∀ i : grid1.Coords, EltTy.bits .f32 = 32 ∨ (Rect.block (s := S4x8x32x32) S1x8x32x32.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x4096x256.size a ≤ S4x32768x256.size a
  hwx1_2 : ∀ i : grid1.Coords, EltTy.bits .f32 = 32 ∨ (Rect.block (s := S4x32768x256) S1x4096x256.size (cc1_transform_2 i) (hinb1_2 i)).WholeWords (EltTy.packing .f32)

variable [Facts₀]

def dot_S4096x32_S4096x32_S32x32_0_0_1_1_n_n : DotDims S4096x32 S4096x32 S32x32 where
  lhsContracting := [0]
  rhsContracting := [0]
  lhsNonContracting := [1]
  rhsNonContracting := [1]
  lhsBatch := []
  rhsBatch := []
  wf := dot_S4096x32_S4096x32_S32x32_0_0_1_1_n_n_wf
def dot_S4096x32_S32x32_S4096x32_1_0_0_1_n_n : DotDims S4096x32 S32x32 S4096x32 where
  lhsContracting := [1]
  rhsContracting := [0]
  lhsNonContracting := [0]
  rhsNonContracting := [1]
  lhsBatch := []
  rhsBatch := []
  wf := dot_S4096x32_S32x32_S4096x32_1_0_0_1_n_n_wf

abbrev win0_0 : Pipeline.Window sig grid0 :=
  Pipeline.Window.ofSpec (Memref.whole main_arg0) S1x4096x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S1x8x32x32.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

abbrev win1_0 : Pipeline.Window sig grid1 :=
  Pipeline.Window.ofSpec (Memref.whole main_arg0) S1x4096x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S1x8x32x32.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v5) S1x4096x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S4x32768x256 : Shape := ⟨3, ![4, 32768, 256]⟩
abbrev S8x1x32 : Shape := ⟨3, ![8, 1, 32]⟩
abbrev S4x32768x8x32 : Shape := ⟨4, ![4, 32768, 8, 32]⟩
abbrev S4x8x32768x32 : Shape := ⟨4, ![4, 8, 32768, 32]⟩
abbrev S_ : Shape := ⟨0, ![]⟩
abbrev S4x8x32768 : Shape := ⟨3, ![4, 8, 32768]⟩
abbrev S4x8x32768x1 : Shape := ⟨4, ![4, 8, 32768, 1]⟩
abbrev S1x8x1x32 : Shape := ⟨4, ![1, 8, 1, 32]⟩
abbrev S4x8x32x32 : Shape := ⟨4, ![4, 8, 32, 32]⟩

abbrev nBuf : Space → Nat
  | .hbm => 103
  | .vmem => 0
  | .smem => 0
  | _ => 0

abbrev bufTy : (tb : Table) → Fin (tcTables nBuf tb) → BufTy
  | .hbm, ⟨0, _⟩ => ⟨S4x32768x256, .f32⟩
  | .hbm, ⟨1, _⟩ => ⟨S8x1x32, .f32⟩
  | .hbm, ⟨2, _⟩ => ⟨S8x1x32, .f32⟩
  | .hbm, ⟨3, _⟩ => ⟨S8x1x32, .f32⟩
  | .hbm, ⟨4, _⟩ => ⟨S8x1x32, .f32⟩
  | .hbm, ⟨5, _⟩ => ⟨S4x32768x8x32, .f32⟩
  | .hbm, ⟨6, _⟩ => ⟨S4x8x32768x32, .f32⟩
  | .hbm, ⟨7, _⟩ => ⟨S_, .f32⟩
  | .hbm, ⟨8, _⟩ => ⟨S4x8x32768, .f32⟩
  | .hbm, ⟨9, _⟩ => ⟨S4x8x32768x1, .f32⟩
  | .hbm, ⟨10, _⟩ => ⟨S_, .f32⟩
  | .hbm, ⟨11, _⟩ => ⟨S4x8x32768x1, .f32⟩
  | .hbm, ⟨12, _⟩ => ⟨S4x8x32768x1, .f32⟩
  | .hbm, ⟨13, _⟩ => ⟨S_, .i32⟩
  | .hbm, ⟨14, _⟩ => ⟨S_, .f32⟩
  | .hbm, ⟨15, _⟩ => ⟨S4x8x32768, .f32⟩
  | .hbm, ⟨16, _⟩ => ⟨S4x8x32768x1, .f32⟩
  | .hbm, ⟨17, _⟩ => ⟨S_, .f32⟩
  | .hbm, ⟨18, _⟩ => ⟨S4x8x32768x1, .f32⟩
  | .hbm, ⟨19, _⟩ => ⟨S4x8x32768x1, .f32⟩
  | .hbm, ⟨20, _⟩ => ⟨S4x8x32768x32, .f32⟩
  | .hbm, ⟨21, _⟩ => ⟨S4x8x32768x32, .f32⟩
  | .hbm, ⟨22, _⟩ => ⟨S4x8x32768x32, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S4x8x32768, .f32⟩
  | .hbm, ⟨28, _⟩ => ⟨S4x8x32768x1, .f32⟩
  | .hbm, ⟨29, _⟩ => ⟨S4x8x32768x1, .f32⟩
  | .hbm, ⟨30, _⟩ => ⟨S4x8x32768x1, .f32⟩
  | .hbm, ⟨31, _⟩ => ⟨S_, .f32⟩
  | .hbm, ⟨32, _⟩ => ⟨S_, .i1⟩
  | .hbm, ⟨33, _⟩ => ⟨S_, .f32⟩
  | .hbm, ⟨34, _⟩ => ⟨S_, .f32⟩
  | .hbm, ⟨35, _⟩ => ⟨S4x8x32768x1, .f32⟩
  | .hbm, ⟨36, _⟩ => ⟨S4x8x32768x1, .f32⟩
  | .hbm, ⟨37, _⟩ => ⟨S4x8x32768x1, .f32⟩
  | .hbm, ⟨38, _⟩ => ⟨S4x8x32768x32, .f32⟩
  | .hbm, ⟨39, _⟩ => ⟨S4x8x32768x32, .f32⟩
  | .hbm, ⟨40, _⟩ => ⟨S_, .f32⟩
  | .hbm, ⟨41, _⟩ => ⟨S4x8x32768x1, .f32⟩
  | .hbm, ⟨42, _⟩ => ⟨S4x8x32768x1, .f32⟩
  | .hbm, ⟨43, _⟩ => ⟨S4x8x32768x32, .f32⟩
  | .hbm, ⟨44, _⟩ => ⟨S4x8x32768x32, .f32⟩
  | .hbm, ⟨45, _⟩ => ⟨S1x8x1x32, .f32⟩
  | .hbm, ⟨46, _⟩ => ⟨S4x8x32768x32, .f32⟩
  | .hbm, ⟨47, _⟩ => ⟨S4x8x32768x32, .f32⟩
  | .hbm, ⟨48, _⟩ => ⟨S1x8x1x32, .f32⟩
  | .hbm, ⟨49, _⟩ => ⟨S4x8x32768x32, .f32⟩
  | .hbm, ⟨50, _⟩ => ⟨S4x8x32768x32, .f32⟩
  | .hbm, ⟨51, _⟩ => ⟨S_, .f32⟩
  | .hbm, ⟨52, _⟩ => ⟨S4x8x32768, .f32⟩
  | .hbm, ⟨53, _⟩ => ⟨S4x8x32768x1, .f32⟩
  | .hbm, ⟨54, _⟩ => ⟨S_, .f32⟩
  | .hbm, ⟨55, _⟩ => ⟨S4x8x32768x1, .f32⟩
  | .hbm, ⟨56, _⟩ => ⟨S4x8x32768x1, .f32⟩
  | .hbm, ⟨57, _⟩ => ⟨S_, .i32⟩
  | .hbm, ⟨58, _⟩ => ⟨S_, .f32⟩
  | .hbm, ⟨59, _⟩ => ⟨S4x8x32768, .f32⟩
  | .hbm, ⟨60, _⟩ => ⟨S4x8x32768x1, .f32⟩
  | .hbm, ⟨61, _⟩ => ⟨S_, .f32⟩
  | .hbm, ⟨62, _⟩ => ⟨S4x8x32768x1, .f32⟩
  | .hbm, ⟨63, _⟩ => ⟨S4x8x32768x1, .f32⟩
  | .hbm, ⟨64, _⟩ => ⟨S4x8x32768x32, .f32⟩
  | .hbm, ⟨65, _⟩ => ⟨S4x8x32768x32, .f32⟩
  | .hbm, ⟨66, _⟩ => ⟨S4x8x32768x32, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S4x8x32768, .f32⟩
  | .hbm, ⟨72, _⟩ => ⟨S4x8x32768x1, .f32⟩
  | .hbm, ⟨73, _⟩ => ⟨S4x8x32768x1, .f32⟩
  | .hbm, ⟨74, _⟩ => ⟨S4x8x32768x1, .f32⟩
  | .hbm, ⟨75, _⟩ => ⟨S_, .f32⟩
  | .hbm, ⟨76, _⟩ => ⟨S_, .i1⟩
  | .hbm, ⟨77, _⟩ => ⟨S_, .f32⟩
  | .hbm, ⟨78, _⟩ => ⟨S_, .f32⟩
  | .hbm, ⟨79, _⟩ => ⟨S4x8x32768x1, .f32⟩
  | .hbm, ⟨80, _⟩ => ⟨S4x8x32768x1, .f32⟩
  | .hbm, ⟨81, _⟩ => ⟨S4x8x32768x1, .f32⟩
  | .hbm, ⟨82, _⟩ => ⟨S4x8x32768x32, .f32⟩
  | .hbm, ⟨83, _⟩ => ⟨S4x8x32768x32, .f32⟩
  | .hbm, ⟨84, _⟩ => ⟨S_, .f32⟩
  | .hbm, ⟨85, _⟩ => ⟨S4x8x32768x1, .f32⟩
  | .hbm, ⟨86, _⟩ => ⟨S4x8x32768x1, .f32⟩
  | .hbm, ⟨87, _⟩ => ⟨S4x8x32768x32, .f32⟩
  | .hbm, ⟨88, _⟩ => ⟨S4x8x32768x32, .f32⟩
  | .hbm, ⟨89, _⟩ => ⟨S1x8x1x32, .f32⟩
  | .hbm, ⟨90, _⟩ => ⟨S4x8x32768x32, .f32⟩
  | .hbm, ⟨91, _⟩ => ⟨S4x8x32768x32, .f32⟩
  | .hbm, ⟨92, _⟩ => ⟨S1x8x1x32, .f32⟩
  | .hbm, ⟨93, _⟩ => ⟨S4x8x32768x32, .f32⟩
  | .hbm, ⟨94, _⟩ => ⟨S4x8x32768x32, .f32⟩
  | .hbm, ⟨95, _⟩ => ⟨S4x8x32x32, .f32⟩
  | .hbm, ⟨96, _⟩ => ⟨S_, .f32⟩
  | .hbm, ⟨97, _⟩ => ⟨S4x8x32x32, .f32⟩
  | .hbm, ⟨98, _⟩ => ⟨S4x8x32x32, .f32⟩
  | .hbm, ⟨99, _⟩ => ⟨S4x8x32768x32, .f32⟩
  | .hbm, ⟨100, _⟩ => ⟨S4x32768x8x32, .f32⟩
  | .hbm, ⟨101, _⟩ => ⟨S4x32768x256, .f32⟩
  | .hbm, ⟨102, _⟩ => ⟨S4x32768x256, .f32⟩
  | _, _ => ⟨S4x32768x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_c : Ref sig .tc := ⟨.hbm, 13, rfl⟩
abbrev main_call0_call0_cst : Ref sig .tc := ⟨.hbm, 14, rfl⟩
abbrev main_call0_call0_v0 : Ref sig .tc := ⟨.hbm, 15, rfl⟩
abbrev main_call0_call0_v1 : Ref sig .tc := ⟨.hbm, 16, rfl⟩
abbrev main_call0_call0_cst_0 : Ref sig .tc := ⟨.hbm, 17, rfl⟩
abbrev main_call0_call0_v2 : Ref sig .tc := ⟨.hbm, 18, rfl⟩
abbrev main_call0_call0_v3 : Ref sig .tc := ⟨.hbm, 19, rfl⟩
abbrev main_call0_call0_v4 : Ref sig .tc := ⟨.hbm, 20, rfl⟩
abbrev main_call0_call0_v5 : Ref sig .tc := ⟨.hbm, 21, rfl⟩
abbrev main_call0_call0_v6 : Ref sig .tc := ⟨.hbm, 22, rfl⟩
abbrev main_call0_call0_v7 : Ref sig .tc := ⟨.hbm, 23, rfl⟩
abbrev main_call0_call0_cst_1 : Ref sig .tc := ⟨.hbm, 24, rfl⟩
abbrev main_call0_call0_v8 : Ref sig .tc := ⟨.hbm, 25, rfl⟩
abbrev main_call0_call0_cst_2 : Ref sig .tc := ⟨.hbm, 26, rfl⟩
abbrev main_call0_call0_v9 : Ref sig .tc := ⟨.hbm, 27, rfl⟩
abbrev main_call0_call0_v10 : Ref sig .tc := ⟨.hbm, 28, rfl⟩
abbrev main_call0_call0_v11 : Ref sig .tc := ⟨.hbm, 29, rfl⟩
abbrev main_call0_call0_v12 : Ref sig .tc := ⟨.hbm, 30, rfl⟩
abbrev main_call0_call0_cst_3 : Ref sig .tc := ⟨.hbm, 31, rfl⟩
abbrev main_call0_call0_v13 : Ref sig .tc := ⟨.hbm, 32, rfl⟩
abbrev main_call0_call0_cst_4 : Ref sig .tc := ⟨.hbm, 33, rfl⟩
abbrev main_call0_call0_call0_v0 : Ref sig .tc := ⟨.hbm, 34, rfl⟩
abbrev main_call0_call0_call0_v1 : Ref sig .tc := ⟨.hbm, 35, rfl⟩
abbrev main_call0_v0 : Ref sig .tc := ⟨.hbm, 36, rfl⟩
abbrev main_v6 : Ref sig .tc := ⟨.hbm, 37, rfl⟩
abbrev main_v7 : Ref sig .tc := ⟨.hbm, 38, rfl⟩
abbrev main_v8 : Ref sig .tc := ⟨.hbm, 39, rfl⟩
abbrev main_cst_1 : Ref sig .tc := ⟨.hbm, 40, rfl⟩
abbrev main_v9 : Ref sig .tc := ⟨.hbm, 41, rfl⟩
abbrev main_v10 : Ref sig .tc := ⟨.hbm, 42, rfl⟩
abbrev main_v11 : Ref sig .tc := ⟨.hbm, 43, rfl⟩
abbrev main_v12 : Ref sig .tc := ⟨.hbm, 44, rfl⟩
abbrev main_v13 : Ref sig .tc := ⟨.hbm, 45, rfl⟩
abbrev main_v14 : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_cst_2 : Ref sig .tc := ⟨.hbm, 51, rfl⟩
abbrev main_v19 : Ref sig .tc := ⟨.hbm, 52, rfl⟩
abbrev main_v20 : Ref sig .tc := ⟨.hbm, 53, rfl⟩
abbrev main_cst_3 : Ref sig .tc := ⟨.hbm, 54, rfl⟩
abbrev main_v21 : Ref sig .tc := ⟨.hbm, 55, rfl⟩
abbrev main_v22 : Ref sig .tc := ⟨.hbm, 56, rfl⟩
abbrev main_c_4 : Ref sig .tc := ⟨.hbm, 57, rfl⟩
abbrev main_call1_call0_cst : Ref sig .tc := ⟨.hbm, 58, rfl⟩
abbrev main_call1_call0_v0 : Ref sig .tc := ⟨.hbm, 59, rfl⟩
abbrev main_call1_call0_v1 : Ref sig .tc := ⟨.hbm, 60, rfl⟩
abbrev main_call1_call0_cst_0 : Ref sig .tc := ⟨.hbm, 61, rfl⟩
abbrev main_call1_call0_v2 : Ref sig .tc := ⟨.hbm, 62, rfl⟩
abbrev main_call1_call0_v3 : Ref sig .tc := ⟨.hbm, 63, rfl⟩
abbrev main_call1_call0_v4 : Ref sig .tc := ⟨.hbm, 64, rfl⟩
abbrev main_call1_call0_v5 : Ref sig .tc := ⟨.hbm, 65, rfl⟩
abbrev main_call1_call0_v6 : Ref sig .tc := ⟨.hbm, 66, rfl⟩
abbrev main_call1_call0_v7 : Ref sig .tc := ⟨.hbm, 67, rfl⟩
abbrev main_call1_call0_cst_1 : Ref sig .tc := ⟨.hbm, 68, rfl⟩
abbrev main_call1_call0_v8 : Ref sig .tc := ⟨.hbm, 69, rfl⟩
abbrev main_call1_call0_cst_2 : Ref sig .tc := ⟨.hbm, 70, rfl⟩
abbrev main_call1_call0_v9 : Ref sig .tc := ⟨.hbm, 71, rfl⟩
abbrev main_call1_call0_v10 : Ref sig .tc := ⟨.hbm, 72, rfl⟩
abbrev main_call1_call0_v11 : Ref sig .tc := ⟨.hbm, 73, rfl⟩
abbrev main_call1_call0_v12 : Ref sig .tc := ⟨.hbm, 74, rfl⟩
abbrev main_call1_call0_cst_3 : Ref sig .tc := ⟨.hbm, 75, rfl⟩
abbrev main_call1_call0_v13 : Ref sig .tc := ⟨.hbm, 76, rfl⟩
abbrev main_call1_call0_cst_4 : Ref sig .tc := ⟨.hbm, 77, rfl⟩
abbrev main_call1_call0_call0_v0 : Ref sig .tc := ⟨.hbm, 78, rfl⟩
abbrev main_call1_call0_call0_v1 : Ref sig .tc := ⟨.hbm, 79, rfl⟩
abbrev main_call1_v0 : Ref sig .tc := ⟨.hbm, 80, rfl⟩
abbrev main_v23 : Ref sig .tc := ⟨.hbm, 81, rfl⟩
abbrev main_v24 : Ref sig .tc := ⟨.hbm, 82, rfl⟩
abbrev main_v25 : Ref sig .tc := ⟨.hbm, 83, rfl⟩
abbrev main_cst_5 : Ref sig .tc := ⟨.hbm, 84, rfl⟩
abbrev main_v26 : Ref sig .tc := ⟨.hbm, 85, rfl⟩
abbrev main_v27 : Ref sig .tc := ⟨.hbm, 86, rfl⟩
abbrev main_v28 : Ref sig .tc := ⟨.hbm, 87, rfl⟩
abbrev main_v29 : Ref sig .tc := ⟨.hbm, 88, rfl⟩
abbrev main_v30 : Ref sig .tc := ⟨.hbm, 89, rfl⟩
abbrev main_v31 : Ref sig .tc := ⟨.hbm, 90, rfl⟩
abbrev main_v32 : Ref sig .tc := ⟨.hbm, 91, rfl⟩
abbrev main_v33 : Ref sig .tc := ⟨.hbm, 92, rfl⟩
abbrev main_v34 : Ref sig .tc := ⟨.hbm, 93, rfl⟩
abbrev main_v35 : Ref sig .tc := ⟨.hbm, 94, rfl⟩
abbrev main_v36 : Ref sig .tc := ⟨.hbm, 95, rfl⟩
abbrev main_cst_6 : Ref sig .tc := ⟨.hbm, 96, rfl⟩
abbrev main_v37 : Ref sig .tc := ⟨.hbm, 97, rfl⟩
abbrev main_v38 : Ref sig .tc := ⟨.hbm, 98, rfl⟩
abbrev main_v39 : Ref sig .tc := ⟨.hbm, 99, rfl⟩
abbrev main_v40 : Ref sig .tc := ⟨.hbm, 100, rfl⟩
abbrev main_v41 : Ref sig .tc := ⟨.hbm, 101, rfl⟩
abbrev main_v42 : Ref sig .tc := ⟨.hbm, 102, rfl⟩

abbrev nD : Nat := 1
abbrev τ : Topo := Topo.v7x

variable {F : FTy → Type} [FloatOps F]

class Facts₀ : Prop where
  shapeCasts_S4x32768x256_S4x32768x8x32 : S4x32768x256.ShapeCasts S4x32768x8x32
  transposes_S4x32768x8x32_S4x8x32768x32_0_2_1_3 : S4x32768x8x32.Transposes [0, 2, 1, 3] S4x8x32768x32
  reducesTo_S4x8x32768x32_S4x8x32768_d3 : S4x8x32768x32.ReducesTo [3] S4x8x32768
  h_S_ : 0 < S_.numel
  bcast_S4x8x32768_S4x8x32768x1_0_1_2 : S4x8x32768.BroadcastsInDim S4x8x32768x1 (![0, 1, 2] : Fin 3 → Fin S4x8x32768x1.rank)
  bcast_S_S4x8x32768x1 : S_.BroadcastsInDim S4x8x32768x1 (![] : Fin 0 → Fin S4x8x32768x1.rank)
  bcast_S4x8x32768x1_S4x8x32768x32_0_1_2_3 : S4x8x32768x1.BroadcastsInDim S4x8x32768x32 (![0, 1, 2, 3] : Fin 4 → Fin S4x8x32768x32.rank)
  bcast_S8x1x32_S1x8x1x32_1_2_3 : S8x1x32.BroadcastsInDim S1x8x1x32 (![1, 2, 3] : Fin 3 → Fin S1x8x1x32.rank)
  bcast_S1x8x1x32_S4x8x32768x32_0_1_2_3 : S1x8x1x32.BroadcastsInDim S4x8x32768x32 (![0, 1, 2, 3] : Fin 4 → Fin S4x8x32768x32.rank)
  bcast_S_S4x8x32x32 : S_.BroadcastsInDim S4x8x32x32 (![] : Fin 0 → Fin S4x8x32x32.rank)
  transposes_S4x8x32768x32_S4x32768x8x32_0_2_1_3 : S4x8x32768x32.Transposes [0, 2, 1, 3] S4x32768x8x32
  shapeCasts_S4x32768x8x32_S4x32768x256 : S4x32768x8x32.ShapeCasts S4x32768x256
  dot_S4x8x32768x32_S4x8x32768x32_S4x8x32x32_2_2_3_3_01_01_wf : DotDims.WF S4x8x32768x32 S4x8x32768x32 S4x8x32x32 [2] [2] [3] [3] [0, 1] [0, 1]
  dot_S4x8x32768x32_S4x8x32x32_S4x8x32768x32_3_2_2_3_01_01_wf : DotDims.WF S4x8x32768x32 S4x8x32x32 S4x8x32768x32 [3] [2] [2] [3] [0, 1] [0, 1]

variable [Facts₀]

def dot_S4x8x32768x32_S4x8x32768x32_S4x8x32x32_2_2_3_3_01_01 : DotDims S4x8x32768x32 S4x8x32768x32 S4x8x32x32 where
  lhsContracting := [2]
  rhsContracting := [2]
  lhsNonContracting := [3]
  rhsNonContracting := [3]
  lhsBatch := [0, 1]
  rhsBatch := [0, 1]
  wf := dot_S4x8x32768x32_S4x8x32768x32_S4x8x32x32_2_2_3_3_01_01_wf
def dot_S4x8x32768x32_S4x8x32x32_S4x8x32768x32_3_2_2_3_01_01 : DotDims S4x8x32768x32 S4x8x32x32 S4x8x32768x32 where
  lhsContracting := [3]
  rhsContracting := [2]
  lhsNonContracting := [2]
  rhsNonContracting := [3]
  lhsBatch := [0, 1]
  rhsBatch := [0, 1]
  wf := dot_S4x8x32768x32_S4x8x32x32_S4x8x32768x32_3_2_2_3_01_01_wf

class Facts : Prop extends Facts₀ where

variable [Facts]
-- ==== Proof.LibCanonAppend.lean ====
/-
  The contents a list of stores leaves, read through a split of the list: at an index that some store of the newer part
  covers the older part does not matter; at an index that no store of the newer part covers only the older part matters.
  (A scratch buffer zero-filled whole and then overwritten by disjoint row copies: a copied lane reads its row copy, every
  other lane reads the zero fill.)
-/
import Idealize.ShloMosaic.Lib.Pipeline.FrameBody

namespace Cert.Lib

open Idealize.ShloMosaic Idealize.SL.Sem

variable {Val : EltTy → Type} [∀ e, Nonempty (Val e)] {s : Shape} {e : EltTy}

/-- No store of the newer part covers the index: the newer part is transparent there. -/
theorem canon_append_of_forall_not_mem : ∀ (L₁ L₂ : List (View.Piece Val s e)) (y : s.Idx),
    (∀ p ∈ L₁, y ∉ p.1.set) → View.canon (L₁ ++ L₂) y = View.canon L₂ y
  | [], _, _, _ => rfl
  | p :: L₁, L₂, y, h => by
    rw [List.cons_append, View.canon_cons_of_not_mem p (L₁ ++ L₂) (h p (by simp))]
    exact canon_append_of_forall_not_mem L₁ L₂ y fun q hq => h q (by simp [hq])

/-- Some store of the newer part covers the index: the older part is never reached. -/
theorem canon_append_of_cover : ∀ (L₁ L₂ : List (View.Piece Val s e)) (y : s.Idx),
    (∃ p ∈ L₁, y ∈ p.1.set) → View.canon (L₁ ++ L₂) y = View.canon L₁ y
  | [], _, _, h => by obtain ⟨p, hp, _⟩ := h; simp at hp
  | p :: L₁, L₂, y, h => by
    by_cases hm : y ∈ p.1.set
    · obtain ⟨r, w⟩ := p
      obtain ⟨x, rfl⟩ : ∃ x, r.emb x = y := r.exists_idx_of_mem hm
      rw [List.cons_append, View.canon_cons_emb, View.canon_cons_emb]
    · rw [List.cons_append, View.canon_cons_of_not_mem p (L₁ ++ L₂) hm, View.canon_cons_of_not_mem p L₁ hm]
      refine canon_append_of_cover L₁ L₂ y ?_
      obtain ⟨q, hq, hyq⟩ := h
      rcases List.mem_cons.mp hq with rfl | hq'
      · exact absurd hyq hm
      · exact ⟨q, hq', hyq⟩

end Cert.Lib
-- ==== Proof.LibSlabs.lean ====
/-
  A rank-3 buffer written slab by slab along its leading axis, and read back.
  Slab j is the unit rectangle at offsets (j, 0, 0) of extents (1, a, c). An index whose leading coordinate is not j
  lies outside slab j, so what the writes leave there is what the earlier writes left; an index whose leading
  coordinate is j reads slab j's payload at the other two coordinates. The load rectangles that go with it: a
  slab read at (0, p, q) is the buffer's (j, p, q); a row across all slabs at offsets (0, g, 0) of extents
  (n, 1, c) read at (b, 0, q) is the buffer's (b, g, q); rows k .. k + a - 1 of a matrix read at (r, q) are its
  (k + r, q).
-/
import Idealize.ShloMosaic.Lib.Pipeline.FrameBody
import Idealize.ShloMosaic.Lib.ValueIdx

noncomputable section

namespace Cert.LibSlabs

open Idealize.ShloMosaic Idealize.ShloMosaic.ValueIdx

variable {n a c : ℕ} {e : EltTy} {Val : EltTy → Type} [∀ e, Nonempty (Val e)]

theorem not_mem_slab (j : ℕ) (inb : ∀ d, (![j, 0, 0] : Fin 3 → ℕ) d + (![1, a, c] : Fin 3 → ℕ) d ≤ (⟨3, ![n, a, c]⟩ : Shape).size d)
    (b : Fin n) (p : Fin a) (q : Fin c) (hne : b.val ≠ j) :
    ix3 b p q ∉ (Rect.unit (s := ⟨3, ![n, a, c]⟩) ![j, 0, 0] ![1, a, c] inb).set := by
  intro hm
  have h0 := (Rect.mem_set_unit.mp hm) 0
  have h0' : j ≤ b.val ∧ b.val < j + 1 := h0
  omega

theorem slab_hit (j : ℕ) (inb : ∀ d, (![j, 0, 0] : Fin 3 → ℕ) d + (![1, a, c] : Fin 3 → ℕ) d ≤ (⟨3, ![n, a, c]⟩ : Shape).size d)
    (w : (⟨3, ![1, a, c]⟩ : Shape).Idx → Val e) (L : List (View.Piece Val ⟨3, ![n, a, c]⟩ e))
    (b : Fin n) (hb : b.val = j) (p : Fin a) (q : Fin c) :
    View.canon (⟨Rect.unit (s := ⟨3, ![n, a, c]⟩) ![j, 0, 0] ![1, a, c] inb, w⟩ :: L) (ix3 b p q) = w (ix3 0 p q) := by
  have e : ix3 b p q = (Rect.unit (s := ⟨3, ![n, a, c]⟩) ![j, 0, 0] ![1, a, c] inb).emb (ix3 0 p q) := by
    funext d; apply Fin.ext
    match d with
    | ⟨0, _⟩ => show b.val = j + 1 * 0; omega
    | ⟨1, _⟩ => show p.val = 0 + 1 * p.val; omega
    | ⟨2, _⟩ => show q.val = 0 + 1 * q.val; omega
  rw [e]
  exact View.canon_cons_emb (Rect.unit (s := ⟨3, ![n, a, c]⟩) ![j, 0, 0] ![1, a, c] inb) w L (ix3 0 p q)

theorem slab_miss (j : ℕ) (inb : ∀ d, (![j, 0, 0] : Fin 3 → ℕ) d + (![1, a, c] : Fin 3 → ℕ) d ≤ (⟨3, ![n, a, c]⟩ : Shape).size d)
    (w : (⟨3, ![1, a, c]⟩ : Shape).Idx → Val e) (L : List (View.Piece Val ⟨3, ![n, a, c]⟩ e))
    (b : Fin n) (hb : b.val ≠ j) (p : Fin a) (q : Fin c) :
    View.canon (⟨Rect.unit (s := ⟨3, ![n, a, c]⟩) ![j, 0, 0] ![1, a, c] inb, w⟩ :: L) (ix3 b p q) = View.canon L (ix3 b p q) :=
  View.canon_cons_of_not_mem _ L (not_mem_slab j inb b p q hb)

theorem slab_idx (j : ℕ) (inb : ∀ d, (![j, 0, 0] : Fin 3 → ℕ) d + (![1, a, c] : Fin 3 → ℕ) d ≤ (⟨3, ![n, a, c]⟩ : Shape).size d)
    (hj : j < n) (p : Fin a) (q : Fin c) :
    (Rect.unit (s := ⟨3, ![n, a, c]⟩) ![j, 0, 0] ![1, a, c] inb).toLoadRect.idx (ix3 0 p q) = ix3 ⟨j, hj⟩ p q := by
  funext d; apply Fin.ext
  match d with
  | ⟨0, _⟩ => show j + 1 * 0 = j; omega
  | ⟨1, _⟩ => show 0 + 1 * p.val = p.val; omega
  | ⟨2, _⟩ => show 0 + 1 * q.val = q.val; omega

theorem midrow_idx (g : ℕ) (inb : ∀ d, (![0, g, 0] : Fin 3 → ℕ) d + (![n, 1, c] : Fin 3 → ℕ) d ≤ (⟨3, ![n, a, c]⟩ : Shape).size d)
    (hg : g < a) (b : Fin n) (q : Fin c) :
    (Rect.unit (s := ⟨3, ![n, a, c]⟩) ![0, g, 0] ![n, 1, c] inb).toLoadRect.idx (ix3 b 0 q) = ix3 b ⟨g, hg⟩ q := by
  funext d; apply Fin.ext
  match d with
  | ⟨0, _⟩ => show 0 + 1 * b.val = b.val; omega
  | ⟨1, _⟩ => show g + 1 * 0 = g; omega
  | ⟨2, _⟩ => show 0 + 1 * q.val = q.val; omega

theorem rows_idx {N : ℕ} (k : ℕ) (inb : ∀ d, (![k, 0] : Fin 2 → ℕ) d + (![a, c] : Fin 2 → ℕ) d ≤ (⟨2, ![N, c]⟩ : Shape).size d)
    (r : Fin a) (q : Fin c) (h : k + r.val < N) :
    (Rect.unit (s := ⟨2, ![N, c]⟩) ![k, 0] ![a, c] inb).toLoadRect.idx (ix2 r q) = ix2 ⟨k + r.val, h⟩ q := by
  funext d; apply Fin.ext
  match d with
  | ⟨0, _⟩ => show k + 1 * r.val = k + r.val; omega
  | ⟨1, _⟩ => show 0 + 1 * q.val = q.val; omega

theorem whole2_idx (inb : ∀ d, (![0, 0] : Fin 2 → ℕ) d + (![a, c] : Fin 2 → ℕ) d ≤ (⟨2, ![a, c]⟩ : Shape).size d)
    (r : Fin a) (q : Fin c) :
    (Rect.unit (s := ⟨2, ![a, c]⟩) ![0, 0] ![a, c] inb).toLoadRect.idx (ix2 r q) = ix2 r q := by
  funext d; apply Fin.ext
  match d with
  | ⟨0, _⟩ => show 0 + 1 * r.val = r.val; omega
  | ⟨1, _⟩ => show 0 + 1 * q.val = q.val; omega

end Cert.LibSlabs

end
-- ==== Proof.Kv.Shared.lean ====
/-
  The first pass (the key–value moment), what its three kinds of grid point have in common.

  The grid has 4 × 8 points; point t = 8 b + n handles tokens [4096 n, 4096 n + 4096) of batch b. The body keeps
  an accumulator of shape [8, 32, 32] (one 32 × 32 matrix per head) in a buffer of its own across the eight points
  of a batch: at n = 0 it first clears it, at every point it adds each head's product of features into the head's
  slab, and at n = 7 it also scales the accumulator and stores it into the output block, which is written back to
  the batch's slab of the result only there. Here: the two conditions as properties of the point, decided over the
  grid; where the output window is idle; and the invariant's scoped buffers spelt out.
-/
import proofs.«173681_j5471788335757_2_alg».proof.Proof.Gen.KernelIdeal.Launch
import proofs.«173681_j5471788335757_2_alg».proof.Proof.Gen.KernelIdeal.Skeleton
import proofs.«173681_j5471788335757_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The two conditions -/

/-- "This is the first block of a batch": the body's first conditional, as it computes it from the coordinates. -/
abbrev firstBlock (i : grid0.Coords) : Prop :=
  (Scalar.cmpi .ne (Scalar.extui (Scalar.cmpi .eq (BitVec.ofNat 32 (i 1).val) 0#32)) 0#32) = 1#1

/-- It holds exactly at the points 8 b. -/
theorem firstBlock_iff : ∀ t : Fin cfg0.N, firstBlock (grid0.coords t) ↔ t.val % 8 = 0 :=
  (by decide +kernel : ∀ t : Fin grid0.N, firstBlock (grid0.coords t) ↔ t.val % 8 = 0)

/-- "This is the last block of a batch": the body's second conditional. -/
abbrev lastBlock (i : grid0.Coords) : Prop := k0_cond2 i = 1#1

/-- It holds exactly at the points 8 b + 7. -/
theorem lastBlock_iff : ∀ t : Fin cfg0.N, lastBlock (grid0.coords t) ↔ t.val % 8 = 7 :=
  (by decide +kernel : ∀ t : Fin grid0.N, lastBlock (grid0.coords t) ↔ t.val % 8 = 7)

/-! ## Where the windows are idle -/

theorem live0_0 : ∀ t : Fin cfg0.N, cfg0.idle 0 (grid0.coords t) = false := by decide +kernel
theorem live0_1 : ∀ t : Fin cfg0.N, cfg0.idle 1 (grid0.coords t) = false := by decide +kernel
theorem live0_2 : ∀ t : Fin cfg0.N, cfg0.idle 2 (grid0.coords t) = false := by decide +kernel
theorem live0_3 : ∀ t : Fin cfg0.N, cfg0.idle 3 (grid0.coords t) = false := by decide +kernel
theorem live0_4 : ∀ t : Fin cfg0.N, cfg0.idle 4 (grid0.coords t) = false := by decide +kernel
/-- Away from a batch's last block the output window is idle and is not written back. -/
theorem idle0_5 : ∀ t : Fin cfg0.N, ¬lastBlock (grid0.coords t) → cfg0.idle 5 (grid0.coords t) = true := by decide +kernel
theorem noFlush0_5 : ∀ t : Fin cfg0.N, ¬lastBlock (grid0.coords t) → (cfg0.win 5).flush t = false := by decide +kernel
/-- At a batch's last block it is live. -/
theorem live0_5 : ∀ t : Fin cfg0.N, lastBlock (grid0.coords t) → cfg0.idle 5 (grid0.coords t) = false := by decide +kernel

/-! ## The memrefs at a point -/

abbrev ms0_0 (t : Fin cfg0.N) : Memref sig .tc .vmem S1x4096x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x8x32x32 .f32 := win0_5.stage (cfg0.slots t 5)
abbrev hs0_5 (t : Fin cfg0.N) : (ms0_5 t).IsWhole := hstage0_5 ((cfg0.slots t 5).cast nbuf0_5)

/-- The accumulator: a whole buffer of the kernel's own. -/
abbrev accM : Memref sig .tc .vmem S8x32x32 .f32 := Memref.whole cc0_scratch0
/-- The view through which its contents are stated. -/
abbrev accV : View sig .tc .vmem S8x32x32 .f32 := accM.view
/-- One staging buffer of the output window, through which the block's contents are stated. -/
abbrev outV : View sig .tc .vmem S1x8x32x32 .f32 := (Memref.whole cc0_stg5_0 : Memref sig .tc .vmem S1x8x32x32 .f32).view

/-! ## The invariant's scoped buffers -/

/-- The scoped buffers that are neither this pass's staging buffers nor its accumulator (the second pass's staging
    buffers), each held whole at some contents. -/
def otherScoped (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f))

/-- The plain region invariant: the accumulator at some contents, the other scoped buffers, the generator register. -/
theorem PhiA0_eq (c : Dev nD) :
    (Pipeline.ΦA spec0 c : sProp 𝕄)
      = iprop(iprop((∃ d, owns (c : Thread nD τ) accM fullShare d) ∗ otherScoped (F := F) c) ∗ (∃ r, prngReg c r)) := by
  unfold Pipeline.ΦA otherScoped; rw [scopedRest0_eq]; simp only [accM, owns_whole]; rfl

end Cert.KernelIdeal.Hand

end
-- ==== Proof.Kv.Head.lean ====
/-
  One head's share of the first pass, as one function of the head's 32 columns of the token block, the head's four
  rows of weights and biases, and the head's slab of the accumulator: the columns are normalised row by row (mean
  over the 32 entries, deviation, sample standard deviation with 31 in the denominator, a small constant added to
  it), scaled and shifted twice (keys, values), the two feature blocks are multiplied with the token axis
  contracted, and the 32 × 32 product is added to the slab. Every head of the body is this function at the head's
  slices; the eight stores of a point are stated through it.
-/
import proofs.«173681_j5471788335757_2_alg».proof.Proof.Kv.Shared

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The normalised columns of one head: [4096, 32] in, [4096, 32] out. -/
def headNormed (xh : FVec F S4096x32 .f32) : FVec F S4096x32 .f32 :=
  let mean : FVec F S4096x1 .f32 :=
    divf (shapeCast S4096x1 (multiReduction .add [1] S4096 xh 0x00000000#32 reduces_S4096x32_S4096 (.inl rfl) rfl) shapeCasts_S4096_S4096x1)
      (broadcast S4096x1 (Scalar.ofBits .f32 0x42000000#32))
  let dev : FVec F S4096x32 .f32 := subf xh (broadcastTo S4096x32 mean broadcasts_S4096x1_S4096x32)
  let var : FVec F S4096x1 .f32 :=
    divf (shapeCast S4096x1 (multiReduction .add [1] S4096 (mulf dev dev) 0x00000000#32 reduces_S4096x32_S4096 (.inl rfl) rfl) shapeCasts_S4096_S4096x1)
      (broadcast S4096x1 (Scalar.ofBits .f32 0x41F80000#32))
  divf dev (broadcastTo S4096x32 (addf (sqrt var) (broadcast S4096x1 (Scalar.ofBits .f32 0x3727C5AC#32))) broadcasts_S4096x1_S4096x32)

/-- A feature block: the normalised columns times a row of weights plus a row of biases. -/
def headFeature (nh : FVec F S4096x32 .f32) (w b : FVec F S32 .f32) : FVec F S4096x32 .f32 :=
  addf (mulf nh (broadcastTo S4096x32 (shapeCast S1x32 w shapeCasts_S32_S1x32) broadcasts_S1x32_S4096x32))
    (broadcastTo S4096x32 (shapeCast S1x32 b shapeCasts_S32_S1x32) broadcasts_S1x32_S4096x32)

/-- The product of the two feature blocks with the token axis contracted: a 32 × 32 matrix. -/
def headProduct (xh : FVec F S4096x32 .f32) (kw kb vw vb : FVec F S32 .f32) : FVec F S32x32 .f32 :=
  matmul dot_S4096x32_S4096x32_S32x32_0_0_1_1_n_n none
    (truncf .bf16 (headFeature (headNormed xh) kw kb) bitsLt_bf16_f32)
    (truncf .bf16 (headFeature (headNormed xh) vw vb) bitsLt_bf16_f32)
    (constant S32x32 .f32 0x00000000#32)

/-- The head's slab after the point: what it held plus the product. -/
def headStep (xh : FVec F S4096x32 .f32) (kw kb vw vb : FVec F S32 .f32) (acc : Vec F S1x32x32 .f32) : FVec F S1x32x32 .f32 :=
  shapeCast S1x32x32 (addf (shapeCast S32x32 acc shapeCasts_S1x32x32_S32x32) (headProduct xh kw kb vw vb)) shapeCasts_S32x32_S1x32x32

/-- The token block without its leading unit axis, and a row of 256 weights without its. -/
abbrev tokens (x0 : Vec F S1x4096x256 .f32) : FVec F S4096x256 .f32 := shapeCast S4096x256 x0 shapeCasts_S1x4096x256_S4096x256
abbrev flat (x : Vec F S1x256 .f32) : FVec F S256 .f32 := shapeCast S256 x shapeCasts_S1x256_S256

/-- What a point stores into slab `h`, from the token block, the four rows and what the slab held. -/
def slabStep (x0 : Vec F S1x4096x256 .f32) (x1 x2 x3 x4 : Vec F S1x256 .f32) : (h : Fin 8) → Vec F S1x32x32 .f32 → FVec F S1x32x32 .f32
  | ⟨0, _⟩ => headStep (extractStridedSlice S4096x32 ![0, 0] (tokens x0) slices_S4096x256_o0_0_S4096x32) (extractStridedSlice S32 ![0] (flat x1) slices_S256_o0_S32) (extractStridedSlice S32 ![0] (flat x2) slices_S256_o0_S32) (extractStridedSlice S32 ![0] (flat x3) slices_S256_o0_S32) (extractStridedSlice S32 ![0] (flat x4) slices_S256_o0_S32)
  | ⟨1, _⟩ => headStep (extractStridedSlice S4096x32 ![0, 32] (tokens x0) slices_S4096x256_o0_32_S4096x32) (extractStridedSlice S32 ![32] (flat x1) slices_S256_o32_S32) (extractStridedSlice S32 ![32] (flat x2) slices_S256_o32_S32) (extractStridedSlice S32 ![32] (flat x3) slices_S256_o32_S32) (extractStridedSlice S32 ![32] (flat x4) slices_S256_o32_S32)
  | ⟨2, _⟩ => headStep (extractStridedSlice S4096x32 ![0, 64] (tokens x0) slices_S4096x256_o0_64_S4096x32) (extractStridedSlice S32 ![64] (flat x1) slices_S256_o64_S32) (extractStridedSlice S32 ![64] (flat x2) slices_S256_o64_S32) (extractStridedSlice S32 ![64] (flat x3) slices_S256_o64_S32) (extractStridedSlice S32 ![64] (flat x4) slices_S256_o64_S32)
  | ⟨3, _⟩ => headStep (extractStridedSlice S4096x32 ![0, 96] (tokens x0) slices_S4096x256_o0_96_S4096x32) (extractStridedSlice S32 ![96] (flat x1) slices_S256_o96_S32) (extractStridedSlice S32 ![96] (flat x2) slices_S256_o96_S32) (extractStridedSlice S32 ![96] (flat x3) slices_S256_o96_S32) (extractStridedSlice S32 ![96] (flat x4) slices_S256_o96_S32)
  | ⟨4, _⟩ => headStep (extractStridedSlice S4096x32 ![0, 128] (tokens x0) slices_S4096x256_o0_128_S4096x32) (extractStridedSlice S32 ![128] (flat x1) slices_S256_o128_S32) (extractStridedSlice S32 ![128] (flat x2) slices_S256_o128_S32) (extractStridedSlice S32 ![128] (flat x3) slices_S256_o128_S32) (extractStridedSlice S32 ![128] (flat x4) slices_S256_o128_S32)
  | ⟨5, _⟩ => headStep (extractStridedSlice S4096x32 ![0, 160] (tokens x0) slices_S4096x256_o0_160_S4096x32) (extractStridedSlice S32 ![160] (flat x1) slices_S256_o160_S32) (extractStridedSlice S32 ![160] (flat x2) slices_S256_o160_S32) (extractStridedSlice S32 ![160] (flat x3) slices_S256_o160_S32) (extractStridedSlice S32 ![160] (flat x4) slices_S256_o160_S32)
  | ⟨6, _⟩ => headStep (extractStridedSlice S4096x32 ![0, 192] (tokens x0) slices_S4096x256_o0_192_S4096x32) (extractStridedSlice S32 ![192] (flat x1) slices_S256_o192_S32) (extractStridedSlice S32 ![192] (flat x2) slices_S256_o192_S32) (extractStridedSlice S32 ![192] (flat x3) slices_S256_o192_S32) (extractStridedSlice S32 ![192] (flat x4) slices_S256_o192_S32)
  | ⟨7, _⟩ => headStep (extractStridedSlice S4096x32 ![0, 224] (tokens x0) slices_S4096x256_o0_224_S4096x32) (extractStridedSlice S32 ![224] (flat x1) slices_S256_o224_S32) (extractStridedSlice S32 ![224] (flat x2) slices_S256_o224_S32) (extractStridedSlice S32 ![224] (flat x3) slices_S256_o224_S32) (extractStridedSlice S32 ![224] (flat x4) slices_S256_o224_S32)

end Cert.KernelIdeal.Hand

end
-- ==== Proof.Kv.Slabs.lean ====
/-
  The accumulator, a buffer of shape [8, 32, 32], written one head's slab at a time and read back.

  Slab h is the rectangle at offsets (h, 0, 0) of extents (1, 32, 32). A load of slab h' after a store into another
  slab h reads what was there before that store; after a store of the whole buffer it reads the stored value's
  slab. Eight stores, one per slab, leave at (h, p, q) the payload of slab h's store at (0, p, q), whatever was
  stored before them. Stated for any element type: nothing here looks inside a payload.
-/
import proofs.«173681_j5471788335757_2_alg».proof.Proof.LibSlabs
import proofs.«173681_j5471788335757_2_alg».proof.Proof.Kv.Head
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx

theorem hz4 : (![0, 0, 0, 0] : Fin 4 → Nat) = fun _ => 0 := by funext a; fin_cases a <;> rfl
theorem hz3 : (![0, 0, 0] : Fin 3 → Nat) = fun _ => 0 := by funext a; fin_cases a <;> rfl
theorem hz2 : (![0, 0] : Fin 2 → Nat) = fun _ => 0 := by funext a; fin_cases a <;> rfl

section

variable {Val : EltTy → Type} [∀ e, Nonempty (Val e)] {e : EltTy}

/-- Slab `h` of an array of shape [8, 32, 32], as an array of shape [1, 32, 32]. -/
def slabOf (X : S8x32x32.Idx → Val e) (h : Fin 8) : S1x32x32.Idx → Val e := fun x => X (ix3 h (x 1) (x 2))

/-- The leading coordinate of an index of a [1, 32, 32] array is 0. -/
theorem lead_zero (x : S1x32x32.Idx) : (x 0).val = 0 := by
  have h : (x 0).val < 1 := (x 0).isLt
  omega

/-- A load through slab `j`'s rectangle reads the slab. -/
theorem ld_slab (j : ℕ) (inb : ∀ d, (![j, 0, 0] : Fin 3 → ℕ) d + (![1, 32, 32] : Fin 3 → ℕ) d ≤ S8x32x32.size d) (hj : j < 8)
    (X : S8x32x32.Idx → Val e) :
    View.ld X (Rect.unit (s := S8x32x32) ![j, 0, 0] ![1, 32, 32] inb) = slabOf X ⟨j, hj⟩ := by
  funext x
  show X ((Rect.unit (s := S8x32x32) ![j, 0, 0] ![1, 32, 32] inb).toLoadRect.idx x) = X (ix3 ⟨j, hj⟩ (x 1) (x 2))
  refine congrArg X ?_
  funext d; apply Fin.ext
  match d with
  | ⟨0, _⟩ => show j + 1 * (x 0).val = j; have := lead_zero x; omega
  | ⟨1, _⟩ => show 0 + 1 * (x 1).val = (x 1).val; omega
  | ⟨2, _⟩ => show 0 + 1 * (x 2).val = (x 2).val; omega

/-- A load of slab `j'` after a store into another slab `j` reads what the earlier stores left. -/
theorem readCov_other_slab {sig' : RefSig} {κ : Kind} {sp : Space} (v : View sig' κ sp S8x32x32 e) (j j' : ℕ)
    (inb : ∀ d, (![j, 0, 0] : Fin 3 → ℕ) d + (![1, 32, 32] : Fin 3 → ℕ) d ≤ S8x32x32.size d)
    (inb' : ∀ d, (![j', 0, 0] : Fin 3 → ℕ) d + (![1, 32, 32] : Fin 3 → ℕ) d ≤ S8x32x32.size d)
    (w : S1x32x32.Idx → Val e) (L : List (View.Piece Val S8x32x32 e)) (hj' : j' < 8) (hne : j' ≠ j) :
    v.readCov (⟨Rect.unit (s := S8x32x32) ![j, 0, 0] ![1, 32, 32] inb, w⟩ :: L) (Rect.unit (s := S8x32x32) ![j', 0, 0] ![1, 32, 32] inb').toLoadRect
      = v.readCov L (Rect.unit (s := S8x32x32) ![j', 0, 0] ![1, 32, 32] inb').toLoadRect := by
  rw [View.readCov_eq_canon', View.readCov_eq_canon']
  funext x
  refine View.canon_cons_of_not_mem _ L fun hm => ?_
  have hm' : (Rect.unit (s := S8x32x32) ![j', 0, 0] ![1, 32, 32] inb').toLoadRect.idx x ∈ (Rect.unit (s := S8x32x32) ![j, 0, 0] ![1, 32, 32] inb).set := hm
  have h0 := (Rect.mem_set_unit.mp hm') 0
  have h0' : j ≤ j' + 1 * (x 0).val ∧ j' + 1 * (x 0).val < j + 1 := h0
  have := lead_zero x
  omega

/-- A load of slab `j'` after one store of the whole buffer reads the stored value's slab. -/
theorem readCov_whole_slab {sig' : RefSig} {κ : Kind} {sp : Space} (v : View sig' κ sp S8x32x32 e) (j' : ℕ)
    (inb : ∀ d, (![0, 0, 0] : Fin 3 → ℕ) d + (![8, 32, 32] : Fin 3 → ℕ) d ≤ S8x32x32.size d)
    (inb' : ∀ d, (![j', 0, 0] : Fin 3 → ℕ) d + (![1, 32, 32] : Fin 3 → ℕ) d ≤ S8x32x32.size d)
    (w : S8x32x32.Idx → Val e) :
    v.readCov [⟨Rect.unit (s := S8x32x32) ![0, 0, 0] ![8, 32, 32] inb, w⟩] (Rect.unit (s := S8x32x32) ![j', 0, 0] ![1, 32, 32] inb').toLoadRect
      = View.ld w (Rect.unit (s := S8x32x32) ![j', 0, 0] ![1, 32, 32] inb') := by
  rw [View.readCov_eq_canon']
  funext x
  exact congrFun (View.canon_unit_zero (S := S8x32x32) hz3 inb w) _

end

end Cert.KernelIdeal.Hand

end
-- ==== Proof.Kv.RunMid.lean ====
/-
  The first pass at a point that is neither the first nor the last block of its batch: each head's slab of the accumulator is loaded, increased by the head's product of features and stored back; the output block is not touched.
-/
import proofs.«173681_j5471788335757_2_alg».proof.Proof.Kv.Shared

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The body on whole staging memrefs at this kind of point: the pieces its stores leave (last store first) are found
    by running it; the loads it makes of earlier stores are part of those pieces' values. -/
noncomputable def runMid (c : Dev nD) (i : grid0.Coords) (arg2 : Memref sig .tc .vmem S1x4096x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x8x32x32 .f32) (harg7 : arg7.IsWhole) (arg8 : Memref sig .tc .vmem S8x32x32 .f32) (harg8 : arg8.IsWhole) (hc0 : ¬firstBlock i) (hc1 : ¬lastBlock i)
    (x0 : Vec F S1x4096x256 .f32) (x1 x2 x3 x4 : Vec F S1x256 .f32) (xs0 : Vec F S8x32x32 .f32) :
    { LS0 : List (View.Piece (Elt F) S8x32x32 .f32) //
      ∀ (xi5 : Vec F S1x8x32x32 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc0__kv_kernel i arg2 harg2 arg3 harg3 arg4 harg4 arg5 harg5 arg6 harg6 arg7 harg7 arg8 harg8) K } := by
  refine ⟨?_, fun xi5 E K => ?run⟩
  case run =>
    simp only [cc0__kv_kernel_eq_skeleton]; unfold cc0__kv_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS0

end Cert.KernelIdeal.Hand

end
-- ==== Proof.Kv.RunFirst.lean ====
/-
  The first pass at the first block of a batch: the accumulator is cleared, then each head's slab of it is loaded, increased by the head's product of features and stored back; the output block is not touched. Whatever the accumulator held before is overwritten.
-/
import proofs.«173681_j5471788335757_2_alg».proof.Proof.Kv.RunMid

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The body on whole staging memrefs at this kind of point: the pieces its stores leave (last store first) are found
    by running it; the loads it makes of earlier stores are part of those pieces' values. -/
noncomputable def runFirst (c : Dev nD) (i : grid0.Coords) (arg2 : Memref sig .tc .vmem S1x4096x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x8x32x32 .f32) (harg7 : arg7.IsWhole) (arg8 : Memref sig .tc .vmem S8x32x32 .f32) (harg8 : arg8.IsWhole) (hc0 : firstBlock i) (hc1 : ¬lastBlock i)
    (x0 : Vec F S1x4096x256 .f32) (x1 x2 x3 x4 : Vec F S1x256 .f32) :
    { LS0 : List (View.Piece (Elt F) S8x32x32 .f32) //
      ∀ (xi5 : Vec F S1x8x32x32 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc0__kv_kernel i arg2 harg2 arg3 harg3 arg4 harg4 arg5 harg5 arg6 harg6 arg7 harg7 arg8 harg8) K } := by
  refine ⟨?_, fun xi5 E K => ?run⟩
  case run =>
    simp only [cc0__kv_kernel_eq_skeleton]; unfold cc0__kv_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS0

end Cert.KernelIdeal.Hand

end
-- ==== Proof.Kv.RunLast.lean ====
/-
  The first pass at the last block of a batch: each head's slab of the accumulator is loaded, increased by the head's product of features and stored back; then the whole accumulator is loaded, scaled by the reciprocal of the token count and stored as the output block.
-/
import proofs.«173681_j5471788335757_2_alg».proof.Proof.Kv.RunFirst

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The body on whole staging memrefs at this kind of point: the pieces its stores leave (last store first) are found
    by running it; the loads it makes of earlier stores are part of those pieces' values. -/
noncomputable def runLast (c : Dev nD) (i : grid0.Coords) (arg2 : Memref sig .tc .vmem S1x4096x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x8x32x32 .f32) (harg7 : arg7.IsWhole) (arg8 : Memref sig .tc .vmem S8x32x32 .f32) (harg8 : arg8.IsWhole) (hc0 : ¬firstBlock i) (hc1 : lastBlock i)
    (x0 : Vec F S1x4096x256 .f32) (x1 x2 x3 x4 : Vec F S1x256 .f32) (xs0 : Vec F S8x32x32 .f32) :
    Σ' (L5 : List (View.Piece (Elt F) S1x8x32x32 .f32)), { LS0 : List (View.Piece (Elt F) S8x32x32 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0)) -∗ K ⟨⟩))
          ⊢ wp frame (wpE (defs₀ (F := F)) Variants.none c none) E (cc0__kv_kernel i arg2 harg2 arg3 harg3 arg4 harg4 arg5 harg5 arg6 harg6 arg7 harg7 arg8 harg8) K } := by
  refine ⟨?_, ?_, fun E K => ?run⟩
  case run =>
    simp only [cc0__kv_kernel_eq_skeleton]; unfold cc0__kv_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; iexact H5
    iexists _; iexact HS0

end Cert.KernelIdeal.Hand

end
-- ==== Proof.Kv.Pieces.lean ====
/-
  What the three kinds of point leave in the accumulator and in the output block, in closed form.

  Whatever kind of point it is, the body's eight slab stores are the same function of the token block, the four rows
  of weights and what the accumulator held when the slabs were loaded: `slabPieces`. At a first block that is the
  zero array the body has just stored; elsewhere it is what the point before left. So the accumulator after a point
  is `accNext` of the point's inputs and of that array, and at a last block the output block is the accumulator
  after the point times the reciprocal of the token count (`scaled`). Any element type: the payloads stay folded.
-/
import proofs.«173681_j5471788335757_2_alg».proof.Proof.LibCanonAppend
import proofs.«173681_j5471788335757_2_alg».proof.Proof.Kv.Slabs
import proofs.«173681_j5471788335757_2_alg».proof.Proof.Kv.RunLast

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The eight slab stores of a point (last first), over what the accumulator held when its slabs were loaded. -/
def slabPieces (x0 : Vec F S1x4096x256 .f32) (x1 x2 x3 x4 : Vec F S1x256 .f32) (before : Vec F S8x32x32 .f32) : List (View.Piece (Elt F) S8x32x32 .f32) :=
  [⟨(Rect.unit (s := S8x32x32) ![7, 0, 0] S1x32x32.size inb_S8x32x32_S1x32x32_7_0_0), slabStep x0 x1 x2 x3 x4 7 (View.ld before (Rect.unit (s := S8x32x32) ![7, 0, 0] S1x32x32.size inb_S8x32x32_S1x32x32_7_0_0))⟩,
      ⟨(Rect.unit (s := S8x32x32) ![6, 0, 0] S1x32x32.size inb_S8x32x32_S1x32x32_6_0_0), slabStep x0 x1 x2 x3 x4 6 (View.ld before (Rect.unit (s := S8x32x32) ![6, 0, 0] S1x32x32.size inb_S8x32x32_S1x32x32_6_0_0))⟩,
      ⟨(Rect.unit (s := S8x32x32) ![5, 0, 0] S1x32x32.size inb_S8x32x32_S1x32x32_5_0_0), slabStep x0 x1 x2 x3 x4 5 (View.ld before (Rect.unit (s := S8x32x32) ![5, 0, 0] S1x32x32.size inb_S8x32x32_S1x32x32_5_0_0))⟩,
      ⟨(Rect.unit (s := S8x32x32) ![4, 0, 0] S1x32x32.size inb_S8x32x32_S1x32x32_4_0_0), slabStep x0 x1 x2 x3 x4 4 (View.ld before (Rect.unit (s := S8x32x32) ![4, 0, 0] S1x32x32.size inb_S8x32x32_S1x32x32_4_0_0))⟩,
      ⟨(Rect.unit (s := S8x32x32) ![3, 0, 0] S1x32x32.size inb_S8x32x32_S1x32x32_3_0_0), slabStep x0 x1 x2 x3 x4 3 (View.ld before (Rect.unit (s := S8x32x32) ![3, 0, 0] S1x32x32.size inb_S8x32x32_S1x32x32_3_0_0))⟩,
      ⟨(Rect.unit (s := S8x32x32) ![2, 0, 0] S1x32x32.size inb_S8x32x32_S1x32x32_2_0_0), slabStep x0 x1 x2 x3 x4 2 (View.ld before (Rect.unit (s := S8x32x32) ![2, 0, 0] S1x32x32.size inb_S8x32x32_S1x32x32_2_0_0))⟩,
      ⟨(Rect.unit (s := S8x32x32) ![1, 0, 0] S1x32x32.size inb_S8x32x32_S1x32x32_1_0_0), slabStep x0 x1 x2 x3 x4 1 (View.ld before (Rect.unit (s := S8x32x32) ![1, 0, 0] S1x32x32.size inb_S8x32x32_S1x32x32_1_0_0))⟩,
      ⟨(Rect.unit (s := S8x32x32) ![0, 0, 0] S1x32x32.size inb_S8x32x32_S1x32x32_0_0_0), slabStep x0 x1 x2 x3 x4 0 (View.ld before (Rect.unit (s := S8x32x32) ![0, 0, 0] S1x32x32.size inb_S8x32x32_S1x32x32_0_0_0))⟩]

/-- They tile the accumulator. -/
theorem slabPieces_cover (x0 : Vec F S1x4096x256 .f32) (x1 x2 x3 x4 : Vec F S1x256 .f32) (before : Vec F S8x32x32 .f32) (y : S8x32x32.Idx) :
    ∃ p ∈ slabPieces x0 x1 x2 x3 x4 before, y ∈ p.1.set :=
  View.cover_of_tiledL (slabPieces x0 x1 x2 x3 x4 before) S1x32x32.size (by sl_kernel_rfl) y

/-- The accumulator after a point. -/
def accNext (x0 : Vec F S1x4096x256 .f32) (x1 x2 x3 x4 : Vec F S1x256 .f32) (before : Vec F S8x32x32 .f32) : Vec F S8x32x32 .f32 :=
  View.canon (slabPieces x0 x1 x2 x3 x4 before)

/-- The zero array a first block stores before anything else. -/
abbrev zerosAcc : Vec F S8x32x32 .f32 := k0_pay2

/-- The output block at a last block: the accumulator scaled by the reciprocal of the token count. -/
abbrev scaled (acc : Vec F S8x32x32 .f32) : Vec F S1x8x32x32 .f32 := k0_pay1 acc

/-! ## A point in the middle of a batch -/

theorem runMid_pieces (c : Dev nD) (i : grid0.Coords) (arg2 : Memref sig .tc .vmem S1x4096x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x8x32x32 .f32) (harg7 : arg7.IsWhole) (arg8 : Memref sig .tc .vmem S8x32x32 .f32) (harg8 : arg8.IsWhole) (hc0 : ¬firstBlock i) (hc1 : ¬lastBlock i)
    (x0 : Vec F S1x4096x256 .f32) (x1 x2 x3 x4 : Vec F S1x256 .f32) (xs0 : Vec F S8x32x32 .f32) :
    (runMid c i arg2 harg2 arg3 harg3 arg4 harg4 arg5 harg5 arg6 harg6 arg7 harg7 arg8 harg8 hc0 hc1 x0 x1 x2 x3 x4 xs0).1 = slabPieces x0 x1 x2 x3 x4 xs0 := by
  unfold runMid
  dsimp only
  sl_unfold_run_names
  simp only [View.readAt_eq_ld, harg2.read_unread, harg3.read_unread, harg4.read_unread, harg5.read_unread, harg6.read_unread, harg8.read_unread,
    View.ld_unit_zero (S := S1x4096x256) hz3, View.ld_unit_zero (S := S1x256) hz2]
  rfl

theorem runMid_acc (c : Dev nD) (i : grid0.Coords) (arg2 : Memref sig .tc .vmem S1x4096x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x8x32x32 .f32) (harg7 : arg7.IsWhole) (arg8 : Memref sig .tc .vmem S8x32x32 .f32) (harg8 : arg8.IsWhole) (hc0 : ¬firstBlock i) (hc1 : ¬lastBlock i)
    (x0 : Vec F S1x4096x256 .f32) (x1 x2 x3 x4 : Vec F S1x256 .f32) (xs0 : Vec F S8x32x32 .f32) (f : arg8.view.ty.Contents (Elt F)) :
    arg8.view.read (Elt F) (arg8.view.writes (Elt F) f (runMid c i arg2 harg2 arg3 harg3 arg4 harg4 arg5 harg5 arg6 harg6 arg7 harg7 arg8 harg8 hc0 hc1 x0 x1 x2 x3 x4 xs0).1)
      = accNext x0 x1 x2 x3 x4 xs0 := by
  rw [runMid_pieces]
  exact View.read_writes_eq_canon _ _ _ (slabPieces_cover x0 x1 x2 x3 x4 xs0)

/-! ## The first block of a batch -/

theorem runFirst_pieces (c : Dev nD) (i : grid0.Coords) (arg2 : Memref sig .tc .vmem S1x4096x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x8x32x32 .f32) (harg7 : arg7.IsWhole) (arg8 : Memref sig .tc .vmem S8x32x32 .f32) (harg8 : arg8.IsWhole) (hc0 : firstBlock i) (hc1 : ¬lastBlock i)
    (x0 : Vec F S1x4096x256 .f32) (x1 x2 x3 x4 : Vec F S1x256 .f32) :
    (runFirst c i arg2 harg2 arg3 harg3 arg4 harg4 arg5 harg5 arg6 harg6 arg7 harg7 arg8 harg8 hc0 hc1 x0 x1 x2 x3 x4).1
      = slabPieces x0 x1 x2 x3 x4 zerosAcc ++ [⟨(Rect.unit (s := S8x32x32) ![0, 0, 0] S8x32x32.size inb_S8x32x32_S8x32x32_0_0_0), zerosAcc⟩] := by
  unfold runFirst
  dsimp only
  sl_unfold_run_names
  simp (disch := decide) only [View.readAt_eq_ld, harg2.read_unread, harg3.read_unread, harg4.read_unread, harg5.read_unread, harg6.read_unread,
    View.ld_unit_zero (S := S1x4096x256) hz3, View.ld_unit_zero (S := S1x256) hz2,
    readCov_other_slab, readCov_whole_slab]
  rfl

theorem runFirst_acc (c : Dev nD) (i : grid0.Coords) (arg2 : Memref sig .tc .vmem S1x4096x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x8x32x32 .f32) (harg7 : arg7.IsWhole) (arg8 : Memref sig .tc .vmem S8x32x32 .f32) (harg8 : arg8.IsWhole) (hc0 : firstBlock i) (hc1 : ¬lastBlock i)
    (x0 : Vec F S1x4096x256 .f32) (x1 x2 x3 x4 : Vec F S1x256 .f32) (f : arg8.view.ty.Contents (Elt F)) :
    arg8.view.read (Elt F) (arg8.view.writes (Elt F) f (runFirst c i arg2 harg2 arg3 harg3 arg4 harg4 arg5 harg5 arg6 harg6 arg7 harg7 arg8 harg8 hc0 hc1 x0 x1 x2 x3 x4).1)
      = accNext x0 x1 x2 x3 x4 zerosAcc := by
  rw [runFirst_pieces]
  have hcov : ∀ y, ∃ p ∈ slabPieces x0 x1 x2 x3 x4 (zerosAcc (F := F)) ++ [⟨(Rect.unit (s := S8x32x32) ![0, 0, 0] S8x32x32.size inb_S8x32x32_S8x32x32_0_0_0), zerosAcc⟩], y ∈ p.1.set := fun y => by
    obtain ⟨p, hp, hy⟩ := slabPieces_cover x0 x1 x2 x3 x4 (zerosAcc (F := F)) y
    exact ⟨p, List.mem_append_left _ hp, hy⟩
  rw [View.read_writes_eq_canon _ _ _ hcov]
  funext y
  exact Cert.Lib.canon_append_of_cover _ _ y (slabPieces_cover x0 x1 x2 x3 x4 zerosAcc y)

/-! ## The last block of a batch -/

theorem runLast_pieces (c : Dev nD) (i : grid0.Coords) (arg2 : Memref sig .tc .vmem S1x4096x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x8x32x32 .f32) (harg7 : arg7.IsWhole) (arg8 : Memref sig .tc .vmem S8x32x32 .f32) (harg8 : arg8.IsWhole) (hc0 : ¬firstBlock i) (hc1 : lastBlock i)
    (x0 : Vec F S1x4096x256 .f32) (x1 x2 x3 x4 : Vec F S1x256 .f32) (xs0 : Vec F S8x32x32 .f32) :
    (runLast c i arg2 harg2 arg3 harg3 arg4 harg4 arg5 harg5 arg6 harg6 arg7 harg7 arg8 harg8 hc0 hc1 x0 x1 x2 x3 x4 xs0).2.1 = slabPieces x0 x1 x2 x3 x4 xs0 := by
  unfold runLast
  dsimp only
  sl_unfold_run_names
  simp only [View.readAt_eq_ld, harg2.read_unread, harg3.read_unread, harg4.read_unread, harg5.read_unread, harg6.read_unread, harg8.read_unread,
    View.ld_unit_zero (S := S1x4096x256) hz3, View.ld_unit_zero (S := S1x256) hz2]
  rfl

theorem runLast_acc (c : Dev nD) (i : grid0.Coords) (arg2 : Memref sig .tc .vmem S1x4096x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x8x32x32 .f32) (harg7 : arg7.IsWhole) (arg8 : Memref sig .tc .vmem S8x32x32 .f32) (harg8 : arg8.IsWhole) (hc0 : ¬firstBlock i) (hc1 : lastBlock i)
    (x0 : Vec F S1x4096x256 .f32) (x1 x2 x3 x4 : Vec F S1x256 .f32) (xs0 : Vec F S8x32x32 .f32) (f : arg8.view.ty.Contents (Elt F)) :
    arg8.view.read (Elt F) (arg8.view.writes (Elt F) f (runLast c i arg2 harg2 arg3 harg3 arg4 harg4 arg5 harg5 arg6 harg6 arg7 harg7 arg8 harg8 hc0 hc1 x0 x1 x2 x3 x4 xs0).2.1)
      = accNext x0 x1 x2 x3 x4 xs0 := by
  rw [runLast_pieces]
  exact View.read_writes_eq_canon _ _ _ (slabPieces_cover x0 x1 x2 x3 x4 xs0)

/-- The whole accumulator loaded after the eight slab stores is the accumulator after the point. -/
theorem readCov_slabPieces {sig' : RefSig} {κ : Kind} {sp : Space} (v : View sig' κ sp S8x32x32 .f32) (x0 : Vec F S1x4096x256 .f32) (x1 x2 x3 x4 : Vec F S1x256 .f32) (before : Vec F S8x32x32 .f32) :
    v.readCov (slabPieces x0 x1 x2 x3 x4 before) (Rect.unit (s := S8x32x32) ![0, 0, 0] S8x32x32.size inb_S8x32x32_S8x32x32_0_0_0).toLoadRect = accNext x0 x1 x2 x3 x4 before := by
  rw [View.readCov_eq_canon_ld _ _ _ (slabPieces_cover x0 x1 x2 x3 x4 before), View.ld_unit_zero hz3]
  rfl

theorem runLast_out_pieces (c : Dev nD) (i : grid0.Coords) (arg2 : Memref sig .tc .vmem S1x4096x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x8x32x32 .f32) (harg7 : arg7.IsWhole) (arg8 : Memref sig .tc .vmem S8x32x32 .f32) (harg8 : arg8.IsWhole) (hc0 : ¬firstBlock i) (hc1 : lastBlock i)
    (x0 : Vec F S1x4096x256 .f32) (x1 x2 x3 x4 : Vec F S1x256 .f32) (xs0 : Vec F S8x32x32 .f32) :
    (runLast c i arg2 harg2 arg3 harg3 arg4 harg4 arg5 harg5 arg6 harg6 arg7 harg7 arg8 harg8 hc0 hc1 x0 x1 x2 x3 x4 xs0).1 = [⟨(Rect.unit (s := S1x8x32x32) ![0, 0, 0, 0] S1x8x32x32.size inb_S1x8x32x32_S1x8x32x32_0_0_0_0), scaled (accNext x0 x1 x2 x3 x4 xs0)⟩] := by
  unfold runLast
  dsimp only
  sl_unfold_run_names
  simp only [View.readAt_eq_ld, harg2.read_unread, harg3.read_unread, harg4.read_unread, harg5.read_unread, harg6.read_unread, harg8.read_unread,
    View.ld_unit_zero (S := S1x4096x256) hz3, View.ld_unit_zero (S := S1x256) hz2]
  exact congrArg (fun a : Vec F S8x32x32 .f32 => [(⟨(Rect.unit (s := S1x8x32x32) ![0, 0, 0, 0] S1x8x32x32.size inb_S1x8x32x32_S1x8x32x32_0_0_0_0), scaled a⟩ : View.Piece (Elt F) S1x8x32x32 .f32)])
    (readCov_slabPieces arg8.view x0 x1 x2 x3 x4 xs0)

theorem runLast_out (c : Dev nD) (i : grid0.Coords) (arg2 : Memref sig .tc .vmem S1x4096x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x8x32x32 .f32) (harg7 : arg7.IsWhole) (arg8 : Memref sig .tc .vmem S8x32x32 .f32) (harg8 : arg8.IsWhole) (hc0 : ¬firstBlock i) (hc1 : lastBlock i)
    (x0 : Vec F S1x4096x256 .f32) (x1 x2 x3 x4 : Vec F S1x256 .f32) (xs0 : Vec F S8x32x32 .f32) (f : arg7.view.ty.Contents (Elt F)) :
    arg7.view.read (Elt F) (arg7.view.writes (Elt F) f (runLast c i arg2 harg2 arg3 harg3 arg4 harg4 arg5 harg5 arg6 harg6 arg7 harg7 arg8 harg8 hc0 hc1 x0 x1 x2 x3 x4 xs0).1)
      = scaled (accNext x0 x1 x2 x3 x4 xs0) := by
  rw [runLast_out_pieces]
  rw [View.read_writes_eq_canon _ _ _ (fun y => ⟨_, List.mem_singleton_self _, View.mem_set_unit_zero hz4 inb_S1x8x32x32_S1x8x32x32_0_0_0_0 y⟩), View.canon_unit_zero hz4]

end Cert.KernelIdeal.Hand

end
-- ==== Proof.Kv.Data.lean ====
/-
  The first pass point by point: what the accumulator holds after each grid point, the invariant that carries it
  from one point to the next, and the proof data of the pass.

  After point t the accumulator is `accNext` of the point's five input blocks and of what it held when the point's
  slabs were loaded: zeros at the first block of a batch (t = 8 b), what point t - 1 left otherwise. So after the
  point 8 b + n it holds, slab by slab, the sum over the blocks 0 … n of batch b of the heads' products. The output
  block after a point is the accumulator after it, scaled; it is written back at the last blocks only.
-/
import proofs.«173681_j5471788335757_2_alg».proof.Proof.Kv.Pieces

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section

-- what the core's buffers hold when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not: where it is not
    fetched its block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The accumulator after each point -/

/-- What the accumulator holds after the body at position `n`. -/
def accAt (c : Dev nD) : (n : ℕ) → n < cfg0.N → Vec F S8x32x32 .f32
  | 0, hn => accNext (iblk0 V c 0 ⟨0, hn⟩) (iblk0 V c 1 ⟨0, hn⟩) (iblk0 V c 2 ⟨0, hn⟩) (iblk0 V c 3 ⟨0, hn⟩) (iblk0 V c 4 ⟨0, hn⟩) zerosAcc
  | n + 1, hn =>
    if (n + 1) % 8 = 0 then accNext (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) zerosAcc
    else accNext (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (accAt c n (Nat.lt_of_succ_lt hn))

/-- At the first block of a batch it starts again from zero. -/
theorem accAt_first (c : Dev nD) (t : Fin cfg0.N) (h : t.val % 8 = 0) :
    accAt V c t.val t.isLt = accNext (iblk0 V c 0 t) (iblk0 V c 1 t) (iblk0 V c 2 t) (iblk0 V c 3 t) (iblk0 V c 4 t) zerosAcc := by
  obtain ⟨n, hn⟩ := t
  cases n with
  | zero => rfl
  | succ n => exact if_pos h

/-- Elsewhere it continues from what the point before left. -/
theorem accAt_next (c : Dev nD) (t : Fin cfg0.N) (h : ¬t.val % 8 = 0) :
    accAt V c t.val t.isLt = accNext (iblk0 V c 0 t) (iblk0 V c 1 t) (iblk0 V c 2 t) (iblk0 V c 3 t) (iblk0 V c 4 t) (accAt V c (t.val - 1) (Nat.lt_of_le_of_lt (Nat.sub_le _ _) t.isLt)) := by
  obtain ⟨n, hn⟩ := t
  cases n with
  | zero => exact absurd (Nat.zero_mod _) h
  | succ n => exact if_neg h

/-! ## The invariant -/

/-- Before position `n`: at the region's entry the plain invariant (the accumulator at anything); afterwards the
    accumulator at what the point before left, beside the other scoped buffers and the generator register. -/
def PhiS (c : Dev nD) : (n : ℕ) → n ≤ cfg0.N → sProp 𝕄
  | 0, _ => Pipeline.ΦA spec0 c
  | n + 1, hn => iprop(iprop(owns (c : Thread nD τ) accM fullShare (accAt V c n hn) ∗ otherScoped (F := F) c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) accM fullShare (accAt V c n hn) ∗ otherScoped (F := F) c) ∗ (∃ r, prngReg c r)) := rfl

theorem PhiS_pos (c : Dev nD) (n : ℕ) (h : n ≤ cfg0.N) (hz : n ≠ 0) :
    PhiS V c n h = iprop(iprop(owns (c : Thread nD τ) accM fullShare (accAt V c (n - 1) (by omega)) ∗ otherScoped (F := F) c) ∗ (∃ r, prngReg c r)) := by
  cases n with
  | zero => exact absurd rfl hz
  | succ n => rfl

/-! ## The proof data -/

/-- The proof data of the first pass on core `c`: the arrays as the region finds them; after the body at point `t`
    each input's buffer at its block and the output's at the scaled accumulator; the invariant above; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => scaled (accAt V c t.val t.isLt)
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = scaled (accAt V c t.val t.isLt) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

end

end Cert.KernelIdeal.Hand

end
-- ==== Proof.Out.Data.lean ====
/-
  The second kernel launch of the program: for every batch `b` and every block `n` of 4096 tokens it reads the block
  `[1, 4096, 256]` of the input at `(b, n, 0)` and the eight 32 × 32 matrices of batch `b`, and writes one block of
  the same shape. This file names, for any contents `V` of the core's buffers when the launch is entered,
  the blocks of the three operands at a grid point, the block the body leaves in the output buffer as a function of
  the two blocks it read (`outBlock`: one covering store, its value the body's arithmetic applied to what the loads
  read), and the bookkeeping record of the launch built from them.
-/
import proofs.«173681_j5471788335757_2_alg».proof.Proof.Gen.KernelIdeal.Launch
import proofs.«173681_j5471788335757_2_alg».proof.Proof.Gen.KernelIdeal.Skeleton
import proofs.«173681_j5471788335757_2_alg».proof.Proof.Gen.KernelIdeal.Points
import Idealize.ShloMosaic.Lib.Pipeline.FrameBody

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat Cfg Window BodyObligation)

variable {F : FTy → Type} [FloatOps F]

variable (V : (c : Dev nD) → (b : Ref sig .tc) → Buf (Elt F) ((c : Thread nD τ).loc b))

/-- Operand `w`'s block at grid point `t`, read off its array as the launch finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The whole `[1, 4096, 256]` buffer as a rectangle: what the one load of the input block and the one store of the
    output block go through. -/
abbrev rTok : Rect S1x4096x256 := Rect.unit (s := S1x4096x256) ![0, 0, 0] S1x4096x256.size inb_S1x4096x256_S1x4096x256_0_0_0

/-- The matrix of head `h` inside the `[1, 8, 32, 32]` buffer, one rectangle per head. -/
abbrev rHead0 : Rect S1x8x32x32 := Rect.unit (s := S1x8x32x32) ![0, 0, 0, 0] S1x1x32x32.size inb_S1x8x32x32_S1x1x32x32_0_0_0_0
abbrev rHead1 : Rect S1x8x32x32 := Rect.unit (s := S1x8x32x32) ![0, 1, 0, 0] S1x1x32x32.size inb_S1x8x32x32_S1x1x32x32_0_1_0_0
abbrev rHead2 : Rect S1x8x32x32 := Rect.unit (s := S1x8x32x32) ![0, 2, 0, 0] S1x1x32x32.size inb_S1x8x32x32_S1x1x32x32_0_2_0_0
abbrev rHead3 : Rect S1x8x32x32 := Rect.unit (s := S1x8x32x32) ![0, 3, 0, 0] S1x1x32x32.size inb_S1x8x32x32_S1x1x32x32_0_3_0_0
abbrev rHead4 : Rect S1x8x32x32 := Rect.unit (s := S1x8x32x32) ![0, 4, 0, 0] S1x1x32x32.size inb_S1x8x32x32_S1x1x32x32_0_4_0_0
abbrev rHead5 : Rect S1x8x32x32 := Rect.unit (s := S1x8x32x32) ![0, 5, 0, 0] S1x1x32x32.size inb_S1x8x32x32_S1x1x32x32_0_5_0_0
abbrev rHead6 : Rect S1x8x32x32 := Rect.unit (s := S1x8x32x32) ![0, 6, 0, 0] S1x1x32x32.size inb_S1x8x32x32_S1x1x32x32_0_6_0_0
abbrev rHead7 : Rect S1x8x32x32 := Rect.unit (s := S1x8x32x32) ![0, 7, 0, 0] S1x1x32x32.size inb_S1x8x32x32_S1x1x32x32_0_7_0_0

/-- The value the body stores, from the input block `x0` and the block of matrices `x1`: the first four heads'
    results and the fifth head's columns come from the first part of the body, the rest from the second. -/
def outVal (x0 : Vec F S1x4096x256 .f32) (x1 : Vec F S1x8x32x32 .f32) : Vec F S1x4096x256 .f32 :=
  k1_pay1 (k1_pay2 (View.ld x0 rTok)) (k1_pay3 (View.ld x0 rTok) (View.ld x1 rHead0)) (k1_pay4 (View.ld x0 rTok) (View.ld x1 rHead1))
    (k1_pay5 (View.ld x0 rTok) (View.ld x1 rHead2)) (k1_pay6 (View.ld x0 rTok) (View.ld x1 rHead3)) (k1_pay7 (View.ld x0 rTok))
    (View.ld x1 rHead4) (View.ld x1 rHead5) (View.ld x1 rHead6) (View.ld x1 rHead7)

/-- What the body leaves in the output buffer: its one store, which covers the buffer. -/
def outBlock (x0 : Vec F S1x4096x256 .f32) (x1 : Vec F S1x8x32x32 .f32) : Vec F S1x4096x256 .f32 :=
  View.canon [⟨rTok, outVal x0 x1⟩]

/-- The launch's bookkeeping on core `c`: the arrays as the launch finds them; after the body at point `t` each input's
    buffer still holds its block and the output's buffer holds `outBlock` of the two input blocks; the rest of the
    core's state is untouched, nothing is owed, every share is whole. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => outBlock (iblk1 V c 0 t) (iblk1 V c 1 t)
  Φ _ := Pipeline.ΦA spec1 c
  q _ := fullShare
  owed _ := 0

/-- The record's arrays are the contents the launch finds. -/
theorem A_eq1 (c : Dev nD) (w : Fin cfg1.W) : (dat1 V c).A w = V c (Pipeline.arrRef spec1 w) := by
  dsimp only [dat1]

/-- What the body leaves, operand by operand. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = outBlock (iblk1 V c 0 t) (iblk1 V c 1 t) := by dsimp only [dat1]

end Cert.KernelIdeal.Hand

end
-- ==== Proof.Launch.Valuations.lean ====
/-
  The contents of a core's buffers at the boundaries of the program's three items: at launch, after the four host
  reshapes (where the first kernel launch is entered), after the first launch (where the second is entered: no host
  operation lies between them), and after the second (where the program returns). A launch leaves each of its operands'
  arrays at what its write-backs leave and every other buffer as it found it. Read back through these steps: no item
  writes an argument array, so each holds its launch contents at every boundary; each of the four reshaped parameters
  holds the reshape of its argument from the first boundary on; the moment array holds what the first launch leaves in
  it when the second is entered; and the result array holds at the end what the second launch leaves in it.
-/
import proofs.«173681_j5471788335757_2_alg».proof.Proof.Kv.Data
import proofs.«173681_j5471788335757_2_alg».proof.Proof.Out.Data
import Idealize.ShloMosaic.Lib.Pipeline.FrameSuffix
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat Cfg Window BodyObligation)

variable {F : FTy → Type} [FloatOps F]

variable (m : (ℓ : Loc nD τ sig) → Buf (Elt F) ℓ) (ρ : Dev nD → PrngReg)

/-! ## The contents at each boundary -/

/-- Core `c`'s buffers at launch. -/
abbrev W0 : Dev nD → Valuation τ sig (Elt F) := fun c b => (s₀ m ρ).mem ((c : Dev nD), b)
/-- After the four reshapes: where the first launch is entered. -/
abbrev W1 : Dev nD → Valuation τ sig (Elt F) := fun c => StableHlo.after hostOps0 (W0 m ρ c)
/-- The same read at the core's references: the contents the first launch's record is taken at. -/
abbrev Vin : (c : Dev nD) → (b : Ref sig .tc) → Buf (Elt F) ((c : Thread nD τ).loc b) := fun c b => W1 m ρ c b
/-- After the first launch: its operands' arrays at what its write-backs leave, every other buffer as entered. -/
def W2 (c : Dev nD) : Valuation τ sig (Elt F) :=
  Pipeline.withArrays spec0 c (W1 m ρ c) fun w => (dat0 (Vin m ρ) c).arrAt w cfg0.N
/-- The same read at the core's references: the contents the second launch's record is taken at. -/
abbrev Vmid : (c : Dev nD) → (b : Ref sig .tc) → Buf (Elt F) ((c : Thread nD τ).loc b) := fun c b => W2 m ρ c b
/-- After the second launch: where the program returns. -/
def W3 (c : Dev nD) : Valuation τ sig (Elt F) :=
  Pipeline.withArrays spec1 c (W2 m ρ c) fun w => (dat1 (Vmid m ρ) c).arrAt w cfg1.N
/-- The same read at the core's references. -/
abbrev Vend : (c : Dev nD) → (b : Ref sig .tc) → Buf (Elt F) ((c : Thread nD τ).loc b) := fun c b => W3 m ρ c b

/-! ## What a launch leaves where -/

theorem W2_arr (c : Dev nD) (w : Fin cfg0.W) :
    W2 m ρ c (Proc.devRef .tc (Pipeline.arrRef spec0 w)) = (dat0 (Vin m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
theorem W3_arr (c : Dev nD) (w : Fin cfg1.W) :
    W3 m ρ c (Proc.devRef .tc (Pipeline.arrRef spec1 w)) = (dat1 (Vmid m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb

/-- At a launch's exit each of its arrays holds what the launch leaves and every other buffer what it held at entry. -/
theorem hF0 (c : Dev nD) (w : Fin cfg0.W) : (dat0 (Vin m ρ) c).arrAt w cfg0.N = Vmid m ρ c (Pipeline.arrRef spec0 w) :=
  (W2_arr m ρ c w).symm
theorem hrest0 (c : Dev nD) : ∀ b, b ∉ Finset.univ.image (Pipeline.arrRef spec0) → Vmid m ρ c b = Vin m ρ c b :=
  fun b hb => W2_of_ne m ρ c b fun w e => hb (Finset.mem_image.mpr ⟨w, Finset.mem_univ _, e⟩)
theorem hF1 (c : Dev nD) (w : Fin cfg1.W) : (dat1 (Vmid m ρ) c).arrAt w cfg1.N = Vend m ρ c (Pipeline.arrRef spec1 w) :=
  (W3_arr m ρ c w).symm
theorem hrest1 (c : Dev nD) : ∀ b, b ∉ Finset.univ.image (Pipeline.arrRef spec1) → Vend m ρ c b = Vmid m ρ c b :=
  fun b hb => W3_of_ne m ρ c b fun w e => hb (Finset.mem_image.mpr ⟨w, Finset.mem_univ _, e⟩)

/-! ## The reshapes write the four parameter arrays and nothing else -/

/-- A buffer the reshapes do not write holds its launch contents where the first launch is entered. -/
theorem W1_of_not_written (c : Dev nD) (b : Ref sig .tc)
    (hb : b ≠ main_v0 ∧ b ≠ main_v1 ∧ b ≠ main_v2 ∧ b ≠ main_v3) :
    W1 m ρ c (Proc.devRef .tc b) = m ((c : Thread nD τ).loc b) :=
  (StableHlo.after_of_forall_not_mem (b := Proc.devRef .tc b) _ _ (List.forall_iff_forall_mem.mp (by
    simp only [hostOps0, List.Forall, StableHlo.reshape_writes, Finset.mem_singleton]
    exact ⟨StableHlo.devRef_ne_of_ne hb.1, StableHlo.devRef_ne_of_ne hb.2.1, StableHlo.devRef_ne_of_ne hb.2.2.1,
      StableHlo.devRef_ne_of_ne hb.2.2.2⟩))).trans rfl

end Cert.KernelIdeal.Hand

end
-- ==== Proof.Kv.Body.lean ====
/-
  The first pass's body at every grid point, against the pass's proof data.

  At the point t the body finds each input window's buffer at the window's block, the output window's buffer at
  whatever the pipeline left there, and the accumulator at what the point before left (at anything, at the region's
  entry). By the point's position in its batch one of three runs applies — first block, last block, in between —
  and hands back the accumulator at `accNext` of the point's inputs over zeros (first block) or over what it held;
  at a last block the output buffer at the scaled accumulator, elsewhere untouched (the window is idle there and
  is not written back).
-/
import proofs.«173681_j5471788335757_2_alg».proof.Proof.Kv.Data

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section

variable (V : (c : Dev nD) → (b : Ref sig .tc) → Buf (Elt F) ((c : Thread nD τ).loc b))

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t)

set_option maxHeartbeats 4800000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).owesAt () t.succ = (dat0 V c).owesAt () t.castSucc from rfl]
  rw [show (dat0 V c).Φ t.succ = PhiS V c (t.val + 1) t.isLt from rfl, PhiS_succ]
  rw [show (dat0 V c).leavesExact 0 t = owns (c : Thread nD τ) (ms0_0 t) fullShare ((dat0 V c).after 0 t) from by
    unfold Dat.leavesExact; rw [live0_0 t], after0_0]
  rw [show (dat0 V c).leavesExact 1 t = owns (c : Thread nD τ) (ms0_1 t) fullShare ((dat0 V c).after 1 t) from by
    unfold Dat.leavesExact; rw [live0_1 t], after0_1]
  rw [show (dat0 V c).leavesExact 2 t = owns (c : Thread nD τ) (ms0_2 t) fullShare ((dat0 V c).after 2 t) from by
    unfold Dat.leavesExact; rw [live0_2 t], after0_2]
  rw [show (dat0 V c).leavesExact 3 t = owns (c : Thread nD τ) (ms0_3 t) fullShare ((dat0 V c).after 3 t) from by
    unfold Dat.leavesExact; rw [live0_3 t], after0_3]
  rw [show (dat0 V c).leavesExact 4 t = owns (c : Thread nD τ) (ms0_4 t) fullShare ((dat0 V c).after 4 t) from by
    unfold Dat.leavesExact; rw [live0_4 t], after0_4]
  have hN : t.val < 32 := lt_of_lt_of_eq t.isLt (show cfg0.N = 32 from N_0)
  by_cases h0 : t.val % 8 = 0
  · have h1 : ¬t.val % 8 = 7 := by omega
    rw [Dat.leavesExact_idle (dat0 V c) 5 t (idle0_5 t (fun h => h1 ((lastBlock_iff t).mp h))) (noFlush0_5 t (fun h => h1 ((lastBlock_iff t).mp h)))]
    rw [accAt_first V c t h0]
    by_cases hz : t.val = 0
    · rw [PhiS_castSucc V c t, PhiS_zero V c _ _ hz, PhiA0_eq]
      iintro ⟨⟨⟨HS0, Hrest⟩, Hg⟩, Ho, ⟨%d0, H0⟩, ⟨%d1, H1⟩, ⟨%d2, H2⟩, ⟨%d3, H3⟩, ⟨%d4, H4⟩, ⟨%d5, H5⟩⟩
      iapply ((runFirst c (grid0.coords t) _ _ _ _ _ _ _ _ _ _ _ _ _ _ ((firstBlock_iff t).mpr h0) (fun h => h1 ((lastBlock_iff t).mp h)) (iblk0 V c 0 t) (iblk0 V c 1 t) (iblk0 V c 2 t) (iblk0 V c 3 t) (iblk0 V c 4 t)).2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      iintro ⟨H0, H1, H2, H3, H4, H5, ⟨%es0, HS0⟩⟩
      isplitl [HS0 Hrest Hg]
      · isplitl [HS0 Hrest]
        · isplitl [HS0]
          · unfold owns; iexists _; isplitr
            swap; · iexact HS0
            ipureintro; exact runFirst_acc ..
          iexact Hrest
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
    · rw [PhiS_castSucc V c t, PhiS_pos V c _ _ hz]
      iintro ⟨⟨⟨HS0, Hrest⟩, Hg⟩, Ho, ⟨%d0, H0⟩, ⟨%d1, H1⟩, ⟨%d2, H2⟩, ⟨%d3, H3⟩, ⟨%d4, H4⟩, ⟨%d5, H5⟩⟩
      iapply ((runFirst c (grid0.coords t) _ _ _ _ _ _ _ _ _ _ _ _ _ _ ((firstBlock_iff t).mpr h0) (fun h => h1 ((lastBlock_iff t).mp h)) (iblk0 V c 0 t) (iblk0 V c 1 t) (iblk0 V c 2 t) (iblk0 V c 3 t) (iblk0 V c 4 t)).2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexists _; iexact HS0
      iintro ⟨H0, H1, H2, H3, H4, H5, ⟨%es0, HS0⟩⟩
      isplitl [HS0 Hrest Hg]
      · isplitl [HS0 Hrest]
        · isplitl [HS0]
          · unfold owns; iexists _; isplitr
            swap; · iexact HS0
            ipureintro; exact runFirst_acc ..
          iexact Hrest
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
  · have hz : t.val ≠ 0 := fun e => h0 (by rw [e])
    rw [accAt_next V c t h0]
    rw [PhiS_castSucc V c t, PhiS_pos V c _ _ hz]
    by_cases h1 : t.val % 8 = 7
    · rw [show (dat0 V c).leavesExact 5 t = owns (c : Thread nD τ) (ms0_5 t) fullShare ((dat0 V c).after 5 t) from by
        unfold Dat.leavesExact; rw [live0_5 t ((lastBlock_iff t).mpr h1)], after0_5, accAt_next V c t h0]
      iintro ⟨⟨⟨HS0, Hrest⟩, Hg⟩, Ho, ⟨%d0, H0⟩, ⟨%d1, H1⟩, ⟨%d2, H2⟩, ⟨%d3, H3⟩, ⟨%d4, H4⟩, ⟨%d5, H5⟩⟩
      iapply ((runLast c (grid0.coords t) _ _ _ _ _ _ _ _ _ _ _ _ _ _ (fun h => h0 ((firstBlock_iff t).mp h)) ((lastBlock_iff t).mpr h1) (iblk0 V c 0 t) (iblk0 V c 1 t) (iblk0 V c 2 t) (iblk0 V c 3 t) (iblk0 V c 4 t) _).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      iintro ⟨H0, H1, H2, H3, H4, ⟨%e5, H5⟩, ⟨%es0, HS0⟩⟩
      isplitl [HS0 Hrest Hg]
      · isplitl [HS0 Hrest]
        · isplitl [HS0]
          · unfold owns; iexists _; isplitr
            swap; · iexact HS0
            ipureintro; exact runLast_acc ..
          iexact Hrest
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact runLast_out ..
    · rw [Dat.leavesExact_idle (dat0 V c) 5 t (idle0_5 t (fun h => h1 ((lastBlock_iff t).mp h))) (noFlush0_5 t (fun h => h1 ((lastBlock_iff t).mp h)))]
      iintro ⟨⟨⟨HS0, Hrest⟩, Hg⟩, Ho, ⟨%d0, H0⟩, ⟨%d1, H1⟩, ⟨%d2, H2⟩, ⟨%d3, H3⟩, ⟨%d4, H4⟩, ⟨%d5, H5⟩⟩
      iapply ((runMid c (grid0.coords t) _ _ _ _ _ _ _ _ _ _ _ _ _ _ (fun h => h0 ((firstBlock_iff t).mp h)) (fun h => h1 ((lastBlock_iff t).mp h)) (iblk0 V c 0 t) (iblk0 V c 1 t) (iblk0 V c 2 t) (iblk0 V c 3 t) (iblk0 V c 4 t) _).2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      iintro ⟨H0, H1, H2, H3, H4, H5, ⟨%es0, HS0⟩⟩
      isplitl [HS0 Hrest Hg]
      · isplitl [HS0 Hrest]
        · isplitl [HS0]
          · unfold owns; iexists _; isplitr
            swap; · iexact HS0
            ipureintro; exact runMid_acc ..
          iexact Hrest
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]

/-- After the last point the invariant gives the plain one back: the accumulator's contents are forgotten. -/
theorem hout0 (c : Dev nD) : (dat0 V c).Φ (Fin.last cfg0.N) ⊢ Pipeline.ΦA spec0 c := by
  rw [show (dat0 V c).Φ (Fin.last cfg0.N) = PhiS V c (Fin.last cfg0.N).val (Nat.le_of_lt_succ (Fin.last cfg0.N).isLt) from rfl,
    PhiS_pos V c _ _ (by rw [Fin.val_last]; have : cfg0.N = 32 := N_0; omega), PhiA0_eq]
  iintro ⟨⟨HS0, Hrest⟩, Hg⟩
  isplitl [HS0 Hrest]
  · isplitl [HS0]
    · iexists _; iexact HS0
    iexact Hrest
  iexact Hg

end

end Cert.KernelIdeal.Hand

end
-- ==== Proof.Out.Body.lean ====
/-
  The body of the second kernel launch meets the launch's bookkeeping record: run on buffers that hold the input block
  and the block of matrices (and anything in the output buffer), it ends with the two inputs as they were and the
  output buffer holding `outBlock` of them. The body reads the input block once, each head's matrix once, the output
  buffer once (the value is dropped) and stores one value that covers the output buffer; so what the buffer reads
  afterwards is that value, whatever was there before. An input's buffer holds its block at every grid point whether
  or not the block was fetched there: when it was not, the block index has not moved since the last fetch.
-/
import proofs.«173681_j5471788335757_2_alg».proof.Proof.Out.Data
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The input block's buffer holds the block at every point, for any record whose array is the one the launch finds and
    whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The same for the block of matrices, which is fetched only when the batch changes. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The one store covers the output buffer. -/
theorem cover1_2 (p0 : Vec F S1x4096x256 .f32) (y : S1x4096x256.Idx) :
    ∃ pc ∈ ([⟨rTok, p0⟩] : List (View.Piece (Elt F) S1x4096x256 .f32)), y ∈ pc.1.set :=
  View.cover_of_tiled [⟨rTok, p0⟩] S1x4096x256.size (by rfl) y

set_option maxHeartbeats 2000000 in
/-- The body on whole buffers, the inputs' at contents `x0`, `x1` and the output's at anything, runs to the continuation
    holding the inputs' as they were and the output's at `outBlock x0 x1`. -/
theorem sound_kernel1 (c : Dev nD) (E : Set ℕ) (i : grid1.Coords) (arg2 : Memref sig .tc .vmem S1x4096x256 .f32) (harg2 : arg2.IsWhole) (arg3 : Memref sig .tc .vmem S1x8x32x32 .f32) (harg3 : arg3.IsWhole) (arg4 : Memref sig .tc .vmem S1x4096x256 .f32) (harg4 : arg4.IsWhole)
    (x0 : Vec F S1x4096x256 .f32) (x1 : Vec F S1x8x32x32 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (outBlock x0 x1)) -∗ K ⟨⟩))
      ⊢ wp frame (wpE (defs₀ (F := F)) Variants.none c none) E (cc1__out_kernel i arg2 harg2 arg3 harg3 arg4 harg4) K := by
  simp only [cc1__out_kernel_eq_skeleton]; unfold cc1__out_kernel_skel
  simp only [k1_part1_eq_skeleton]; unfold k1_part1_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  try dsimp only
  exact View.read_writes_eq_canon _ _ _ (cover1_2 _)

/-- Each input's buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' buffers hold their blocks, so the body's run applies; the rest of the core's state
    passes through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ (grid1.coords t) _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The launch's obligation about its body, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.Launch.Segments.lean ====
/-
  The program's three items as segments of one run on a core. The thread state between items is: every unscoped
  buffer of the core whole at the boundary's contents, the generator register at some state, nothing owed. The host
  stretch runs the four reshapes over it. Each launch takes its operands' arrays out of the unscoped buffers, hands the
  generator register and the scoped buffers to its invariant, runs its body at every grid point, and puts the arrays
  back at what its write-backs leave. The first launch's invariant is not the plain one after its first point (it
  names what the accumulator holds), so its two ends are joined to the plain invariant by the two entailments the
  first launch's body module proves.
-/
import proofs.«173681_j5471788335757_2_alg».proof.Proof.Launch.Valuations
import proofs.«173681_j5471788335757_2_alg».proof.Proof.Kv.Body
import proofs.«173681_j5471788335757_2_alg».proof.Proof.Out.Body
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The records of the two launches and the thread state -/

/-- Neither launch has a prefetched table. -/
abbrev adm : (p : Fin 2) → (pcfgs (F := F) p).Adm := fun p => (cfgs p).toPCfg_adm
/-- Each launch's record at the contents its launch is entered at: a literal case split on the launch's number. -/
def pdats : (p : Fin 2) → (c : Dev nD) → Dat τ (Elt F) Unit ℕ (UR sig nD τ) ℕ (Pipeline.pin (pcfgs (F := F)) adm p) c
  | ⟨0, _⟩ => fun c => dat0 (Vin m ρ) c
  | ⟨1, _⟩ => fun c => dat1 (Vmid m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, none. -/
abbrev R (c : Dev nD) : sProp 𝕄 := iprop((∃ r, prngReg c r) ∗ ∃ W, owes (c : Thread nD τ) (0 : CellTallies nD τ sig Unit) W)

/-- No reshape allocates a buffer. -/
theorem hostOps0_fresh : (hostOps0 : List (HloOp τ sig (Elt F))).Forall fun op => op.fresh = ∅ := by
  simp only [List.Forall]; repeat' constructor

/-- The host stretch as a segment: the reshapes over the unscoped buffers from the launch contents. -/
abbrev hseg0 : Pipeline.HostSeg (Name := ℕ) (U := UR sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (W0 m ρ) R

/-- An unscoped reference of the core is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without the dues: every unscoped buffer at the last contents, the generator register. -/
abbrev Tₙ (c : Dev nD) : sProp 𝕄 := iprop(StableHlo.held (c : Thread nD τ) (Pipeline.ucRefs τ sig) (W3 m ρ c) ∗ ∃ r, prngReg c r)

/-! ## The launches as segments -/

set_option backward.isDefEq.respectTransparency.types false in
/-- The first launch over the thread state: entered from every unscoped buffer at `W1`, left at `W2`. Its
    operands' arrays are split out of the unscoped buffers and put back at the exit contents; the generator register goes
    into the launch's invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vin m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (Vin m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (Vin m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (?_ : _ ⊢ (Pipeline.ΦA spec0 c : sProp 𝕄)).trans (hin0 (Vin m ρ) c)
    unfold Pipeline.ΦA
    iintro ⟨Hp, -, Hr⟩
    isplitl [Hr]; · iexact Hr
    iexact Hp
  hout c := by
    rw [Pipeline.ownSems0_none]
    refine (hout0 (Vin m ρ) c).trans (?_ : (Pipeline.ΦA spec0 c : sProp 𝕄) ⊢ _)
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (Vin m ρ c) (Vmid m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second launch over the thread state: entered from every unscoped buffer at `W2`, left at `W3`. Its
    operands' arrays are split out of the unscoped buffers and put back at the exit contents; the generator register goes
    into the launch's invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vmid m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (Vmid m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (Vmid m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (Vmid m ρ c) (Vend m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as its segments -/

/-- The three segments in order. -/
abbrev segs : List (Pipeline.Seg (pcfgs (F := F)) adm (pdats m ρ) () defs₀ 𝒱₀ L lv) :=
  [ .host (hseg0 m ρ), .region (reg0 m ρ), .region (reg1 m ρ) ]

/-- The entry function is the run of the segments. -/
theorem main_run (c : Dev nD) : main (F := F) c = Pipeline.Seg.run (segs m ρ) := (main_chain c).trans (by chain_rfl)

end Cert.KernelIdeal.Hand

end
-- ==== Proof.Launch.ReadBack.lean ====
/-
  The contents at the boundaries, read back. No item of the program writes an argument array: the reshapes write
  the four parameter arrays only, a launch changes only the arrays of its operands and leaves those it only reads as
  they were. So every argument holds its launch contents where each launch is entered and where the program returns.
  Where the first launch is entered each reshaped parameter array holds the reshape of its argument; where the second is
  entered the moment array holds what the first launch leaves in it; at the return the result array holds what the
  second launch leaves in it.
-/
import proofs.«173681_j5471788335757_2_alg».proof.Proof.Launch.Valuations

set_option maxRecDepth 16384

noncomputable section

namespace Cert.KernelIdeal.Hand

open Cert.KernelIdeal Cert.KernelIdeal.Gen
open Idealize.ShloMosaic Idealize.ShloMosaic.TcCoe Idealize.ShloMosaic.StableHlo
open Idealize.SL Idealize.SL.RA Idealize.SL.BI
open scoped Idealize.SL.BI
open Idealize.SL.BI.BIBase Idealize.SL.Sem
open Idealize.ShloMosaic.Pipeline (Dat Cfg Window BodyObligation)

variable {F : FTy → Type} [FloatOps F]

variable (m : (ℓ : Loc nD τ sig) → Buf (Elt F) ℓ) (ρ : Dev nD → PrngReg)

/-! ## Where the first launch is entered -/

theorem Vin_main_arg0 (c : Dev nD) : Vin m ρ c main_arg0 = m ((c : Thread nD τ).loc main_arg0) :=
  W1_of_not_written m ρ c main_arg0 (by decide)
theorem Vin_main_arg1 (c : Dev nD) : Vin m ρ c main_arg1 = m ((c : Thread nD τ).loc main_arg1) :=
  W1_of_not_written m ρ c main_arg1 (by decide)
theorem Vin_main_arg2 (c : Dev nD) : Vin m ρ c main_arg2 = m ((c : Thread nD τ).loc main_arg2) :=
  W1_of_not_written m ρ c main_arg2 (by decide)
theorem Vin_main_arg3 (c : Dev nD) : Vin m ρ c main_arg3 = m ((c : Thread nD τ).loc main_arg3) :=
  W1_of_not_written m ρ c main_arg3 (by decide)
theorem Vin_main_arg4 (c : Dev nD) : Vin m ρ c main_arg4 = m ((c : Thread nD τ).loc main_arg4) :=
  W1_of_not_written m ρ c main_arg4 (by decide)

/-- The reshaped parameter array holds the reshape of its argument. -/
theorem Vin_main_v0 (c : Dev nD) :
    (Vin m ρ c main_v0 : S1x256.Idx → Elt F .f32)
      = shapeCast S1x256 (m ((c : Thread nD τ).loc main_arg1) : S8x1x32.Idx → Elt F .f32) shapeCasts_S8x1x32_S1x256 := by
  show StableHlo.after hostOps0 (W0 m ρ c) (Proc.devRef .tc main_v0) = _
  after_results
  rfl
/-- The reshaped parameter array holds the reshape of its argument. -/
theorem Vin_main_v1 (c : Dev nD) :
    (Vin m ρ c main_v1 : S1x256.Idx → Elt F .f32)
      = shapeCast S1x256 (m ((c : Thread nD τ).loc main_arg2) : S8x1x32.Idx → Elt F .f32) shapeCasts_S8x1x32_S1x256 := by
  show StableHlo.after hostOps0 (W0 m ρ c) (Proc.devRef .tc main_v1) = _
  after_results
  rfl
/-- The reshaped parameter array holds the reshape of its argument. -/
theorem Vin_main_v2 (c : Dev nD) :
    (Vin m ρ c main_v2 : S1x256.Idx → Elt F .f32)
      = shapeCast S1x256 (m ((c : Thread nD τ).loc main_arg3) : S8x1x32.Idx → Elt F .f32) shapeCasts_S8x1x32_S1x256 := by
  show StableHlo.after hostOps0 (W0 m ρ c) (Proc.devRef .tc main_v2) = _
  after_results
  rfl
/-- The reshaped parameter array holds the reshape of its argument. -/
theorem Vin_main_v3 (c : Dev nD) :
    (Vin m ρ c main_v3 : S1x256.Idx → Elt F .f32)
      = shapeCast S1x256 (m ((c : Thread nD τ).loc main_arg4) : S8x1x32.Idx → Elt F .f32) shapeCasts_S8x1x32_S1x256 := by
  show StableHlo.after hostOps0 (W0 m ρ c) (Proc.devRef .tc main_v3) = _
  after_results
  rfl

/-! ## Where the second launch is entered -/

theorem Vmid_main_arg0 (c : Dev nD) : Vmid m ρ c main_arg0 = m ((c : Thread nD τ).loc main_arg0) :=
  ((W2_arr m ρ c 0).trans (((dat0 (Vin m ρ) c).arrAt_in 0 rfl _).trans (A_eq0 (Vin m ρ) c 0))).trans (Vin_main_arg0 m ρ c)
theorem Vmid_main_arg1 (c : Dev nD) : Vmid m ρ c main_arg1 = m ((c : Thread nD τ).loc main_arg1) :=
  (W2_of_ne m ρ c main_arg1 (by decide)).trans (Vin_main_arg1 m ρ c)
theorem Vmid_main_arg2 (c : Dev nD) : Vmid m ρ c main_arg2 = m ((c : Thread nD τ).loc main_arg2) :=
  (W2_of_ne m ρ c main_arg2 (by decide)).trans (Vin_main_arg2 m ρ c)
theorem Vmid_main_arg3 (c : Dev nD) : Vmid m ρ c main_arg3 = m ((c : Thread nD τ).loc main_arg3) :=
  (W2_of_ne m ρ c main_arg3 (by decide)).trans (Vin_main_arg3 m ρ c)
theorem Vmid_main_arg4 (c : Dev nD) : Vmid m ρ c main_arg4 = m ((c : Thread nD τ).loc main_arg4) :=
  (W2_of_ne m ρ c main_arg4 (by decide)).trans (Vin_main_arg4 m ρ c)

/-- The moment array holds what the first launch leaves in it. -/
theorem Vmid_main_v4 (c : Dev nD) : Vmid m ρ c main_v4 = (dat0 (Vin m ρ) c).arrAt 5 cfg0.N :=
  W2_arr m ρ c 5

/-! ## Where the program returns -/

theorem Vend_main_arg0 (c : Dev nD) : Vend m ρ c main_arg0 = m ((c : Thread nD τ).loc main_arg0) :=
  ((W3_arr m ρ c 0).trans (((dat1 (Vmid m ρ) c).arrAt_in 0 rfl _).trans (A_eq1 (Vmid m ρ) c 0))).trans (Vmid_main_arg0 m ρ c)
theorem Vend_main_arg1 (c : Dev nD) : Vend m ρ c main_arg1 = m ((c : Thread nD τ).loc main_arg1) :=
  (W3_of_ne m ρ c main_arg1 (by decide)).trans (Vmid_main_arg1 m ρ c)
theorem Vend_main_arg2 (c : Dev nD) : Vend m ρ c main_arg2 = m ((c : Thread nD τ).loc main_arg2) :=
  (W3_of_ne m ρ c main_arg2 (by decide)).trans (Vmid_main_arg2 m ρ c)
theorem Vend_main_arg3 (c : Dev nD) : Vend m ρ c main_arg3 = m ((c : Thread nD τ).loc main_arg3) :=
  (W3_of_ne m ρ c main_arg3 (by decide)).trans (Vmid_main_arg3 m ρ c)
theorem Vend_main_arg4 (c : Dev nD) : Vend m ρ c main_arg4 = m ((c : Thread nD τ).loc main_arg4) :=
  (W3_of_ne m ρ c main_arg4 (by decide)).trans (Vmid_main_arg4 m ρ c)

/-- The result array holds what the second launch leaves in it. -/
theorem Vend_main_v5 (c : Dev nD) : Vend m ρ c main_v5 = (dat1 (Vmid m ρ) c).arrAt 2 cfg1.N :=
  W3_arr m ρ c 2

end Cert.KernelIdeal.Hand

end
-- ==== Proof.Launch.Run.lean ====
/-
  The program's run. From any memory with zero counters every weakly fair execution of the entry function
  terminates without a fault, and in the final memory every unscoped buffer of every core holds the contents at the
  last boundary. Read at the argument arrays this is the frame: each argument ends as launched. Read also at the result
  array it is the value run: the result array ends holding what the second launch's write-backs leave in it.
-/
import proofs.«173681_j5471788335757_2_alg».proof.Proof.Launch.Segments
import proofs.«173681_j5471788335757_2_alg».proof.Proof.Launch.ReadBack

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, and in the final memory every unscoped buffer of every core holds the
    contents at the last boundary. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h => h)

/-- THE FRAME: every weakly fair execution terminates without a fault and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans (Vend_main_arg0 m ρ c),
      (h c _ (mem_uc main_arg1 (by decide))).trans (Vend_main_arg1 m ρ c),
      (h c _ (mem_uc main_arg2 (by decide))).trans (Vend_main_arg2 m ρ c),
      (h c _ (mem_uc main_arg3 (by decide))).trans (Vend_main_arg3 m ρ c),
      (h c _ (mem_uc main_arg4 (by decide))).trans (Vend_main_arg4 m ρ c)⟩) (run_all m ρ)

/-- THE VALUE RUN: moreover the result array ends holding what the second launch's write-backs leave in it. -/
theorem run_value : θ_run defs (onTc (τ := τ) (main (F := F))) ⟨m, fun _ => 0, ρ⟩ (fun r => ∀ c : Dev nD,
      r.2.mem ((c.tc : Thread nD τ).loc main_v5) = (dat1 (Vmid m ρ) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_v5 (by decide))).trans (Vend_main_v5 m ρ c),
      (h c _ (mem_uc main_arg0 (by decide))).trans (Vend_main_arg0 m ρ c),
      (h c _ (mem_uc main_arg1 (by decide))).trans (Vend_main_arg1 m ρ c),
      (h c _ (mem_uc main_arg2 (by decide))).trans (Vend_main_arg2 m ρ c),
      (h c _ (mem_uc main_arg3 (by decide))).trans (Vend_main_arg3 m ρ c),
      (h c _ (mem_uc main_arg4 (by decide))).trans (Vend_main_arg4 m ρ c)⟩) (run_all m ρ)

end Cert.KernelIdeal.Hand

end
-- ==== Proof.Word.Kv.Shared.lean ====
/-
  (The program as printed, whose floats are words: the statements below do not depend on what a float is.)
  The first pass (the key–value moment), what its three kinds of grid point have in common.

  The grid has 4 × 8 points; point t = 8 b + n handles tokens [4096 n, 4096 n + 4096) of batch b. The body keeps
  an accumulator of shape [8, 32, 32] (one 32 × 32 matrix per head) in a buffer of its own across the eight points
  of a batch: at n = 0 it first clears it, at every point it adds each head's product of features into the head's
  slab, and at n = 7 it also scales the accumulator and stores it into the output block, which is written back to
  the batch's slab of the result only there. Here: the two conditions as properties of the point, decided over the
  grid; where the output window is idle; and the invariant's scoped buffers spelt out.
-/
import proofs.«173681_j5471788335757_2_alg».proof.Proof.Gen.Kernel.Launch
import proofs.«173681_j5471788335757_2_alg».proof.Proof.Gen.Kernel.Skeleton
import proofs.«173681_j5471788335757_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The two conditions -/

/-- "This is the first block of a batch": the body's first conditional, as it computes it from the coordinates. -/
abbrev firstBlock (i : grid0.Coords) : Prop :=
  (Scalar.cmpi .ne (Scalar.extui (Scalar.cmpi .eq (BitVec.ofNat 32 (i 1).val) 0#32)) 0#32) = 1#1

/-- It holds exactly at the points 8 b. -/
theorem firstBlock_iff : ∀ t : Fin cfg0.N, firstBlock (grid0.coords t) ↔ t.val % 8 = 0 :=
  (by decide +kernel : ∀ t : Fin grid0.N, firstBlock (grid0.coords t) ↔ t.val % 8 = 0)

/-- "This is the last block of a batch": the body's second conditional. -/
abbrev lastBlock (i : grid0.Coords) : Prop := k0_cond2 i = 1#1

/-- It holds exactly at the points 8 b + 7. -/
theorem lastBlock_iff : ∀ t : Fin cfg0.N, lastBlock (grid0.coords t) ↔ t.val % 8 = 7 :=
  (by decide +kernel : ∀ t : Fin grid0.N, lastBlock (grid0.coords t) ↔ t.val % 8 = 7)

/-! ## Where the windows are idle -/

theorem live0_0 : ∀ t : Fin cfg0.N, cfg0.idle 0 (grid0.coords t) = false := by decide +kernel
theorem live0_1 : ∀ t : Fin cfg0.N, cfg0.idle 1 (grid0.coords t) = false := by decide +kernel
theorem live0_2 : ∀ t : Fin cfg0.N, cfg0.idle 2 (grid0.coords t) = false := by decide +kernel
theorem live0_3 : ∀ t : Fin cfg0.N, cfg0.idle 3 (grid0.coords t) = false := by decide +kernel
theorem live0_4 : ∀ t : Fin cfg0.N, cfg0.idle 4 (grid0.coords t) = false := by decide +kernel
/-- Away from a batch's last block the output window is idle and is not written back. -/
theorem idle0_5 : ∀ t : Fin cfg0.N, ¬lastBlock (grid0.coords t) → cfg0.idle 5 (grid0.coords t) = true := by decide +kernel
theorem noFlush0_5 : ∀ t : Fin cfg0.N, ¬lastBlock (grid0.coords t) → (cfg0.win 5).flush t = false := by decide +kernel
/-- At a batch's last block it is live. -/
theorem live0_5 : ∀ t : Fin cfg0.N, lastBlock (grid0.coords t) → cfg0.idle 5 (grid0.coords t) = false := by decide +kernel

/-! ## The memrefs at a point -/

abbrev ms0_0 (t : Fin cfg0.N) : Memref sig .tc .vmem S1x4096x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x8x32x32 .f32 := win0_5.stage (cfg0.slots t 5)
abbrev hs0_5 (t : Fin cfg0.N) : (ms0_5 t).IsWhole := hstage0_5 ((cfg0.slots t 5).cast nbuf0_5)

/-- The accumulator: a whole buffer of the kernel's own. -/
abbrev accM : Memref sig .tc .vmem S8x32x32 .f32 := Memref.whole cc0_scratch0
/-- The view through which its contents are stated. -/
abbrev accV : View sig .tc .vmem S8x32x32 .f32 := accM.view
/-- One staging buffer of the output window, through which the block's contents are stated. -/
abbrev outV : View sig .tc .vmem S1x8x32x32 .f32 := (Memref.whole cc0_stg5_0 : Memref sig .tc .vmem S1x8x32x32 .f32).view

/-! ## The invariant's scoped buffers -/

/-- The scoped buffers that are neither this pass's staging buffers nor its accumulator (the second pass's staging
    buffers), each held whole at some contents. -/
def otherScoped (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f))

/-- The plain region invariant: the accumulator at some contents, the other scoped buffers, the generator register. -/
theorem PhiA0_eq (c : Dev nD) :
    (Pipeline.ΦA spec0 c : sProp 𝕄)
      = iprop(iprop((∃ d, owns (c : Thread nD τ) accM fullShare d) ∗ otherScoped (F := F) c) ∗ (∃ r, prngReg c r)) := by
  unfold Pipeline.ΦA otherScoped; rw [scopedRest0_eq]; simp only [accM, owns_whole]; rfl

end Cert.Kernel.Hand

end
-- ==== Proof.Word.Kv.Head.lean ====
/-
  (The program as printed, whose floats are words: the statements below do not depend on what a float is.)
  One head's share of the first pass, as one function of the head's 32 columns of the token block, the head's four
  rows of weights and biases, and the head's slab of the accumulator: the columns are normalised row by row (mean
  over the 32 entries, deviation, sample standard deviation with 31 in the denominator, a small constant added to
  it), scaled and shifted twice (keys, values), the two feature blocks are multiplied with the token axis
  contracted, and the 32 × 32 product is added to the slab. Every head of the body is this function at the head's
  slices; the eight stores of a point are stated through it.
-/
import proofs.«173681_j5471788335757_2_alg».proof.Proof.Word.Kv.Shared

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The normalised columns of one head: [4096, 32] in, [4096, 32] out. -/
def headNormed (xh : FVec F S4096x32 .f32) : FVec F S4096x32 .f32 :=
  let mean : FVec F S4096x1 .f32 :=
    divf (shapeCast S4096x1 (multiReduction .add [1] S4096 xh 0x00000000#32 reduces_S4096x32_S4096 (.inl rfl) rfl) shapeCasts_S4096_S4096x1)
      (broadcast S4096x1 (Scalar.ofBits .f32 0x42000000#32))
  let dev : FVec F S4096x32 .f32 := subf xh (broadcastTo S4096x32 mean broadcasts_S4096x1_S4096x32)
  let var : FVec F S4096x1 .f32 :=
    divf (shapeCast S4096x1 (multiReduction .add [1] S4096 (mulf dev dev) 0x00000000#32 reduces_S4096x32_S4096 (.inl rfl) rfl) shapeCasts_S4096_S4096x1)
      (broadcast S4096x1 (Scalar.ofBits .f32 0x41F80000#32))
  divf dev (broadcastTo S4096x32 (addf (sqrt var) (broadcast S4096x1 (Scalar.ofBits .f32 0x3727C5AC#32))) broadcasts_S4096x1_S4096x32)

/-- A feature block: the normalised columns times a row of weights plus a row of biases. -/
def headFeature (nh : FVec F S4096x32 .f32) (w b : FVec F S32 .f32) : FVec F S4096x32 .f32 :=
  addf (mulf nh (broadcastTo S4096x32 (shapeCast S1x32 w shapeCasts_S32_S1x32) broadcasts_S1x32_S4096x32))
    (broadcastTo S4096x32 (shapeCast S1x32 b shapeCasts_S32_S1x32) broadcasts_S1x32_S4096x32)

/-- The product of the two feature blocks with the token axis contracted: a 32 × 32 matrix. -/
def headProduct (xh : FVec F S4096x32 .f32) (kw kb vw vb : FVec F S32 .f32) : FVec F S32x32 .f32 :=
  matmul dot_S4096x32_S4096x32_S32x32_0_0_1_1_n_n none
    (truncf .bf16 (headFeature (headNormed xh) kw kb) bitsLt_bf16_f32)
    (truncf .bf16 (headFeature (headNormed xh) vw vb) bitsLt_bf16_f32)
    (constant S32x32 .f32 0x00000000#32)

/-- The head's slab after the point: what it held plus the product. -/
def headStep (xh : FVec F S4096x32 .f32) (kw kb vw vb : FVec F S32 .f32) (acc : Vec F S1x32x32 .f32) : FVec F S1x32x32 .f32 :=
  shapeCast S1x32x32 (addf (shapeCast S32x32 acc shapeCasts_S1x32x32_S32x32) (headProduct xh kw kb vw vb)) shapeCasts_S32x32_S1x32x32

/-- The token block without its leading unit axis, and a row of 256 weights without its. -/
abbrev tokens (x0 : Vec F S1x4096x256 .f32) : FVec F S4096x256 .f32 := shapeCast S4096x256 x0 shapeCasts_S1x4096x256_S4096x256
abbrev flat (x : Vec F S1x256 .f32) : FVec F S256 .f32 := shapeCast S256 x shapeCasts_S1x256_S256

/-- What a point stores into slab `h`, from the token block, the four rows and what the slab held. -/
def slabStep (x0 : Vec F S1x4096x256 .f32) (x1 x2 x3 x4 : Vec F S1x256 .f32) : (h : Fin 8) → Vec F S1x32x32 .f32 → FVec F S1x32x32 .f32
  | ⟨0, _⟩ => headStep (extractStridedSlice S4096x32 ![0, 0] (tokens x0) slices_S4096x256_o0_0_S4096x32) (extractStridedSlice S32 ![0] (flat x1) slices_S256_o0_S32) (extractStridedSlice S32 ![0] (flat x2) slices_S256_o0_S32) (extractStridedSlice S32 ![0] (flat x3) slices_S256_o0_S32) (extractStridedSlice S32 ![0] (flat x4) slices_S256_o0_S32)
  | ⟨1, _⟩ => headStep (extractStridedSlice S4096x32 ![0, 32] (tokens x0) slices_S4096x256_o0_32_S4096x32) (extractStridedSlice S32 ![32] (flat x1) slices_S256_o32_S32) (extractStridedSlice S32 ![32] (flat x2) slices_S256_o32_S32) (extractStridedSlice S32 ![32] (flat x3) slices_S256_o32_S32) (extractStridedSlice S32 ![32] (flat x4) slices_S256_o32_S32)
  | ⟨2, _⟩ => headStep (extractStridedSlice S4096x32 ![0, 64] (tokens x0) slices_S4096x256_o0_64_S4096x32) (extractStridedSlice S32 ![64] (flat x1) slices_S256_o64_S32) (extractStridedSlice S32 ![64] (flat x2) slices_S256_o64_S32) (extractStridedSlice S32 ![64] (flat x3) slices_S256_o64_S32) (extractStridedSlice S32 ![64] (flat x4) slices_S256_o64_S32)
  | ⟨3, _⟩ => headStep (extractStridedSlice S4096x32 ![0, 96] (tokens x0) slices_S4096x256_o0_96_S4096x32) (extractStridedSlice S32 ![96] (flat x1) slices_S256_o96_S32) (extractStridedSlice S32 ![96] (flat x2) slices_S256_o96_S32) (extractStridedSlice S32 ![96] (flat x3) slices_S256_o96_S32) (extractStridedSlice S32 ![96] (flat x4) slices_S256_o96_S32)
  | ⟨4, _⟩ => headStep (extractStridedSlice S4096x32 ![0, 128] (tokens x0) slices_S4096x256_o0_128_S4096x32) (extractStridedSlice S32 ![128] (flat x1) slices_S256_o128_S32) (extractStridedSlice S32 ![128] (flat x2) slices_S256_o128_S32) (extractStridedSlice S32 ![128] (flat x3) slices_S256_o128_S32) (extractStridedSlice S32 ![128] (flat x4) slices_S256_o128_S32)
  | ⟨5, _⟩ => headStep (extractStridedSlice S4096x32 ![0, 160] (tokens x0) slices_S4096x256_o0_160_S4096x32) (extractStridedSlice S32 ![160] (flat x1) slices_S256_o160_S32) (extractStridedSlice S32 ![160] (flat x2) slices_S256_o160_S32) (extractStridedSlice S32 ![160] (flat x3) slices_S256_o160_S32) (extractStridedSlice S32 ![160] (flat x4) slices_S256_o160_S32)
  | ⟨6, _⟩ => headStep (extractStridedSlice S4096x32 ![0, 192] (tokens x0) slices_S4096x256_o0_192_S4096x32) (extractStridedSlice S32 ![192] (flat x1) slices_S256_o192_S32) (extractStridedSlice S32 ![192] (flat x2) slices_S256_o192_S32) (extractStridedSlice S32 ![192] (flat x3) slices_S256_o192_S32) (extractStridedSlice S32 ![192] (flat x4) slices_S256_o192_S32)
  | ⟨7, _⟩ => headStep (extractStridedSlice S4096x32 ![0, 224] (tokens x0) slices_S4096x256_o0_224_S4096x32) (extractStridedSlice S32 ![224] (flat x1) slices_S256_o224_S32) (extractStridedSlice S32 ![224] (flat x2) slices_S256_o224_S32) (extractStridedSlice S32 ![224] (flat x3) slices_S256_o224_S32) (extractStridedSlice S32 ![224] (flat x4) slices_S256_o224_S32)

end Cert.Kernel.Hand

end
-- ==== Proof.Word.Kv.Slabs.lean ====
/-
  (The program as printed, whose floats are words: the statements below do not depend on what a float is.)
  The accumulator, a buffer of shape [8, 32, 32], written one head's slab at a time and read back.

  Slab h is the rectangle at offsets (h, 0, 0) of extents (1, 32, 32). A load of slab h' after a store into another
  slab h reads what was there before that store; after a store of the whole buffer it reads the stored value's
  slab. Eight stores, one per slab, leave at (h, p, q) the payload of slab h's store at (0, p, q), whatever was
  stored before them. Stated for any element type: nothing here looks inside a payload.
-/
import proofs.«173681_j5471788335757_2_alg».proof.Proof.LibSlabs
import proofs.«173681_j5471788335757_2_alg».proof.Proof.Word.Kv.Head
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

open Idealize.ShloMosaic.ValueIdx

theorem hz4 : (![0, 0, 0, 0] : Fin 4 → Nat) = fun _ => 0 := by funext a; fin_cases a <;> rfl
theorem hz3 : (![0, 0, 0] : Fin 3 → Nat) = fun _ => 0 := by funext a; fin_cases a <;> rfl
theorem hz2 : (![0, 0] : Fin 2 → Nat) = fun _ => 0 := by funext a; fin_cases a <;> rfl

section

variable {Val : EltTy → Type} [∀ e, Nonempty (Val e)] {e : EltTy}

/-- Slab `h` of an array of shape [8, 32, 32], as an array of shape [1, 32, 32]. -/
def slabOf (X : S8x32x32.Idx → Val e) (h : Fin 8) : S1x32x32.Idx → Val e := fun x => X (ix3 h (x 1) (x 2))

/-- The leading coordinate of an index of a [1, 32, 32] array is 0. -/
theorem lead_zero (x : S1x32x32.Idx) : (x 0).val = 0 := by
  have h : (x 0).val < 1 := (x 0).isLt
  omega

/-- A load through slab `j`'s rectangle reads the slab. -/
theorem ld_slab (j : ℕ) (inb : ∀ d, (![j, 0, 0] : Fin 3 → ℕ) d + (![1, 32, 32] : Fin 3 → ℕ) d ≤ S8x32x32.size d) (hj : j < 8)
    (X : S8x32x32.Idx → Val e) :
    View.ld X (Rect.unit (s := S8x32x32) ![j, 0, 0] ![1, 32, 32] inb) = slabOf X ⟨j, hj⟩ := by
  funext x
  show X ((Rect.unit (s := S8x32x32) ![j, 0, 0] ![1, 32, 32] inb).toLoadRect.idx x) = X (ix3 ⟨j, hj⟩ (x 1) (x 2))
  refine congrArg X ?_
  funext d; apply Fin.ext
  match d with
  | ⟨0, _⟩ => show j + 1 * (x 0).val = j; have := lead_zero x; omega
  | ⟨1, _⟩ => show 0 + 1 * (x 1).val = (x 1).val; omega
  | ⟨2, _⟩ => show 0 + 1 * (x 2).val = (x 2).val; omega

/-- A load of slab `j'` after a store into another slab `j` reads what the earlier stores left. -/
theorem readCov_other_slab {sig' : RefSig} {κ : Kind} {sp : Space} (v : View sig' κ sp S8x32x32 e) (j j' : ℕ)
    (inb : ∀ d, (![j, 0, 0] : Fin 3 → ℕ) d + (![1, 32, 32] : Fin 3 → ℕ) d ≤ S8x32x32.size d)
    (inb' : ∀ d, (![j', 0, 0] : Fin 3 → ℕ) d + (![1, 32, 32] : Fin 3 → ℕ) d ≤ S8x32x32.size d)
    (w : S1x32x32.Idx → Val e) (L : List (View.Piece Val S8x32x32 e)) (hj' : j' < 8) (hne : j' ≠ j) :
    v.readCov (⟨Rect.unit (s := S8x32x32) ![j, 0, 0] ![1, 32, 32] inb, w⟩ :: L) (Rect.unit (s := S8x32x32) ![j', 0, 0] ![1, 32, 32] inb').toLoadRect
      = v.readCov L (Rect.unit (s := S8x32x32) ![j', 0, 0] ![1, 32, 32] inb').toLoadRect := by
  rw [View.readCov_eq_canon', View.readCov_eq_canon']
  funext x
  refine View.canon_cons_of_not_mem _ L fun hm => ?_
  have hm' : (Rect.unit (s := S8x32x32) ![j', 0, 0] ![1, 32, 32] inb').toLoadRect.idx x ∈ (Rect.unit (s := S8x32x32) ![j, 0, 0] ![1, 32, 32] inb).set := hm
  have h0 := (Rect.mem_set_unit.mp hm') 0
  have h0' : j ≤ j' + 1 * (x 0).val ∧ j' + 1 * (x 0).val < j + 1 := h0
  have := lead_zero x
  omega

/-- A load of slab `j'` after one store of the whole buffer reads the stored value's slab. -/
theorem readCov_whole_slab {sig' : RefSig} {κ : Kind} {sp : Space} (v : View sig' κ sp S8x32x32 e) (j' : ℕ)
    (inb : ∀ d, (![0, 0, 0] : Fin 3 → ℕ) d + (![8, 32, 32] : Fin 3 → ℕ) d ≤ S8x32x32.size d)
    (inb' : ∀ d, (![j', 0, 0] : Fin 3 → ℕ) d + (![1, 32, 32] : Fin 3 → ℕ) d ≤ S8x32x32.size d)
    (w : S8x32x32.Idx → Val e) :
    v.readCov [⟨Rect.unit (s := S8x32x32) ![0, 0, 0] ![8, 32, 32] inb, w⟩] (Rect.unit (s := S8x32x32) ![j', 0, 0] ![1, 32, 32] inb').toLoadRect
      = View.ld w (Rect.unit (s := S8x32x32) ![j', 0, 0] ![1, 32, 32] inb') := by
  rw [View.readCov_eq_canon']
  funext x
  exact congrFun (View.canon_unit_zero (S := S8x32x32) hz3 inb w) _

end

end Cert.Kernel.Hand

end
-- ==== Proof.Word.Kv.RunMid.lean ====
/-
  (The program as printed, whose floats are words: the statements below do not depend on what a float is.)
  The first pass at a point that is neither the first nor the last block of its batch: each head's slab of the accumulator is loaded, increased by the head's product of features and stored back; the output block is not touched.
-/
import proofs.«173681_j5471788335757_2_alg».proof.Proof.Word.Kv.Shared

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The body on whole staging memrefs at this kind of point: the pieces its stores leave (last store first) are found
    by running it; the loads it makes of earlier stores are part of those pieces' values. -/
noncomputable def runMid (c : Dev nD) (i : grid0.Coords) (arg2 : Memref sig .tc .vmem S1x4096x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x8x32x32 .f32) (harg7 : arg7.IsWhole) (arg8 : Memref sig .tc .vmem S8x32x32 .f32) (harg8 : arg8.IsWhole) (hc0 : ¬firstBlock i) (hc1 : ¬lastBlock i)
    (x0 : Vec F S1x4096x256 .f32) (x1 x2 x3 x4 : Vec F S1x256 .f32) (xs0 : Vec F S8x32x32 .f32) :
    { LS0 : List (View.Piece (Elt F) S8x32x32 .f32) //
      ∀ (xi5 : Vec F S1x8x32x32 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc0__kv_kernel i arg2 harg2 arg3 harg3 arg4 harg4 arg5 harg5 arg6 harg6 arg7 harg7 arg8 harg8) K } := by
  refine ⟨?_, fun xi5 E K => ?run⟩
  case run =>
    simp only [cc0__kv_kernel_eq_skeleton]; unfold cc0__kv_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS0

end Cert.Kernel.Hand

end
-- ==== Proof.Word.Kv.RunFirst.lean ====
/-
  (The program as printed, whose floats are words: the statements below do not depend on what a float is.)
  The first pass at the first block of a batch: the accumulator is cleared, then each head's slab of it is loaded, increased by the head's product of features and stored back; the output block is not touched. Whatever the accumulator held before is overwritten.
-/
import proofs.«173681_j5471788335757_2_alg».proof.Proof.Word.Kv.RunMid

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The body on whole staging memrefs at this kind of point: the pieces its stores leave (last store first) are found
    by running it; the loads it makes of earlier stores are part of those pieces' values. -/
noncomputable def runFirst (c : Dev nD) (i : grid0.Coords) (arg2 : Memref sig .tc .vmem S1x4096x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x8x32x32 .f32) (harg7 : arg7.IsWhole) (arg8 : Memref sig .tc .vmem S8x32x32 .f32) (harg8 : arg8.IsWhole) (hc0 : firstBlock i) (hc1 : ¬lastBlock i)
    (x0 : Vec F S1x4096x256 .f32) (x1 x2 x3 x4 : Vec F S1x256 .f32) :
    { LS0 : List (View.Piece (Elt F) S8x32x32 .f32) //
      ∀ (xi5 : Vec F S1x8x32x32 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc0__kv_kernel i arg2 harg2 arg3 harg3 arg4 harg4 arg5 harg5 arg6 harg6 arg7 harg7 arg8 harg8) K } := by
  refine ⟨?_, fun xi5 E K => ?run⟩
  case run =>
    simp only [cc0__kv_kernel_eq_skeleton]; unfold cc0__kv_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS0

end Cert.Kernel.Hand

end
-- ==== Proof.Word.Kv.RunLast.lean ====
/-
  (The program as printed, whose floats are words: the statements below do not depend on what a float is.)
  The first pass at the last block of a batch: each head's slab of the accumulator is loaded, increased by the head's product of features and stored back; then the whole accumulator is loaded, scaled by the reciprocal of the token count and stored as the output block.
-/
import proofs.«173681_j5471788335757_2_alg».proof.Proof.Word.Kv.RunFirst

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The body on whole staging memrefs at this kind of point: the pieces its stores leave (last store first) are found
    by running it; the loads it makes of earlier stores are part of those pieces' values. -/
noncomputable def runLast (c : Dev nD) (i : grid0.Coords) (arg2 : Memref sig .tc .vmem S1x4096x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x8x32x32 .f32) (harg7 : arg7.IsWhole) (arg8 : Memref sig .tc .vmem S8x32x32 .f32) (harg8 : arg8.IsWhole) (hc0 : ¬firstBlock i) (hc1 : lastBlock i)
    (x0 : Vec F S1x4096x256 .f32) (x1 x2 x3 x4 : Vec F S1x256 .f32) (xs0 : Vec F S8x32x32 .f32) :
    Σ' (L5 : List (View.Piece (Elt F) S1x8x32x32 .f32)), { LS0 : List (View.Piece (Elt F) S8x32x32 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0)) -∗ K ⟨⟩))
          ⊢ wp frame (wpE (defs₀ (F := F)) Variants.none c none) E (cc0__kv_kernel i arg2 harg2 arg3 harg3 arg4 harg4 arg5 harg5 arg6 harg6 arg7 harg7 arg8 harg8) K } := by
  refine ⟨?_, ?_, fun E K => ?run⟩
  case run =>
    simp only [cc0__kv_kernel_eq_skeleton]; unfold cc0__kv_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; iexact H5
    iexists _; iexact HS0

end Cert.Kernel.Hand

end
-- ==== Proof.Word.Kv.Pieces.lean ====
/-
  (The program as printed, whose floats are words: the statements below do not depend on what a float is.)
  What the three kinds of point leave in the accumulator and in the output block, in closed form.

  Whatever kind of point it is, the body's eight slab stores are the same function of the token block, the four rows
  of weights and what the accumulator held when the slabs were loaded: `slabPieces`. At a first block that is the
  zero array the body has just stored; elsewhere it is what the point before left. So the accumulator after a point
  is `accNext` of the point's inputs and of that array, and at a last block the output block is the accumulator
  after the point times the reciprocal of the token count (`scaled`). Any element type: the payloads stay folded.
-/
import proofs.«173681_j5471788335757_2_alg».proof.Proof.LibCanonAppend
import proofs.«173681_j5471788335757_2_alg».proof.Proof.Word.Kv.Slabs
import proofs.«173681_j5471788335757_2_alg».proof.Proof.Word.Kv.RunLast

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The eight slab stores of a point (last first), over what the accumulator held when its slabs were loaded. -/
def slabPieces (x0 : Vec F S1x4096x256 .f32) (x1 x2 x3 x4 : Vec F S1x256 .f32) (before : Vec F S8x32x32 .f32) : List (View.Piece (Elt F) S8x32x32 .f32) :=
  [⟨(Rect.unit (s := S8x32x32) ![7, 0, 0] S1x32x32.size inb_S8x32x32_S1x32x32_7_0_0), slabStep x0 x1 x2 x3 x4 7 (View.ld before (Rect.unit (s := S8x32x32) ![7, 0, 0] S1x32x32.size inb_S8x32x32_S1x32x32_7_0_0))⟩,
      ⟨(Rect.unit (s := S8x32x32) ![6, 0, 0] S1x32x32.size inb_S8x32x32_S1x32x32_6_0_0), slabStep x0 x1 x2 x3 x4 6 (View.ld before (Rect.unit (s := S8x32x32) ![6, 0, 0] S1x32x32.size inb_S8x32x32_S1x32x32_6_0_0))⟩,
      ⟨(Rect.unit (s := S8x32x32) ![5, 0, 0] S1x32x32.size inb_S8x32x32_S1x32x32_5_0_0), slabStep x0 x1 x2 x3 x4 5 (View.ld before (Rect.unit (s := S8x32x32) ![5, 0, 0] S1x32x32.size inb_S8x32x32_S1x32x32_5_0_0))⟩,
      ⟨(Rect.unit (s := S8x32x32) ![4, 0, 0] S1x32x32.size inb_S8x32x32_S1x32x32_4_0_0), slabStep x0 x1 x2 x3 x4 4 (View.ld before (Rect.unit (s := S8x32x32) ![4, 0, 0] S1x32x32.size inb_S8x32x32_S1x32x32_4_0_0))⟩,
      ⟨(Rect.unit (s := S8x32x32) ![3, 0, 0] S1x32x32.size inb_S8x32x32_S1x32x32_3_0_0), slabStep x0 x1 x2 x3 x4 3 (View.ld before (Rect.unit (s := S8x32x32) ![3, 0, 0] S1x32x32.size inb_S8x32x32_S1x32x32_3_0_0))⟩,
      ⟨(Rect.unit (s := S8x32x32) ![2, 0, 0] S1x32x32.size inb_S8x32x32_S1x32x32_2_0_0), slabStep x0 x1 x2 x3 x4 2 (View.ld before (Rect.unit (s := S8x32x32) ![2, 0, 0] S1x32x32.size inb_S8x32x32_S1x32x32_2_0_0))⟩,
      ⟨(Rect.unit (s := S8x32x32) ![1, 0, 0] S1x32x32.size inb_S8x32x32_S1x32x32_1_0_0), slabStep x0 x1 x2 x3 x4 1 (View.ld before (Rect.unit (s := S8x32x32) ![1, 0, 0] S1x32x32.size inb_S8x32x32_S1x32x32_1_0_0))⟩,
      ⟨(Rect.unit (s := S8x32x32) ![0, 0, 0] S1x32x32.size inb_S8x32x32_S1x32x32_0_0_0), slabStep x0 x1 x2 x3 x4 0 (View.ld before (Rect.unit (s := S8x32x32) ![0, 0, 0] S1x32x32.size inb_S8x32x32_S1x32x32_0_0_0))⟩]

/-- They tile the accumulator. -/
theorem slabPieces_cover (x0 : Vec F S1x4096x256 .f32) (x1 x2 x3 x4 : Vec F S1x256 .f32) (before : Vec F S8x32x32 .f32) (y : S8x32x32.Idx) :
    ∃ p ∈ slabPieces x0 x1 x2 x3 x4 before, y ∈ p.1.set :=
  View.cover_of_tiledL (slabPieces x0 x1 x2 x3 x4 before) S1x32x32.size (by sl_kernel_rfl) y

/-- The accumulator after a point. -/
def accNext (x0 : Vec F S1x4096x256 .f32) (x1 x2 x3 x4 : Vec F S1x256 .f32) (before : Vec F S8x32x32 .f32) : Vec F S8x32x32 .f32 :=
  View.canon (slabPieces x0 x1 x2 x3 x4 before)

/-- The zero array a first block stores before anything else. -/
abbrev zerosAcc : Vec F S8x32x32 .f32 := k0_pay2

/-- The output block at a last block: the accumulator scaled by the reciprocal of the token count. -/
abbrev scaled (acc : Vec F S8x32x32 .f32) : Vec F S1x8x32x32 .f32 := k0_pay1 acc

/-! ## A point in the middle of a batch -/

theorem runMid_pieces (c : Dev nD) (i : grid0.Coords) (arg2 : Memref sig .tc .vmem S1x4096x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x8x32x32 .f32) (harg7 : arg7.IsWhole) (arg8 : Memref sig .tc .vmem S8x32x32 .f32) (harg8 : arg8.IsWhole) (hc0 : ¬firstBlock i) (hc1 : ¬lastBlock i)
    (x0 : Vec F S1x4096x256 .f32) (x1 x2 x3 x4 : Vec F S1x256 .f32) (xs0 : Vec F S8x32x32 .f32) :
    (runMid c i arg2 harg2 arg3 harg3 arg4 harg4 arg5 harg5 arg6 harg6 arg7 harg7 arg8 harg8 hc0 hc1 x0 x1 x2 x3 x4 xs0).1 = slabPieces x0 x1 x2 x3 x4 xs0 := by
  unfold runMid
  dsimp only
  sl_unfold_run_names
  simp only [View.readAt_eq_ld, harg2.read_unread, harg3.read_unread, harg4.read_unread, harg5.read_unread, harg6.read_unread, harg8.read_unread,
    View.ld_unit_zero (S := S1x4096x256) hz3, View.ld_unit_zero (S := S1x256) hz2]
  rfl

theorem runMid_acc (c : Dev nD) (i : grid0.Coords) (arg2 : Memref sig .tc .vmem S1x4096x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x8x32x32 .f32) (harg7 : arg7.IsWhole) (arg8 : Memref sig .tc .vmem S8x32x32 .f32) (harg8 : arg8.IsWhole) (hc0 : ¬firstBlock i) (hc1 : ¬lastBlock i)
    (x0 : Vec F S1x4096x256 .f32) (x1 x2 x3 x4 : Vec F S1x256 .f32) (xs0 : Vec F S8x32x32 .f32) (f : arg8.view.ty.Contents (Elt F)) :
    arg8.view.read (Elt F) (arg8.view.writes (Elt F) f (runMid c i arg2 harg2 arg3 harg3 arg4 harg4 arg5 harg5 arg6 harg6 arg7 harg7 arg8 harg8 hc0 hc1 x0 x1 x2 x3 x4 xs0).1)
      = accNext x0 x1 x2 x3 x4 xs0 := by
  rw [runMid_pieces]
  exact View.read_writes_eq_canon _ _ _ (slabPieces_cover x0 x1 x2 x3 x4 xs0)

/-! ## The first block of a batch -/

theorem runFirst_pieces (c : Dev nD) (i : grid0.Coords) (arg2 : Memref sig .tc .vmem S1x4096x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x8x32x32 .f32) (harg7 : arg7.IsWhole) (arg8 : Memref sig .tc .vmem S8x32x32 .f32) (harg8 : arg8.IsWhole) (hc0 : firstBlock i) (hc1 : ¬lastBlock i)
    (x0 : Vec F S1x4096x256 .f32) (x1 x2 x3 x4 : Vec F S1x256 .f32) :
    (runFirst c i arg2 harg2 arg3 harg3 arg4 harg4 arg5 harg5 arg6 harg6 arg7 harg7 arg8 harg8 hc0 hc1 x0 x1 x2 x3 x4).1
      = slabPieces x0 x1 x2 x3 x4 zerosAcc ++ [⟨(Rect.unit (s := S8x32x32) ![0, 0, 0] S8x32x32.size inb_S8x32x32_S8x32x32_0_0_0), zerosAcc⟩] := by
  unfold runFirst
  dsimp only
  sl_unfold_run_names
  simp (disch := decide) only [View.readAt_eq_ld, harg2.read_unread, harg3.read_unread, harg4.read_unread, harg5.read_unread, harg6.read_unread,
    View.ld_unit_zero (S := S1x4096x256) hz3, View.ld_unit_zero (S := S1x256) hz2,
    readCov_other_slab, readCov_whole_slab]
  rfl

theorem runFirst_acc (c : Dev nD) (i : grid0.Coords) (arg2 : Memref sig .tc .vmem S1x4096x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x8x32x32 .f32) (harg7 : arg7.IsWhole) (arg8 : Memref sig .tc .vmem S8x32x32 .f32) (harg8 : arg8.IsWhole) (hc0 : firstBlock i) (hc1 : ¬lastBlock i)
    (x0 : Vec F S1x4096x256 .f32) (x1 x2 x3 x4 : Vec F S1x256 .f32) (f : arg8.view.ty.Contents (Elt F)) :
    arg8.view.read (Elt F) (arg8.view.writes (Elt F) f (runFirst c i arg2 harg2 arg3 harg3 arg4 harg4 arg5 harg5 arg6 harg6 arg7 harg7 arg8 harg8 hc0 hc1 x0 x1 x2 x3 x4).1)
      = accNext x0 x1 x2 x3 x4 zerosAcc := by
  rw [runFirst_pieces]
  have hcov : ∀ y, ∃ p ∈ slabPieces x0 x1 x2 x3 x4 (zerosAcc (F := F)) ++ [⟨(Rect.unit (s := S8x32x32) ![0, 0, 0] S8x32x32.size inb_S8x32x32_S8x32x32_0_0_0), zerosAcc⟩], y ∈ p.1.set := fun y => by
    obtain ⟨p, hp, hy⟩ := slabPieces_cover x0 x1 x2 x3 x4 (zerosAcc (F := F)) y
    exact ⟨p, List.mem_append_left _ hp, hy⟩
  rw [View.read_writes_eq_canon _ _ _ hcov]
  funext y
  exact Cert.Lib.canon_append_of_cover _ _ y (slabPieces_cover x0 x1 x2 x3 x4 zerosAcc y)

/-! ## The last block of a batch -/

theorem runLast_pieces (c : Dev nD) (i : grid0.Coords) (arg2 : Memref sig .tc .vmem S1x4096x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x8x32x32 .f32) (harg7 : arg7.IsWhole) (arg8 : Memref sig .tc .vmem S8x32x32 .f32) (harg8 : arg8.IsWhole) (hc0 : ¬firstBlock i) (hc1 : lastBlock i)
    (x0 : Vec F S1x4096x256 .f32) (x1 x2 x3 x4 : Vec F S1x256 .f32) (xs0 : Vec F S8x32x32 .f32) :
    (runLast c i arg2 harg2 arg3 harg3 arg4 harg4 arg5 harg5 arg6 harg6 arg7 harg7 arg8 harg8 hc0 hc1 x0 x1 x2 x3 x4 xs0).2.1 = slabPieces x0 x1 x2 x3 x4 xs0 := by
  unfold runLast
  dsimp only
  sl_unfold_run_names
  simp only [View.readAt_eq_ld, harg2.read_unread, harg3.read_unread, harg4.read_unread, harg5.read_unread, harg6.read_unread, harg8.read_unread,
    View.ld_unit_zero (S := S1x4096x256) hz3, View.ld_unit_zero (S := S1x256) hz2]
  rfl

theorem runLast_acc (c : Dev nD) (i : grid0.Coords) (arg2 : Memref sig .tc .vmem S1x4096x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x8x32x32 .f32) (harg7 : arg7.IsWhole) (arg8 : Memref sig .tc .vmem S8x32x32 .f32) (harg8 : arg8.IsWhole) (hc0 : ¬firstBlock i) (hc1 : lastBlock i)
    (x0 : Vec F S1x4096x256 .f32) (x1 x2 x3 x4 : Vec F S1x256 .f32) (xs0 : Vec F S8x32x32 .f32) (f : arg8.view.ty.Contents (Elt F)) :
    arg8.view.read (Elt F) (arg8.view.writes (Elt F) f (runLast c i arg2 harg2 arg3 harg3 arg4 harg4 arg5 harg5 arg6 harg6 arg7 harg7 arg8 harg8 hc0 hc1 x0 x1 x2 x3 x4 xs0).2.1)
      = accNext x0 x1 x2 x3 x4 xs0 := by
  rw [runLast_pieces]
  exact View.read_writes_eq_canon _ _ _ (slabPieces_cover x0 x1 x2 x3 x4 xs0)

/-- The whole accumulator loaded after the eight slab stores is the accumulator after the point. -/
theorem readCov_slabPieces {sig' : RefSig} {κ : Kind} {sp : Space} (v : View sig' κ sp S8x32x32 .f32) (x0 : Vec F S1x4096x256 .f32) (x1 x2 x3 x4 : Vec F S1x256 .f32) (before : Vec F S8x32x32 .f32) :
    v.readCov (slabPieces x0 x1 x2 x3 x4 before) (Rect.unit (s := S8x32x32) ![0, 0, 0] S8x32x32.size inb_S8x32x32_S8x32x32_0_0_0).toLoadRect = accNext x0 x1 x2 x3 x4 before := by
  rw [View.readCov_eq_canon_ld _ _ _ (slabPieces_cover x0 x1 x2 x3 x4 before), View.ld_unit_zero hz3]
  rfl

theorem runLast_out_pieces (c : Dev nD) (i : grid0.Coords) (arg2 : Memref sig .tc .vmem S1x4096x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x8x32x32 .f32) (harg7 : arg7.IsWhole) (arg8 : Memref sig .tc .vmem S8x32x32 .f32) (harg8 : arg8.IsWhole) (hc0 : ¬firstBlock i) (hc1 : lastBlock i)
    (x0 : Vec F S1x4096x256 .f32) (x1 x2 x3 x4 : Vec F S1x256 .f32) (xs0 : Vec F S8x32x32 .f32) :
    (runLast c i arg2 harg2 arg3 harg3 arg4 harg4 arg5 harg5 arg6 harg6 arg7 harg7 arg8 harg8 hc0 hc1 x0 x1 x2 x3 x4 xs0).1 = [⟨(Rect.unit (s := S1x8x32x32) ![0, 0, 0, 0] S1x8x32x32.size inb_S1x8x32x32_S1x8x32x32_0_0_0_0), scaled (accNext x0 x1 x2 x3 x4 xs0)⟩] := by
  unfold runLast
  dsimp only
  sl_unfold_run_names
  simp only [View.readAt_eq_ld, harg2.read_unread, harg3.read_unread, harg4.read_unread, harg5.read_unread, harg6.read_unread, harg8.read_unread,
    View.ld_unit_zero (S := S1x4096x256) hz3, View.ld_unit_zero (S := S1x256) hz2]
  exact congrArg (fun a : Vec F S8x32x32 .f32 => [(⟨(Rect.unit (s := S1x8x32x32) ![0, 0, 0, 0] S1x8x32x32.size inb_S1x8x32x32_S1x8x32x32_0_0_0_0), scaled a⟩ : View.Piece (Elt F) S1x8x32x32 .f32)])
    (readCov_slabPieces arg8.view x0 x1 x2 x3 x4 xs0)

theorem runLast_out (c : Dev nD) (i : grid0.Coords) (arg2 : Memref sig .tc .vmem S1x4096x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x8x32x32 .f32) (harg7 : arg7.IsWhole) (arg8 : Memref sig .tc .vmem S8x32x32 .f32) (harg8 : arg8.IsWhole) (hc0 : ¬firstBlock i) (hc1 : lastBlock i)
    (x0 : Vec F S1x4096x256 .f32) (x1 x2 x3 x4 : Vec F S1x256 .f32) (xs0 : Vec F S8x32x32 .f32) (f : arg7.view.ty.Contents (Elt F)) :
    arg7.view.read (Elt F) (arg7.view.writes (Elt F) f (runLast c i arg2 harg2 arg3 harg3 arg4 harg4 arg5 harg5 arg6 harg6 arg7 harg7 arg8 harg8 hc0 hc1 x0 x1 x2 x3 x4 xs0).1)
      = scaled (accNext x0 x1 x2 x3 x4 xs0) := by
  rw [runLast_out_pieces]
  rw [View.read_writes_eq_canon _ _ _ (fun y => ⟨_, List.mem_singleton_self _, View.mem_set_unit_zero hz4 inb_S1x8x32x32_S1x8x32x32_0_0_0_0 y⟩), View.canon_unit_zero hz4]

end Cert.Kernel.Hand

end
-- ==== Proof.Word.Kv.Data.lean ====
/-
  (The program as printed, whose floats are words: the statements below do not depend on what a float is.)
  The first pass point by point: what the accumulator holds after each grid point, the invariant that carries it
  from one point to the next, and the proof data of the pass.

  After point t the accumulator is `accNext` of the point's five input blocks and of what it held when the point's
  slabs were loaded: zeros at the first block of a batch (t = 8 b), what point t - 1 left otherwise. So after the
  point 8 b + n it holds, slab by slab, the sum over the blocks 0 … n of batch b of the heads' products. The output
  block after a point is the accumulator after it, scaled; it is written back at the last blocks only.
-/
import proofs.«173681_j5471788335757_2_alg».proof.Proof.Word.Kv.Pieces

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section

-- what the core's buffers hold when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not: where it is not
    fetched its block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The accumulator after each point -/

/-- What the accumulator holds after the body at position `n`. -/
def accAt (c : Dev nD) : (n : ℕ) → n < cfg0.N → Vec F S8x32x32 .f32
  | 0, hn => accNext (iblk0 V c 0 ⟨0, hn⟩) (iblk0 V c 1 ⟨0, hn⟩) (iblk0 V c 2 ⟨0, hn⟩) (iblk0 V c 3 ⟨0, hn⟩) (iblk0 V c 4 ⟨0, hn⟩) zerosAcc
  | n + 1, hn =>
    if (n + 1) % 8 = 0 then accNext (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) zerosAcc
    else accNext (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (accAt c n (Nat.lt_of_succ_lt hn))

/-- At the first block of a batch it starts again from zero. -/
theorem accAt_first (c : Dev nD) (t : Fin cfg0.N) (h : t.val % 8 = 0) :
    accAt V c t.val t.isLt = accNext (iblk0 V c 0 t) (iblk0 V c 1 t) (iblk0 V c 2 t) (iblk0 V c 3 t) (iblk0 V c 4 t) zerosAcc := by
  obtain ⟨n, hn⟩ := t
  cases n with
  | zero => rfl
  | succ n => exact if_pos h

/-- Elsewhere it continues from what the point before left. -/
theorem accAt_next (c : Dev nD) (t : Fin cfg0.N) (h : ¬t.val % 8 = 0) :
    accAt V c t.val t.isLt = accNext (iblk0 V c 0 t) (iblk0 V c 1 t) (iblk0 V c 2 t) (iblk0 V c 3 t) (iblk0 V c 4 t) (accAt V c (t.val - 1) (Nat.lt_of_le_of_lt (Nat.sub_le _ _) t.isLt)) := by
  obtain ⟨n, hn⟩ := t
  cases n with
  | zero => exact absurd (Nat.zero_mod _) h
  | succ n => exact if_neg h

/-! ## The invariant -/

/-- Before position `n`: at the region's entry the plain invariant (the accumulator at anything); afterwards the
    accumulator at what the point before left, beside the other scoped buffers and the generator register. -/
def PhiS (c : Dev nD) : (n : ℕ) → n ≤ cfg0.N → sProp 𝕄
  | 0, _ => Pipeline.ΦA spec0 c
  | n + 1, hn => iprop(iprop(owns (c : Thread nD τ) accM fullShare (accAt V c n hn) ∗ otherScoped (F := F) c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) accM fullShare (accAt V c n hn) ∗ otherScoped (F := F) c) ∗ (∃ r, prngReg c r)) := rfl

theorem PhiS_pos (c : Dev nD) (n : ℕ) (h : n ≤ cfg0.N) (hz : n ≠ 0) :
    PhiS V c n h = iprop(iprop(owns (c : Thread nD τ) accM fullShare (accAt V c (n - 1) (by omega)) ∗ otherScoped (F := F) c) ∗ (∃ r, prngReg c r)) := by
  cases n with
  | zero => exact absurd rfl hz
  | succ n => rfl

/-! ## The proof data -/

/-- The proof data of the first pass on core `c`: the arrays as the region finds them; after the body at point `t`
    each input's buffer at its block and the output's at the scaled accumulator; the invariant above; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => scaled (accAt V c t.val t.isLt)
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = scaled (accAt V c t.val t.isLt) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

end

end Cert.Kernel.Hand

end
-- ==== Proof.Word.Out.Data.lean ====
/-
  (The program as printed, whose floats are words: the statements below do not depend on what a float is.)
  The second kernel launch of the program: for every batch `b` and every block `n` of 4096 tokens it reads the block
  `[1, 4096, 256]` of the input at `(b, n, 0)` and the eight 32 × 32 matrices of batch `b`, and writes one block of
  the same shape. This file names, for any contents `V` of the core's buffers when the launch is entered,
  the blocks of the three operands at a grid point, the block the body leaves in the output buffer as a function of
  the two blocks it read (`outBlock`: one covering store, its value the body's arithmetic applied to what the loads
  read), and the bookkeeping record of the launch built from them.
-/
import proofs.«173681_j5471788335757_2_alg».proof.Proof.Gen.Kernel.Launch
import proofs.«173681_j5471788335757_2_alg».proof.Proof.Gen.Kernel.Skeleton
import proofs.«173681_j5471788335757_2_alg».proof.Proof.Gen.Kernel.Points
import Idealize.ShloMosaic.Lib.Pipeline.FrameBody

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat Cfg Window BodyObligation)

variable {F : FTy → Type} [FloatOps F]

variable (V : (c : Dev nD) → (b : Ref sig .tc) → Buf (Elt F) ((c : Thread nD τ).loc b))

/-- Operand `w`'s block at grid point `t`, read off its array as the launch finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The whole `[1, 4096, 256]` buffer as a rectangle: what the one load of the input block and the one store of the
    output block go through. -/
abbrev rTok : Rect S1x4096x256 := Rect.unit (s := S1x4096x256) ![0, 0, 0] S1x4096x256.size inb_S1x4096x256_S1x4096x256_0_0_0

/-- The matrix of head `h` inside the `[1, 8, 32, 32]` buffer, one rectangle per head. -/
abbrev rHead0 : Rect S1x8x32x32 := Rect.unit (s := S1x8x32x32) ![0, 0, 0, 0] S1x1x32x32.size inb_S1x8x32x32_S1x1x32x32_0_0_0_0
abbrev rHead1 : Rect S1x8x32x32 := Rect.unit (s := S1x8x32x32) ![0, 1, 0, 0] S1x1x32x32.size inb_S1x8x32x32_S1x1x32x32_0_1_0_0
abbrev rHead2 : Rect S1x8x32x32 := Rect.unit (s := S1x8x32x32) ![0, 2, 0, 0] S1x1x32x32.size inb_S1x8x32x32_S1x1x32x32_0_2_0_0
abbrev rHead3 : Rect S1x8x32x32 := Rect.unit (s := S1x8x32x32) ![0, 3, 0, 0] S1x1x32x32.size inb_S1x8x32x32_S1x1x32x32_0_3_0_0
abbrev rHead4 : Rect S1x8x32x32 := Rect.unit (s := S1x8x32x32) ![0, 4, 0, 0] S1x1x32x32.size inb_S1x8x32x32_S1x1x32x32_0_4_0_0
abbrev rHead5 : Rect S1x8x32x32 := Rect.unit (s := S1x8x32x32) ![0, 5, 0, 0] S1x1x32x32.size inb_S1x8x32x32_S1x1x32x32_0_5_0_0
abbrev rHead6 : Rect S1x8x32x32 := Rect.unit (s := S1x8x32x32) ![0, 6, 0, 0] S1x1x32x32.size inb_S1x8x32x32_S1x1x32x32_0_6_0_0
abbrev rHead7 : Rect S1x8x32x32 := Rect.unit (s := S1x8x32x32) ![0, 7, 0, 0] S1x1x32x32.size inb_S1x8x32x32_S1x1x32x32_0_7_0_0

/-- The value the body stores, from the input block `x0` and the block of matrices `x1`: the first four heads'
    results and the fifth head's columns come from the first part of the body, the rest from the second. -/
def outVal (x0 : Vec F S1x4096x256 .f32) (x1 : Vec F S1x8x32x32 .f32) : Vec F S1x4096x256 .f32 :=
  k1_pay1 (k1_pay2 (View.ld x0 rTok)) (k1_pay3 (View.ld x0 rTok) (View.ld x1 rHead0)) (k1_pay4 (View.ld x0 rTok) (View.ld x1 rHead1))
    (k1_pay5 (View.ld x0 rTok) (View.ld x1 rHead2)) (k1_pay6 (View.ld x0 rTok) (View.ld x1 rHead3)) (k1_pay7 (View.ld x0 rTok))
    (View.ld x1 rHead4) (View.ld x1 rHead5) (View.ld x1 rHead6) (View.ld x1 rHead7)

/-- What the body leaves in the output buffer: its one store, which covers the buffer. -/
def outBlock (x0 : Vec F S1x4096x256 .f32) (x1 : Vec F S1x8x32x32 .f32) : Vec F S1x4096x256 .f32 :=
  View.canon [⟨rTok, outVal x0 x1⟩]

/-- The launch's bookkeeping on core `c`: the arrays as the launch finds them; after the body at point `t` each input's
    buffer still holds its block and the output's buffer holds `outBlock` of the two input blocks; the rest of the
    core's state is untouched, nothing is owed, every share is whole. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => outBlock (iblk1 V c 0 t) (iblk1 V c 1 t)
  Φ _ := Pipeline.ΦA spec1 c
  q _ := fullShare
  owed _ := 0

/-- The record's arrays are the contents the launch finds. -/
theorem A_eq1 (c : Dev nD) (w : Fin cfg1.W) : (dat1 V c).A w = V c (Pipeline.arrRef spec1 w) := by
  dsimp only [dat1]

/-- What the body leaves, operand by operand. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = outBlock (iblk1 V c 0 t) (iblk1 V c 1 t) := by dsimp only [dat1]

end Cert.Kernel.Hand

end
-- ==== Proof.Word.Launch.Valuations.lean ====
/-
  (The program as printed, whose floats are words: the statements below do not depend on what a float is.)
  The contents of a core's buffers at the boundaries of the program's three items: at launch, after the four host
  reshapes (where the first kernel launch is entered), after the first launch (where the second is entered: no host
  operation lies between them), and after the second (where the program returns). A launch leaves each of its operands'
  arrays at what its write-backs leave and every other buffer as it found it. Read back through these steps: no item
  writes an argument array, so each holds its launch contents at every boundary; each of the four reshaped parameters
  holds the reshape of its argument from the first boundary on; the moment array holds what the first launch leaves in
  it when the second is entered; and the result array holds at the end what the second launch leaves in it.
-/
import proofs.«173681_j5471788335757_2_alg».proof.Proof.Word.Kv.Data
import proofs.«173681_j5471788335757_2_alg».proof.Proof.Word.Out.Data
import Idealize.ShloMosaic.Lib.Pipeline.FrameSuffix
import Idealize.ShloMosaic.Lib.StableHlo.Run

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat Cfg Window BodyObligation)

variable {F : FTy → Type} [FloatOps F]

variable (m : (ℓ : Loc nD τ sig) → Buf (Elt F) ℓ) (ρ : Dev nD → PrngReg)

/-! ## The contents at each boundary -/

/-- Core `c`'s buffers at launch. -/
abbrev W0 : Dev nD → Valuation τ sig (Elt F) := fun c b => (s₀ m ρ).mem ((c : Dev nD), b)
/-- After the four reshapes: where the first launch is entered. -/
abbrev W1 : Dev nD → Valuation τ sig (Elt F) := fun c => StableHlo.after hostOps0 (W0 m ρ c)
/-- The same read at the core's references: the contents the first launch's record is taken at. -/
abbrev Vin : (c : Dev nD) → (b : Ref sig .tc) → Buf (Elt F) ((c : Thread nD τ).loc b) := fun c b => W1 m ρ c b
/-- After the first launch: its operands' arrays at what its write-backs leave, every other buffer as entered. -/
def W2 (c : Dev nD) : Valuation τ sig (Elt F) :=
  Pipeline.withArrays spec0 c (W1 m ρ c) fun w => (dat0 (Vin m ρ) c).arrAt w cfg0.N
/-- The same read at the core's references: the contents the second launch's record is taken at. -/
abbrev Vmid : (c : Dev nD) → (b : Ref sig .tc) → Buf (Elt F) ((c : Thread nD τ).loc b) := fun c b => W2 m ρ c b
/-- After the second launch: where the program returns. -/
def W3 (c : Dev nD) : Valuation τ sig (Elt F) :=
  Pipeline.withArrays spec1 c (W2 m ρ c) fun w => (dat1 (Vmid m ρ) c).arrAt w cfg1.N
/-- The same read at the core's references. -/
abbrev Vend : (c : Dev nD) → (b : Ref sig .tc) → Buf (Elt F) ((c : Thread nD τ).loc b) := fun c b => W3 m ρ c b

/-! ## What a launch leaves where -/

theorem W2_arr (c : Dev nD) (w : Fin cfg0.W) :
    W2 m ρ c (Proc.devRef .tc (Pipeline.arrRef spec0 w)) = (dat0 (Vin m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
theorem W3_arr (c : Dev nD) (w : Fin cfg1.W) :
    W3 m ρ c (Proc.devRef .tc (Pipeline.arrRef spec1 w)) = (dat1 (Vmid m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb

/-- At a launch's exit each of its arrays holds what the launch leaves and every other buffer what it held at entry. -/
theorem hF0 (c : Dev nD) (w : Fin cfg0.W) : (dat0 (Vin m ρ) c).arrAt w cfg0.N = Vmid m ρ c (Pipeline.arrRef spec0 w) :=
  (W2_arr m ρ c w).symm
theorem hrest0 (c : Dev nD) : ∀ b, b ∉ Finset.univ.image (Pipeline.arrRef spec0) → Vmid m ρ c b = Vin m ρ c b :=
  fun b hb => W2_of_ne m ρ c b fun w e => hb (Finset.mem_image.mpr ⟨w, Finset.mem_univ _, e⟩)
theorem hF1 (c : Dev nD) (w : Fin cfg1.W) : (dat1 (Vmid m ρ) c).arrAt w cfg1.N = Vend m ρ c (Pipeline.arrRef spec1 w) :=
  (W3_arr m ρ c w).symm
theorem hrest1 (c : Dev nD) : ∀ b, b ∉ Finset.univ.image (Pipeline.arrRef spec1) → Vend m ρ c b = Vmid m ρ c b :=
  fun b hb => W3_of_ne m ρ c b fun w e => hb (Finset.mem_image.mpr ⟨w, Finset.mem_univ _, e⟩)

/-! ## The reshapes write the four parameter arrays and nothing else -/

/-- A buffer the reshapes do not write holds its launch contents where the first launch is entered. -/
theorem W1_of_not_written (c : Dev nD) (b : Ref sig .tc)
    (hb : b ≠ main_v0 ∧ b ≠ main_v1 ∧ b ≠ main_v2 ∧ b ≠ main_v3) :
    W1 m ρ c (Proc.devRef .tc b) = m ((c : Thread nD τ).loc b) :=
  (StableHlo.after_of_forall_not_mem (b := Proc.devRef .tc b) _ _ (List.forall_iff_forall_mem.mp (by
    simp only [hostOps0, List.Forall, StableHlo.reshape_writes, Finset.mem_singleton]
    exact ⟨StableHlo.devRef_ne_of_ne hb.1, StableHlo.devRef_ne_of_ne hb.2.1, StableHlo.devRef_ne_of_ne hb.2.2.1,
      StableHlo.devRef_ne_of_ne hb.2.2.2⟩))).trans rfl

end Cert.Kernel.Hand

end
-- ==== Proof.Word.Kv.Body.lean ====
/-
  (The program as printed, whose floats are words: the statements below do not depend on what a float is.)
  The first pass's body at every grid point, against the pass's proof data.

  At the point t the body finds each input window's buffer at the window's block, the output window's buffer at
  whatever the pipeline left there, and the accumulator at what the point before left (at anything, at the region's
  entry). By the point's position in its batch one of three runs applies — first block, last block, in between —
  and hands back the accumulator at `accNext` of the point's inputs over zeros (first block) or over what it held;
  at a last block the output buffer at the scaled accumulator, elsewhere untouched (the window is idle there and
  is not written back).
-/
import proofs.«173681_j5471788335757_2_alg».proof.Proof.Word.Kv.Data

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section

variable (V : (c : Dev nD) → (b : Ref sig .tc) → Buf (Elt F) ((c : Thread nD τ).loc b))

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t)

set_option maxHeartbeats 4800000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).owesAt () t.succ = (dat0 V c).owesAt () t.castSucc from rfl]
  rw [show (dat0 V c).Φ t.succ = PhiS V c (t.val + 1) t.isLt from rfl, PhiS_succ]
  rw [show (dat0 V c).leavesExact 0 t = owns (c : Thread nD τ) (ms0_0 t) fullShare ((dat0 V c).after 0 t) from by
    unfold Dat.leavesExact; rw [live0_0 t], after0_0]
  rw [show (dat0 V c).leavesExact 1 t = owns (c : Thread nD τ) (ms0_1 t) fullShare ((dat0 V c).after 1 t) from by
    unfold Dat.leavesExact; rw [live0_1 t], after0_1]
  rw [show (dat0 V c).leavesExact 2 t = owns (c : Thread nD τ) (ms0_2 t) fullShare ((dat0 V c).after 2 t) from by
    unfold Dat.leavesExact; rw [live0_2 t], after0_2]
  rw [show (dat0 V c).leavesExact 3 t = owns (c : Thread nD τ) (ms0_3 t) fullShare ((dat0 V c).after 3 t) from by
    unfold Dat.leavesExact; rw [live0_3 t], after0_3]
  rw [show (dat0 V c).leavesExact 4 t = owns (c : Thread nD τ) (ms0_4 t) fullShare ((dat0 V c).after 4 t) from by
    unfold Dat.leavesExact; rw [live0_4 t], after0_4]
  have hN : t.val < 32 := lt_of_lt_of_eq t.isLt (show cfg0.N = 32 from N_0)
  by_cases h0 : t.val % 8 = 0
  · have h1 : ¬t.val % 8 = 7 := by omega
    rw [Dat.leavesExact_idle (dat0 V c) 5 t (idle0_5 t (fun h => h1 ((lastBlock_iff t).mp h))) (noFlush0_5 t (fun h => h1 ((lastBlock_iff t).mp h)))]
    rw [accAt_first V c t h0]
    by_cases hz : t.val = 0
    · rw [PhiS_castSucc V c t, PhiS_zero V c _ _ hz, PhiA0_eq]
      iintro ⟨⟨⟨HS0, Hrest⟩, Hg⟩, Ho, ⟨%d0, H0⟩, ⟨%d1, H1⟩, ⟨%d2, H2⟩, ⟨%d3, H3⟩, ⟨%d4, H4⟩, ⟨%d5, H5⟩⟩
      iapply ((runFirst c (grid0.coords t) _ _ _ _ _ _ _ _ _ _ _ _ _ _ ((firstBlock_iff t).mpr h0) (fun h => h1 ((lastBlock_iff t).mp h)) (iblk0 V c 0 t) (iblk0 V c 1 t) (iblk0 V c 2 t) (iblk0 V c 3 t) (iblk0 V c 4 t)).2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      iintro ⟨H0, H1, H2, H3, H4, H5, ⟨%es0, HS0⟩⟩
      isplitl [HS0 Hrest Hg]
      · isplitl [HS0 Hrest]
        · isplitl [HS0]
          · unfold owns; iexists _; isplitr
            swap; · iexact HS0
            ipureintro; exact runFirst_acc ..
          iexact Hrest
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
    · rw [PhiS_castSucc V c t, PhiS_pos V c _ _ hz]
      iintro ⟨⟨⟨HS0, Hrest⟩, Hg⟩, Ho, ⟨%d0, H0⟩, ⟨%d1, H1⟩, ⟨%d2, H2⟩, ⟨%d3, H3⟩, ⟨%d4, H4⟩, ⟨%d5, H5⟩⟩
      iapply ((runFirst c (grid0.coords t) _ _ _ _ _ _ _ _ _ _ _ _ _ _ ((firstBlock_iff t).mpr h0) (fun h => h1 ((lastBlock_iff t).mp h)) (iblk0 V c 0 t) (iblk0 V c 1 t) (iblk0 V c 2 t) (iblk0 V c 3 t) (iblk0 V c 4 t)).2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexists _; iexact HS0
      iintro ⟨H0, H1, H2, H3, H4, H5, ⟨%es0, HS0⟩⟩
      isplitl [HS0 Hrest Hg]
      · isplitl [HS0 Hrest]
        · isplitl [HS0]
          · unfold owns; iexists _; isplitr
            swap; · iexact HS0
            ipureintro; exact runFirst_acc ..
          iexact Hrest
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
  · have hz : t.val ≠ 0 := fun e => h0 (by rw [e])
    rw [accAt_next V c t h0]
    rw [PhiS_castSucc V c t, PhiS_pos V c _ _ hz]
    by_cases h1 : t.val % 8 = 7
    · rw [show (dat0 V c).leavesExact 5 t = owns (c : Thread nD τ) (ms0_5 t) fullShare ((dat0 V c).after 5 t) from by
        unfold Dat.leavesExact; rw [live0_5 t ((lastBlock_iff t).mpr h1)], after0_5, accAt_next V c t h0]
      iintro ⟨⟨⟨HS0, Hrest⟩, Hg⟩, Ho, ⟨%d0, H0⟩, ⟨%d1, H1⟩, ⟨%d2, H2⟩, ⟨%d3, H3⟩, ⟨%d4, H4⟩, ⟨%d5, H5⟩⟩
      iapply ((runLast c (grid0.coords t) _ _ _ _ _ _ _ _ _ _ _ _ _ _ (fun h => h0 ((firstBlock_iff t).mp h)) ((lastBlock_iff t).mpr h1) (iblk0 V c 0 t) (iblk0 V c 1 t) (iblk0 V c 2 t) (iblk0 V c 3 t) (iblk0 V c 4 t) _).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      iintro ⟨H0, H1, H2, H3, H4, ⟨%e5, H5⟩, ⟨%es0, HS0⟩⟩
      isplitl [HS0 Hrest Hg]
      · isplitl [HS0 Hrest]
        · isplitl [HS0]
          · unfold owns; iexists _; isplitr
            swap; · iexact HS0
            ipureintro; exact runLast_acc ..
          iexact Hrest
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact runLast_out ..
    · rw [Dat.leavesExact_idle (dat0 V c) 5 t (idle0_5 t (fun h => h1 ((lastBlock_iff t).mp h))) (noFlush0_5 t (fun h => h1 ((lastBlock_iff t).mp h)))]
      iintro ⟨⟨⟨HS0, Hrest⟩, Hg⟩, Ho, ⟨%d0, H0⟩, ⟨%d1, H1⟩, ⟨%d2, H2⟩, ⟨%d3, H3⟩, ⟨%d4, H4⟩, ⟨%d5, H5⟩⟩
      iapply ((runMid c (grid0.coords t) _ _ _ _ _ _ _ _ _ _ _ _ _ _ (fun h => h0 ((firstBlock_iff t).mp h)) (fun h => h1 ((lastBlock_iff t).mp h)) (iblk0 V c 0 t) (iblk0 V c 1 t) (iblk0 V c 2 t) (iblk0 V c 3 t) (iblk0 V c 4 t) _).2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      iintro ⟨H0, H1, H2, H3, H4, H5, ⟨%es0, HS0⟩⟩
      isplitl [HS0 Hrest Hg]
      · isplitl [HS0 Hrest]
        · isplitl [HS0]
          · unfold owns; iexists _; isplitr
            swap; · iexact HS0
            ipureintro; exact runMid_acc ..
          iexact Hrest
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]

/-- After the last point the invariant gives the plain one back: the accumulator's contents are forgotten. -/
theorem hout0 (c : Dev nD) : (dat0 V c).Φ (Fin.last cfg0.N) ⊢ Pipeline.ΦA spec0 c := by
  rw [show (dat0 V c).Φ (Fin.last cfg0.N) = PhiS V c (Fin.last cfg0.N).val (Nat.le_of_lt_succ (Fin.last cfg0.N).isLt) from rfl,
    PhiS_pos V c _ _ (by rw [Fin.val_last]; have : cfg0.N = 32 := N_0; omega), PhiA0_eq]
  iintro ⟨⟨HS0, Hrest⟩, Hg⟩
  isplitl [HS0 Hrest]
  · isplitl [HS0]
    · iexists _; iexact HS0
    iexact Hrest
  iexact Hg

end

end Cert.Kernel.Hand

end
-- ==== Proof.Word.Out.Body.lean ====
/-
  (The program as printed, whose floats are words: the statements below do not depend on what a float is.)
  The body of the second kernel launch meets the launch's bookkeeping record: run on buffers that hold the input block
  and the block of matrices (and anything in the output buffer), it ends with the two inputs as they were and the
  output buffer holding `outBlock` of them. The body reads the input block once, each head's matrix once, the output
  buffer once (the value is dropped) and stores one value that covers the output buffer; so what the buffer reads
  afterwards is that value, whatever was there before. An input's buffer holds its block at every grid point whether
  or not the block was fetched there: when it was not, the block index has not moved since the last fetch.
-/
import proofs.«173681_j5471788335757_2_alg».proof.Proof.Word.Out.Data
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The input block's buffer holds the block at every point, for any record whose array is the one the launch finds and
    whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The same for the block of matrices, which is fetched only when the batch changes. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The one store covers the output buffer. -/
theorem cover1_2 (p0 : Vec F S1x4096x256 .f32) (y : S1x4096x256.Idx) :
    ∃ pc ∈ ([⟨rTok, p0⟩] : List (View.Piece (Elt F) S1x4096x256 .f32)), y ∈ pc.1.set :=
  View.cover_of_tiled [⟨rTok, p0⟩] S1x4096x256.size (by rfl) y

set_option maxHeartbeats 2000000 in
/-- The body on whole buffers, the inputs' at contents `x0`, `x1` and the output's at anything, runs to the continuation
    holding the inputs' as they were and the output's at `outBlock x0 x1`. -/
theorem sound_kernel1 (c : Dev nD) (E : Set ℕ) (i : grid1.Coords) (arg2 : Memref sig .tc .vmem S1x4096x256 .f32) (harg2 : arg2.IsWhole) (arg3 : Memref sig .tc .vmem S1x8x32x32 .f32) (harg3 : arg3.IsWhole) (arg4 : Memref sig .tc .vmem S1x4096x256 .f32) (harg4 : arg4.IsWhole)
    (x0 : Vec F S1x4096x256 .f32) (x1 : Vec F S1x8x32x32 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (outBlock x0 x1)) -∗ K ⟨⟩))
      ⊢ wp frame (wpE (defs₀ (F := F)) Variants.none c none) E (cc1__out_kernel i arg2 harg2 arg3 harg3 arg4 harg4) K := by
  simp only [cc1__out_kernel_eq_skeleton]; unfold cc1__out_kernel_skel
  simp only [k1_part1_eq_skeleton]; unfold k1_part1_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  try dsimp only
  exact View.read_writes_eq_canon _ _ _ (cover1_2 _)

/-- Each input's buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' buffers hold their blocks, so the body's run applies; the rest of the core's state
    passes through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ (grid1.coords t) _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The launch's obligation about its body, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.Word.Launch.Segments.lean ====
/-
  (The program as printed, whose floats are words: the statements below do not depend on what a float is.)
  The program's three items as segments of one run on a core. The thread state between items is: every unscoped
  buffer of the core whole at the boundary's contents, the generator register at some state, nothing owed. The host
  stretch runs the four reshapes over it. Each launch takes its operands' arrays out of the unscoped buffers, hands the
  generator register and the scoped buffers to its invariant, runs its body at every grid point, and puts the arrays
  back at what its write-backs leave. The first launch's invariant is not the plain one after its first point (it
  names what the accumulator holds), so its two ends are joined to the plain invariant by the two entailments the
  first launch's body module proves.
-/
import proofs.«173681_j5471788335757_2_alg».proof.Proof.Word.Launch.Valuations
import proofs.«173681_j5471788335757_2_alg».proof.Proof.Word.Kv.Body
import proofs.«173681_j5471788335757_2_alg».proof.Proof.Word.Out.Body
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The records of the two launches and the thread state -/

/-- Neither launch has a prefetched table. -/
abbrev adm : (p : Fin 2) → (pcfgs (F := F) p).Adm := fun p => (cfgs p).toPCfg_adm
/-- Each launch's record at the contents its launch is entered at: a literal case split on the launch's number. -/
def pdats : (p : Fin 2) → (c : Dev nD) → Dat τ (Elt F) Unit ℕ (UR sig nD τ) ℕ (Pipeline.pin (pcfgs (F := F)) adm p) c
  | ⟨0, _⟩ => fun c => dat0 (Vin m ρ) c
  | ⟨1, _⟩ => fun c => dat1 (Vmid m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, none. -/
abbrev R (c : Dev nD) : sProp 𝕄 := iprop((∃ r, prngReg c r) ∗ ∃ W, owes (c : Thread nD τ) (0 : CellTallies nD τ sig Unit) W)

/-- No reshape allocates a buffer. -/
theorem hostOps0_fresh : (hostOps0 : List (HloOp τ sig (Elt F))).Forall fun op => op.fresh = ∅ := by
  simp only [List.Forall]; repeat' constructor

/-- The host stretch as a segment: the reshapes over the unscoped buffers from the launch contents. -/
abbrev hseg0 : Pipeline.HostSeg (Name := ℕ) (U := UR sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (W0 m ρ) R

/-- An unscoped reference of the core is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without the dues: every unscoped buffer at the last contents, the generator register. -/
abbrev Tₙ (c : Dev nD) : sProp 𝕄 := iprop(StableHlo.held (c : Thread nD τ) (Pipeline.ucRefs τ sig) (W3 m ρ c) ∗ ∃ r, prngReg c r)

/-! ## The launches as segments -/

set_option backward.isDefEq.respectTransparency.types false in
/-- The first launch over the thread state: entered from every unscoped buffer at `W1`, left at `W2`. Its
    operands' arrays are split out of the unscoped buffers and put back at the exit contents; the generator register goes
    into the launch's invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vin m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (Vin m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (Vin m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (?_ : _ ⊢ (Pipeline.ΦA spec0 c : sProp 𝕄)).trans (hin0 (Vin m ρ) c)
    unfold Pipeline.ΦA
    iintro ⟨Hp, -, Hr⟩
    isplitl [Hr]; · iexact Hr
    iexact Hp
  hout c := by
    rw [Pipeline.ownSems0_none]
    refine (hout0 (Vin m ρ) c).trans (?_ : (Pipeline.ΦA spec0 c : sProp 𝕄) ⊢ _)
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (Vin m ρ c) (Vmid m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second launch over the thread state: entered from every unscoped buffer at `W2`, left at `W3`. Its
    operands' arrays are split out of the unscoped buffers and put back at the exit contents; the generator register goes
    into the launch's invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vmid m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (Vmid m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (Vmid m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (Vmid m ρ c) (Vend m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as its segments -/

/-- The three segments in order. -/
abbrev segs : List (Pipeline.Seg (pcfgs (F := F)) adm (pdats m ρ) () defs₀ 𝒱₀ L lv) :=
  [ .host (hseg0 m ρ), .region (reg0 m ρ), .region (reg1 m ρ) ]

/-- The entry function is the run of the segments. -/
theorem main_run (c : Dev nD) : main (F := F) c = Pipeline.Seg.run (segs m ρ) := (main_chain c).trans (by chain_rfl)

end Cert.Kernel.Hand

end
-- ==== Proof.Word.Launch.ReadBack.lean ====
/-
  (The program as printed, whose floats are words: the statements below do not depend on what a float is.)
  The contents at the boundaries, read back. No item of the program writes an argument array: the reshapes write
  the four parameter arrays only, a launch changes only the arrays of its operands and leaves those it only reads as
  they were. So every argument holds its launch contents where each launch is entered and where the program returns.
  Where the first launch is entered each reshaped parameter array holds the reshape of its argument; where the second is
  entered the moment array holds what the first launch leaves in it; at the return the result array holds what the
  second launch leaves in it.
-/
import proofs.«173681_j5471788335757_2_alg».proof.Proof.Word.Launch.Valuations

set_option maxRecDepth 16384

noncomputable section

namespace Cert.Kernel.Hand

open Cert.Kernel Cert.Kernel.Gen
open Idealize.ShloMosaic Idealize.ShloMosaic.TcCoe Idealize.ShloMosaic.StableHlo
open Idealize.SL Idealize.SL.RA Idealize.SL.BI
open scoped Idealize.SL.BI
open Idealize.SL.BI.BIBase Idealize.SL.Sem
open Idealize.ShloMosaic.Pipeline (Dat Cfg Window BodyObligation)

variable {F : FTy → Type} [FloatOps F]

variable (m : (ℓ : Loc nD τ sig) → Buf (Elt F) ℓ) (ρ : Dev nD → PrngReg)

/-! ## Where the first launch is entered -/

theorem Vin_main_arg0 (c : Dev nD) : Vin m ρ c main_arg0 = m ((c : Thread nD τ).loc main_arg0) :=
  W1_of_not_written m ρ c main_arg0 (by decide)
theorem Vin_main_arg1 (c : Dev nD) : Vin m ρ c main_arg1 = m ((c : Thread nD τ).loc main_arg1) :=
  W1_of_not_written m ρ c main_arg1 (by decide)
theorem Vin_main_arg2 (c : Dev nD) : Vin m ρ c main_arg2 = m ((c : Thread nD τ).loc main_arg2) :=
  W1_of_not_written m ρ c main_arg2 (by decide)
theorem Vin_main_arg3 (c : Dev nD) : Vin m ρ c main_arg3 = m ((c : Thread nD τ).loc main_arg3) :=
  W1_of_not_written m ρ c main_arg3 (by decide)
theorem Vin_main_arg4 (c : Dev nD) : Vin m ρ c main_arg4 = m ((c : Thread nD τ).loc main_arg4) :=
  W1_of_not_written m ρ c main_arg4 (by decide)

/-- The reshaped parameter array holds the reshape of its argument. -/
theorem Vin_main_v0 (c : Dev nD) :
    (Vin m ρ c main_v0 : S1x256.Idx → Elt F .f32)
      = shapeCast S1x256 (m ((c : Thread nD τ).loc main_arg1) : S8x1x32.Idx → Elt F .f32) shapeCasts_S8x1x32_S1x256 := by
  show StableHlo.after hostOps0 (W0 m ρ c) (Proc.devRef .tc main_v0) = _
  after_results
  rfl
/-- The reshaped parameter array holds the reshape of its argument. -/
theorem Vin_main_v1 (c : Dev nD) :
    (Vin m ρ c main_v1 : S1x256.Idx → Elt F .f32)
      = shapeCast S1x256 (m ((c : Thread nD τ).loc main_arg2) : S8x1x32.Idx → Elt F .f32) shapeCasts_S8x1x32_S1x256 := by
  show StableHlo.after hostOps0 (W0 m ρ c) (Proc.devRef .tc main_v1) = _
  after_results
  rfl
/-- The reshaped parameter array holds the reshape of its argument. -/
theorem Vin_main_v2 (c : Dev nD) :
    (Vin m ρ c main_v2 : S1x256.Idx → Elt F .f32)
      = shapeCast S1x256 (m ((c : Thread nD τ).loc main_arg3) : S8x1x32.Idx → Elt F .f32) shapeCasts_S8x1x32_S1x256 := by
  show StableHlo.after hostOps0 (W0 m ρ c) (Proc.devRef .tc main_v2) = _
  after_results
  rfl
/-- The reshaped parameter array holds the reshape of its argument. -/
theorem Vin_main_v3 (c : Dev nD) :
    (Vin m ρ c main_v3 : S1x256.Idx → Elt F .f32)
      = shapeCast S1x256 (m ((c : Thread nD τ).loc main_arg4) : S8x1x32.Idx → Elt F .f32) shapeCasts_S8x1x32_S1x256 := by
  show StableHlo.after hostOps0 (W0 m ρ c) (Proc.devRef .tc main_v3) = _
  after_results
  rfl

/-! ## Where the second launch is entered -/

theorem Vmid_main_arg0 (c : Dev nD) : Vmid m ρ c main_arg0 = m ((c : Thread nD τ).loc main_arg0) :=
  ((W2_arr m ρ c 0).trans (((dat0 (Vin m ρ) c).arrAt_in 0 rfl _).trans (A_eq0 (Vin m ρ) c 0))).trans (Vin_main_arg0 m ρ c)
theorem Vmid_main_arg1 (c : Dev nD) : Vmid m ρ c main_arg1 = m ((c : Thread nD τ).loc main_arg1) :=
  (W2_of_ne m ρ c main_arg1 (by decide)).trans (Vin_main_arg1 m ρ c)
theorem Vmid_main_arg2 (c : Dev nD) : Vmid m ρ c main_arg2 = m ((c : Thread nD τ).loc main_arg2) :=
  (W2_of_ne m ρ c main_arg2 (by decide)).trans (Vin_main_arg2 m ρ c)
theorem Vmid_main_arg3 (c : Dev nD) : Vmid m ρ c main_arg3 = m ((c : Thread nD τ).loc main_arg3) :=
  (W2_of_ne m ρ c main_arg3 (by decide)).trans (Vin_main_arg3 m ρ c)
theorem Vmid_main_arg4 (c : Dev nD) : Vmid m ρ c main_arg4 = m ((c : Thread nD τ).loc main_arg4) :=
  (W2_of_ne m ρ c main_arg4 (by decide)).trans (Vin_main_arg4 m ρ c)

/-- The moment array holds what the first launch leaves in it. -/
theorem Vmid_main_v4 (c : Dev nD) : Vmid m ρ c main_v4 = (dat0 (Vin m ρ) c).arrAt 5 cfg0.N :=
  W2_arr m ρ c 5

/-! ## Where the program returns -/

theorem Vend_main_arg0 (c : Dev nD) : Vend m ρ c main_arg0 = m ((c : Thread nD τ).loc main_arg0) :=
  ((W3_arr m ρ c 0).trans (((dat1 (Vmid m ρ) c).arrAt_in 0 rfl _).trans (A_eq1 (Vmid m ρ) c 0))).trans (Vmid_main_arg0 m ρ c)
theorem Vend_main_arg1 (c : Dev nD) : Vend m ρ c main_arg1 = m ((c : Thread nD τ).loc main_arg1) :=
  (W3_of_ne m ρ c main_arg1 (by decide)).trans (Vmid_main_arg1 m ρ c)
theorem Vend_main_arg2 (c : Dev nD) : Vend m ρ c main_arg2 = m ((c : Thread nD τ).loc main_arg2) :=
  (W3_of_ne m ρ c main_arg2 (by decide)).trans (Vmid_main_arg2 m ρ c)
theorem Vend_main_arg3 (c : Dev nD) : Vend m ρ c main_arg3 = m ((c : Thread nD τ).loc main_arg3) :=
  (W3_of_ne m ρ c main_arg3 (by decide)).trans (Vmid_main_arg3 m ρ c)
theorem Vend_main_arg4 (c : Dev nD) : Vend m ρ c main_arg4 = m ((c : Thread nD τ).loc main_arg4) :=
  (W3_of_ne m ρ c main_arg4 (by decide)).trans (Vmid_main_arg4 m ρ c)

/-- The result array holds what the second launch leaves in it. -/
theorem Vend_main_v5 (c : Dev nD) : Vend m ρ c main_v5 = (dat1 (Vmid m ρ) c).arrAt 2 cfg1.N :=
  W3_arr m ρ c 2

end Cert.Kernel.Hand

end
-- ==== Proof.Word.Launch.Run.lean ====
/-
  (The program as printed, whose floats are words: the statements below do not depend on what a float is.)
  The program's run. From any memory with zero counters every weakly fair execution of the entry function
  terminates without a fault, and in the final memory every unscoped buffer of every core holds the contents at the
  last boundary. Read at the argument arrays this is the frame: each argument ends as launched. Read also at the result
  array it is the value run: the result array ends holding what the second launch's write-backs leave in it.
-/
import proofs.«173681_j5471788335757_2_alg».proof.Proof.Word.Launch.Segments
import proofs.«173681_j5471788335757_2_alg».proof.Proof.Word.Launch.ReadBack

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, and in the final memory every unscoped buffer of every core holds the
    contents at the last boundary. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h => h)

/-- THE FRAME: every weakly fair execution terminates without a fault and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans (Vend_main_arg0 m ρ c),
      (h c _ (mem_uc main_arg1 (by decide))).trans (Vend_main_arg1 m ρ c),
      (h c _ (mem_uc main_arg2 (by decide))).trans (Vend_main_arg2 m ρ c),
      (h c _ (mem_uc main_arg3 (by decide))).trans (Vend_main_arg3 m ρ c),
      (h c _ (mem_uc main_arg4 (by decide))).trans (Vend_main_arg4 m ρ c)⟩) (run_all m ρ)

/-- THE VALUE RUN: moreover the result array ends holding what the second launch's write-backs leave in it. -/
theorem run_value : θ_run defs (onTc (τ := τ) (main (F := F))) ⟨m, fun _ => 0, ρ⟩ (fun r => ∀ c : Dev nD,
      r.2.mem ((c.tc : Thread nD τ).loc main_v5) = (dat1 (Vmid m ρ) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_v5 (by decide))).trans (Vend_main_v5 m ρ c),
      (h c _ (mem_uc main_arg0 (by decide))).trans (Vend_main_arg0 m ρ c),
      (h c _ (mem_uc main_arg1 (by decide))).trans (Vend_main_arg1 m ρ c),
      (h c _ (mem_uc main_arg2 (by decide))).trans (Vend_main_arg2 m ρ c),
      (h c _ (mem_uc main_arg3 (by decide))).trans (Vend_main_arg3 m ρ c),
      (h c _ (mem_uc main_arg4 (by decide))).trans (Vend_main_arg4 m ρ c)⟩) (run_all m ρ)

end Cert.Kernel.Hand

end
-- ==== Proof.Out.Layout.lean ====
/-
  Two layout facts read at an index, for any element type; no program is mentioned.

  A `[1, 1, a, b]` array viewed as the `[a, b]` matrix it holds reads, at `(i, j)`, the array at `(0, 0, i, j)`.
  A concatenation along the columns of pieces that are all `[r, w]` matrices reads, at row `p` and column
  `w * k + e` with `e < w`, piece `k` at `(p, e)`.
-/
import Idealize.ShloMosaic.Lib.ValueIdx
import Idealize.ShloMosaic.Lib.Pipeline.Value

noncomputable section

namespace Cert.KernelIdeal.Hand.Layout

open Idealize.ShloMosaic Idealize.ShloMosaic.ValueIdx

variable {α : Type}

/-- Both indices have row-major position `i * b + j`. -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add, Nat.mul_one, Nat.add_zero])

/-- Piece `k` of a concatenation along the columns, when the pieces before it span `pre` columns: the row is kept and
    the column is counted from the piece's first. -/
theorem concat_cols_piece {r w n : ℕ} (xs : List ((s : Shape) × (s.Idx → α)))
    (hc : Shape.Concatenates (xs.map (·.1)) ⟨2, ![r, n]⟩ (1 : Fin 2)) (k : ℕ) (hk : k < xs.length)
    (x : (⟨2, ![r, w]⟩ : Shape).Idx → α) (hx : xs[k] = ⟨⟨2, ![r, w]⟩, x⟩) (pre : ℕ)
    (hpre : (((xs.take k).map (·.1)).map fun s => if h : s.rank = 2 then s.size ((1 : Fin 2).cast h.symm) else 0).sum = pre)
    (p : Fin r) (e : Fin w) (q : Fin n) (hq : q.val = pre + e.val) :
    concatenate ⟨2, ![r, n]⟩ (1 : Fin 2) xs hc (ix2 p q) = x (ix2 p e) :=
  concatenate_apply_piece (1 : Fin 2) xs hc (ix2 p q) k hk ⟨2, ![r, w]⟩ x hx rfl pre hpre (ix2 p e)
    (fun b hb => by
      match b with
      | ⟨0, _⟩ => rfl
      | ⟨1, _⟩ => exact absurd rfl hb)
    (by show pre + e.val = q.val; omega)

end Cert.KernelIdeal.Hand.Layout

end
-- ==== Proof.Out.LibPlainMatmul.lean ====
/-
  A plain matrix product read at an entry.

  For a product of an [M, K] matrix with a [K, N] matrix (no batch axis; the left operand contracts its
  second axis, the right operand its first), taken into the zero accumulator and read at the exact extended
  reals, entry (p, q) is the sum over k of A (p, k) * B (k, q): the accumulator contributes nothing, and the
  contraction's one-axis index is the coordinate k. The statement is generic in the three extents and in the
  dimension-number record: any record with these six lists has these operand indices.
-/
import Idealize.ShloMosaic.PureOps.Ideal.Laws
import Idealize.ShloMosaic.Lib.ValueIdx

noncomputable section

namespace Cert.SE.Lib

open Idealize.ShloMosaic Idealize.ShloMosaic.ValueIdx

variable {M K N : Nat}

/-- A coordinate of an index read at a position that is a given number is the coordinate at that number. -/
private theorem coord_val_eq {n : Nat} {d : Fin n → Nat} (j : (⟨n, d⟩ : Shape).Idx) (a b : Nat) (ha : a < n) (hb : b < n)
    (h : a = b) : (j ⟨a, ha⟩).val = (j ⟨b, hb⟩).val := by subst h; rfl

/-- The contraction of such a record has one axis, -/
theorem contr_rank_plain (d : DotDims ⟨2, ![M, K]⟩ ⟨2, ![K, N]⟩ ⟨2, ![M, N]⟩) (hlc : d.lhsContracting = [1]) :
    d.contr.rank = 1 := by rw [d.rank_contr, hlc]; rfl

/-- of extent K. -/
theorem contr_size_plain (d : DotDims ⟨2, ![M, K]⟩ ⟨2, ![K, N]⟩ ⟨2, ![M, N]⟩) (hlc : d.lhsContracting = [1])
    (h0 : 0 < d.contr.rank) : d.contr.size ⟨0, h0⟩ = K := by
  have h := d.size_contr 0 (by rw [hlc]; exact Nat.one_pos)
  rw [h]
  simp [hlc]

/-- The left operand's index at result entry (p, q) and contraction coordinate k is (p, k). -/
theorem lhsIdx_plain (d : DotDims ⟨2, ![M, K]⟩ ⟨2, ![K, N]⟩ ⟨2, ![M, N]⟩)
    (hlb : d.lhsBatch = []) (hln : d.lhsNonContracting = [0]) (hlc : d.lhsContracting = [1])
    (hr : d.contr.rank = 1) (hs : d.contr.size ⟨0, by omega⟩ = K) (p : Fin M) (q : Fin N) (k : Fin K) :
    d.lhsIdx (ix2 p q) ((contrEquiv1 d K hr hs).symm k) = ix2 p k := by
  funext a
  apply Fin.ext
  match a with
  | ⟨0, h0⟩ =>
    have hb : (⟨0, h0⟩ : Fin 2) ∉ d.lhsBatch := by rw [hlb]; exact List.not_mem_nil
    have hn : (⟨0, h0⟩ : Fin 2) ∈ d.lhsNonContracting := by rw [hln]; exact List.mem_singleton.mpr rfl
    unfold DotDims.lhsIdx
    rw [dif_neg hb, dif_pos hn]
    simp only [Fin.val_cast]
    exact coord_val_eq (ix2 p q) _ 0 _ (by decide) (by simp [hlb, hln])
  | ⟨1, h1⟩ =>
    exact (d.lhsIdx_val_of_single hlc (ix2 p q) _).trans (contrEquiv1_symm_val d K hr hs k)

/-- The right operand's index there is (k, q). -/
theorem rhsIdx_plain (d : DotDims ⟨2, ![M, K]⟩ ⟨2, ![K, N]⟩ ⟨2, ![M, N]⟩)
    (hlb : d.lhsBatch = []) (hln : d.lhsNonContracting = [0])
    (hrb : d.rhsBatch = []) (hrn : d.rhsNonContracting = [1]) (hrc : d.rhsContracting = [0])
    (hr : d.contr.rank = 1) (hs : d.contr.size ⟨0, by omega⟩ = K) (p : Fin M) (q : Fin N) (k : Fin K) :
    d.rhsIdx (ix2 p q) ((contrEquiv1 d K hr hs).symm k) = ix2 k q := by
  funext a
  apply Fin.ext
  match a with
  | ⟨0, h0⟩ =>
    exact (d.rhsIdx_val_of_single hrc (ix2 p q) _).trans (contrEquiv1_symm_val d K hr hs k)
  | ⟨1, h1⟩ =>
    have hb : (⟨1, h1⟩ : Fin 2) ∉ d.rhsBatch := by rw [hrb]; exact List.not_mem_nil
    have hn : (⟨1, h1⟩ : Fin 2) ∈ d.rhsNonContracting := by rw [hrn]; exact List.mem_singleton.mpr rfl
    unfold DotDims.rhsIdx
    rw [dif_neg hb, dif_pos hn]
    simp only [Fin.val_cast]
    exact coord_val_eq (ix2 p q) _ 1 _ (by decide) (by simp [hlb, hln, hrn])

/-- Entry (p, q) of the product into the zero accumulator is the sum over k of A (p, k) * B (k, q). -/
theorem matmul_plain_apply {φ₁ φ₂ : FTy} (d : DotDims ⟨2, ![M, K]⟩ ⟨2, ![K, N]⟩ ⟨2, ![M, N]⟩)
    (hlb : d.lhsBatch = []) (hln : d.lhsNonContracting = [0]) (hlc : d.lhsContracting = [1])
    (hrb : d.rhsBatch = []) (hrn : d.rhsNonContracting = [1]) (hrc : d.rhsContracting = [0])
    (prec : Option ContractPrecision) (A : FVec Ideal ⟨2, ![M, K]⟩ φ₁) (B : FVec Ideal ⟨2, ![K, N]⟩ φ₂)
    (p : Fin M) (q : Fin N) :
    matmul d prec A B (constant (F := Ideal) ⟨2, ![M, N]⟩ .f32 0x00000000#32) (ix2 p q)
      = ∑ k : Fin K, A (ix2 p k) * B (ix2 k q) := by
  have hr : d.contr.rank = 1 := contr_rank_plain d hlc
  have hs : d.contr.size ⟨0, by omega⟩ = K := contr_size_plain d hlc _
  refine (Ideal.matmul_constant_zero_apply d prec A B (ix2 p q)).trans ?_
  rw [← Equiv.sum_comp (contrEquiv1 d K hr hs).symm]
  refine Finset.sum_congr rfl fun k _ => ?_
  rw [lhsIdx_plain d hlb hln hlc hr hs p q k, rhsIdx_plain d hlb hln hrb hrn hrc hr hs p q k]

end Cert.SE.Lib

end
-- ==== Proof.Spec.lean ====
/-
  Linear attention over per-head normalised features, written on the extended reals as plain functions of
  coordinates; no program is mentioned here.

  The input is `X b n c` (4 batches, 32768 tokens, 256 channels = 8 heads of 32 channels: channel `chan h d`
  is column `d` of head `h`). For one token and one head the 32 entries form a row `r`. The row is centred by
  its mean (the sum divided by 32), scaled by its sample standard deviation (the square root of the sum of squared
  deviations divided by 31) plus a small constant, then multiplied and shifted entrywise by a weight and a bias:
  `feature r w b d`. Two such feature maps (keys and values) are multiplied and summed over all tokens
  (`moment`), divided by the number of tokens (`kv`), and the result, a 32 × 32 matrix per batch and head, is
  applied to the raw row and added back to it (`mix`).

  Both programs compute `mix X (kv …)`: one in two passes over blocks of 4096 tokens, the other with whole-array
  operations.
-/
import Idealize.ShloMosaic.PureOps.Ideal
import Idealize.ShloMosaic.Lib.ValueIdx

noncomputable section

namespace Cert.LinAttn

open Idealize.ShloMosaic

/-- The numbers 32, 31, the small constant added to the deviation, and the token count 32768, each as the extended
    real its single-precision pattern denotes. -/
def c32 : EReal := Ideal.ofBits .f32 0x42000000#32
def c31 : EReal := Ideal.ofBits .f32 0x41F80000#32
def cEps : EReal := Ideal.ofBits .f32 0x3727C5AC#32
def cTokens : EReal := Ideal.ofBits .f32 0x47000000#32

/-- Column `d` of head `h` among the 256 channels. -/
def chan (h : Fin 8) (d : Fin 32) : Fin 256 := ⟨h.val * 32 + d.val, by omega⟩

theorem chan_val (h : Fin 8) (d : Fin 32) : (chan h d).val = h.val * 32 + d.val := rfl

/-- Every channel is a column of a head. -/
theorem chan_surj (c : Fin 256) : ∃ (h : Fin 8) (d : Fin 32), c = chan h d :=
  ⟨⟨c.val / 32, by omega⟩, ⟨c.val % 32, by omega⟩, Fin.ext (by simp only [chan_val]; omega)⟩

section Row

variable (r : Fin 32 → EReal)

/-- The mean of a row of 32 entries. -/
def mean : EReal := Ideal.div (∑ k, r k) c32

/-- An entry's deviation from the row's mean. -/
def dev (d : Fin 32) : EReal := r d - mean r

/-- The row's sample standard deviation: 31 in the denominator. -/
def spread : EReal := Ideal.sqrt (Ideal.div (∑ k, dev r k * dev r k) c31)

/-- The normalised entry. -/
def normed (d : Fin 32) : EReal := Ideal.div (dev r d) (spread r + cEps)

/-- The normalised entry scaled and shifted by a weight and a bias. -/
def feature (w b : Fin 32 → EReal) (d : Fin 32) : EReal := normed r d * w d + b d

end Row

section Arrays

variable (X : Fin 4 → Fin 32768 → Fin 256 → EReal) (KW KB VW VB : Fin 8 → Fin 32 → EReal)

/-- The row of head `h` at token `n` of batch `b`. -/
def row (b : Fin 4) (h : Fin 8) (n : Fin 32768) : Fin 32 → EReal := fun d => X b n (chan h d)

/-- One token's contribution to the key–value moment of a batch and a head. -/
def term (b : Fin 4) (h : Fin 8) (d e : Fin 32) (n : Fin 32768) : EReal :=
  feature (row X b h n) (KW h) (KB h) d * feature (row X b h n) (VW h) (VB h) e

/-- The key–value moment: the sum over all tokens. -/
def moment (b : Fin 4) (h : Fin 8) (d e : Fin 32) : EReal := ∑ n : Fin 32768, term X KW KB VW VB b h d e n

/-- The moment divided by the number of tokens. -/
def kv (b : Fin 4) (h : Fin 8) (d e : Fin 32) : EReal := Ideal.div (moment X KW KB VW VB b h d e) cTokens

/-- A 32 × 32 matrix per batch and head applied to the raw row and added back to it. -/
def mix (KV : Fin 4 → Fin 8 → Fin 32 → Fin 32 → EReal) (b : Fin 4) (n : Fin 32768) (h : Fin 8) (e : Fin 32) : EReal :=
  X b n (chan h e) + ∑ d : Fin 32, X b n (chan h d) * KV b h d e

end Arrays

end Cert.LinAttn

end
-- ==== Proof.Out.Payload.lean ====
/-
  The value the body of the second launch stores, read at an entry, on the extended reals.

  The body views the input block `x0` (one batch, 4096 tokens, 256 channels) as a 4096 × 256 matrix `y`. For head `h` it
  takes the 32 columns `32 h … 32 h + 31` of `y`, multiplies them by the head's 32 × 32 matrix (a product into the zero
  accumulator; the change of float format before it is the identity on the extended reals) and adds the columns
  themselves; the eight results are laid side by side. So the entry at token `p` and channel `32 h + e` is
  `x0 (p, 32 h + e) + ∑ d, x0 (p, 32 h + d) * x1 (h, d, e)`, where `x1` is the block of the eight matrices.
-/
import proofs.«173681_j5471788335757_2_alg».proof.Proof.Out.Data
import proofs.«173681_j5471788335757_2_alg».proof.Proof.Out.Layout
import proofs.«173681_j5471788335757_2_alg».proof.Proof.Out.LibPlainMatmul
import proofs.«173681_j5471788335757_2_alg».proof.Proof.Spec
import Idealize.ShloMosaic.Lib.ValueLayout
import Idealize.ShloMosaic.Lib.Pipeline.Value

noncomputable section

namespace Cert.KernelIdeal.Hand

open Cert.KernelIdeal Cert.KernelIdeal.Gen
open Idealize.ShloMosaic Idealize.ShloMosaic.ValueIdx
open Cert.LinAttn (chan chan_val)

/-- One head's result from the matrix `y` of the block and the head's matrix `M`: the columns from `o` on, plus their
    product with `M`. -/
def headOut (o : ℕ) (hs : S4096x256.Slices ![0, o] S4096x32) (y : FVec Ideal S4096x256 .f32) (M : Vec Ideal S1x1x32x32 .f32) :
    FVec Ideal S4096x32 .f32 :=
  addf (extractStridedSlice S4096x32 ![0, o] y hs)
    (matmul dot_S4096x32_S32x32_S4096x32_1_0_0_1_n_n none
      (truncf .bf16 (extractStridedSlice S4096x32 ![0, o] y hs) bitsLt_bf16_f32)
      (truncf .bf16 (shapeCast S32x32 M shapeCasts_S1x1x32x32_S32x32) bitsLt_bf16_f32)
      (constant S4096x32 .f32 0x00000000#32))

/-- Its entry `(p, e)`, the columns named by `col d` with `col d = o + d`. -/
theorem headOut_apply (o : ℕ) (hs : S4096x256.Slices ![0, o] S4096x32) (y : FVec Ideal S4096x256 .f32) (M : Vec Ideal S1x1x32x32 .f32)
    (p : Fin 4096) (e : Fin 32) (col : Fin 32 → Fin 256) (hcol : ∀ d, (col d).val = o + d.val) :
    headOut o hs y M (ix2 p e) = y (ix2 p (col e)) + ∑ d : Fin 32, y (ix2 p (col d)) * M (ix4 (0 : Fin 1) (0 : Fin 1) d e) := by
  unfold headOut
  rw [addf_apply]
  refine congrArg₂ (· + ·) (slice2_axis1_apply o y hs p e (col e) (hcol e)) ?_
  refine (Cert.SE.Lib.matmul_plain_apply (M := 4096) (K := 32) (N := 32) dot_S4096x32_S32x32_S4096x32_1_0_0_1_n_n
    rfl rfl rfl rfl rfl rfl none _ _ p e).trans ?_
  refine Finset.sum_congr rfl fun d _ => ?_
  rw [truncf_apply, truncf_apply, slice2_axis1_apply o y hs p d (col d) (hcol d), Layout.shapeCast_11ab_ab_apply]

theorem zeroOff3 : (![0, 0, 0] : Fin 3 → Nat) = fun _ => 0 := funext fun a => by fin_cases a <;> rfl

/-- The block viewed as a matrix, read at an entry. -/
theorem tokMatrix_apply (x0 : Vec Ideal S1x4096x256 .f32) (p : Fin 4096) (q : Fin 256) :
    k1_pay2 (View.ld x0 rTok) (ix2 p q) = x0 (ix3 (0 : Fin 1) p q) := by
  rw [View.ld_unit_zero (S := S1x4096x256) zeroOff3]
  exact shapeCast_1ab_ab_apply x0 shapeCasts_S1x4096x256_S4096x256 p q

/-- A load of head `k`'s matrix out of the block of matrices, read at an entry. -/
theorem ld_head (k : ℕ) (hk : k < 8) (inb : ∀ a, (![0, k, 0, 0] : Fin 4 → Nat) a + S1x1x32x32.size a ≤ S1x8x32x32.size a)
    (x1 : Vec Ideal S1x8x32x32 .f32) (u u' : Fin 1) (d e : Fin 32) :
    View.ld x1 (Rect.unit (s := S1x8x32x32) ![0, k, 0, 0] S1x1x32x32.size inb) (ix4 u u' d e)
      = x1 (ix4 (0 : Fin 1) (⟨k, hk⟩ : Fin 8) d e) := by
  show x1 _ = x1 _
  refine congrArg x1 (funext fun a => Fin.ext ?_)
  match a with
  | ⟨0, _⟩ => show 0 + 1 * u.val = 0; omega
  | ⟨1, _⟩ => show k + 1 * u'.val = k; omega
  | ⟨2, _⟩ => show 0 + 1 * d.val = d.val; omega
  | ⟨3, _⟩ => show 0 + 1 * e.val = e.val; omega

/-- The eight heads' results, in order. -/
abbrev headResults (x0 : Vec Ideal S1x4096x256 .f32) (x1 : Vec Ideal S1x8x32x32 .f32) : List ((s : Shape) × (s.Idx → Ideal .f32)) :=
  [⟨S4096x32, headOut 0 slices_S4096x256_o0_0_S4096x32 (k1_pay2 (View.ld x0 rTok)) (View.ld x1 rHead0)⟩,
   ⟨S4096x32, headOut 32 slices_S4096x256_o0_32_S4096x32 (k1_pay2 (View.ld x0 rTok)) (View.ld x1 rHead1)⟩,
   ⟨S4096x32, headOut 64 slices_S4096x256_o0_64_S4096x32 (k1_pay2 (View.ld x0 rTok)) (View.ld x1 rHead2)⟩,
   ⟨S4096x32, headOut 96 slices_S4096x256_o0_96_S4096x32 (k1_pay2 (View.ld x0 rTok)) (View.ld x1 rHead3)⟩,
   ⟨S4096x32, headOut 128 slices_S4096x256_o0_128_S4096x32 (k1_pay2 (View.ld x0 rTok)) (View.ld x1 rHead4)⟩,
   ⟨S4096x32, headOut 160 slices_S4096x256_o0_160_S4096x32 (k1_pay2 (View.ld x0 rTok)) (View.ld x1 rHead5)⟩,
   ⟨S4096x32, headOut 192 slices_S4096x256_o0_192_S4096x32 (k1_pay2 (View.ld x0 rTok)) (View.ld x1 rHead6)⟩,
   ⟨S4096x32, headOut 224 slices_S4096x256_o0_224_S4096x32 (k1_pay2 (View.ld x0 rTok)) (View.ld x1 rHead7)⟩]

/-- The stored value is the eight heads' results side by side, with a unit axis in front. -/
theorem outVal_eq (x0 : Vec Ideal S1x4096x256 .f32) (x1 : Vec Ideal S1x8x32x32 .f32) :
    outVal x0 x1 = shapeCast S1x4096x256 (concatenate S4096x256 1 (headResults x0 x1)
      concatenates_S4096x32_S4096x32_S4096x32_S4096x32_S4096x32_S4096x32_S4096x32_S4096x32_S4096x256_d1) shapeCasts_S4096x256_S1x4096x256 := rfl

/-- One head's columns of the side-by-side matrix: piece `k` is the head's result, read at an entry. -/
theorem head_entry (x0 : Vec Ideal S1x4096x256 .f32) (x1 : Vec Ideal S1x8x32x32 .f32) (k : ℕ) (hk : k < 8)
    (hs : S4096x256.Slices ![0, 32 * k] S4096x32)
    (inb : ∀ a, (![0, k, 0, 0] : Fin 4 → Nat) a + S1x1x32x32.size a ≤ S1x8x32x32.size a)
    (hlen : k < (headResults x0 x1).length)
    (hx : (headResults x0 x1)[k] = ⟨S4096x32, headOut (32 * k) hs (k1_pay2 (View.ld x0 rTok))
      (View.ld x1 (Rect.unit (s := S1x8x32x32) ![0, k, 0, 0] S1x1x32x32.size inb))⟩)
    (hpre : ((((headResults x0 x1).take k).map (·.1)).map fun s => if h : s.rank = 2 then s.size ((1 : Fin 2).cast h.symm) else 0).sum = 32 * k)
    (p : Fin 4096) (e : Fin 32) :
    concatenate S4096x256 1 (headResults x0 x1)
        concatenates_S4096x32_S4096x32_S4096x32_S4096x32_S4096x32_S4096x32_S4096x32_S4096x32_S4096x256_d1 (ix2 p (chan ⟨k, hk⟩ e))
      = x0 (ix3 (0 : Fin 1) p (chan ⟨k, hk⟩ e)) + ∑ d : Fin 32, x0 (ix3 (0 : Fin 1) p (chan ⟨k, hk⟩ d)) * x1 (ix4 (0 : Fin 1) (⟨k, hk⟩ : Fin 8) d e) := by
  refine (Layout.concat_cols_piece (headResults x0 x1) _ k hlen _ hx (32 * k) hpre p e (chan ⟨k, hk⟩ e) (by rw [chan_val]; show k * 32 + e.val = 32 * k + e.val; omega)).trans ?_
  refine (headOut_apply (32 * k) hs _ _ p e (chan ⟨k, hk⟩) (fun d => by rw [chan_val]; show k * 32 + d.val = 32 * k + d.val; omega)).trans ?_
  rw [tokMatrix_apply]
  refine congrArg₂ (· + ·) rfl (Finset.sum_congr rfl fun d _ => ?_)
  rw [tokMatrix_apply, ld_head k hk inb]

/-- The stored value at token `p` and column `e` of head `h`. -/
theorem outVal_apply (x0 : Vec Ideal S1x4096x256 .f32) (x1 : Vec Ideal S1x8x32x32 .f32) (u : Fin 1) (p : Fin 4096) (h : Fin 8) (e : Fin 32) :
    outVal x0 x1 (ix3 u p (chan h e))
      = x0 (ix3 (0 : Fin 1) p (chan h e)) + ∑ d : Fin 32, x0 (ix3 (0 : Fin 1) p (chan h d)) * x1 (ix4 (0 : Fin 1) h d e) := by
  rw [outVal_eq]
  refine (shapeCast_ab_1ab_apply _ shapeCasts_S4096x256_S1x4096x256 u p (chan h e)).trans ?_
  match h with
  | ⟨0, _⟩ => exact head_entry x0 x1 0 (by omega) _ _ (by show _ < 8; omega) rfl rfl p e
  | ⟨1, _⟩ => exact head_entry x0 x1 1 (by omega) _ _ (by show _ < 8; omega) rfl rfl p e
  | ⟨2, _⟩ => exact head_entry x0 x1 2 (by omega) _ _ (by show _ < 8; omega) rfl rfl p e
  | ⟨3, _⟩ => exact head_entry x0 x1 3 (by omega) _ _ (by show _ < 8; omega) rfl rfl p e
  | ⟨4, _⟩ => exact head_entry x0 x1 4 (by omega) _ _ (by show _ < 8; omega) rfl rfl p e
  | ⟨5, _⟩ => exact head_entry x0 x1 5 (by omega) _ _ (by show _ < 8; omega) rfl rfl p e
  | ⟨6, _⟩ => exact head_entry x0 x1 6 (by omega) _ _ (by show _ < 8; omega) rfl rfl p e
  | ⟨7, _⟩ => exact head_entry x0 x1 7 (by omega) _ _ (by show _ < 8; omega) rfl rfl p e

end Cert.KernelIdeal.Hand

end
-- ==== Proof.Out.Blocks.lean ====
/-
  Where the blocks of the second launch sit in their arrays. Grid point `t` (of 32) works on batch `t / 8` and on the
  tokens `4096 (t % 8) … 4096 (t % 8) + 4095`: the input block and the output block at `t` are those tokens of that batch,
  all 256 channels, and the block of matrices is the batch's eight 32 × 32 matrices. Read at an entry, a block is the
  array at the entry moved by the block's offset. Every entry of the output array lies in the block of exactly the point
  `8 b + n / 4096`, and every point writes its block back, so the blocks cover the array.
-/
import proofs.«173681_j5471788335757_2_alg».proof.Proof.Out.Data
import Idealize.ShloMosaic.Lib.ValueIdx
import Idealize.ShloMosaic.Lib.Pipeline.Value

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

variable {F : FTy → Type} [FloatOps F]

variable (V : (c : Dev nD) → (b : Ref sig .tc) → Buf (Elt F) ((c : Thread nD τ).loc b))

/-- The block indices of the three operands at every grid point, decided over the grid. -/
theorem blockIdx : ∀ t : Fin cfg1.N,
    win1_0.index t (0 : Fin 3) = t.val / 8 ∧ win1_0.index t (1 : Fin 3) = t.val % 8 ∧ win1_0.index t (2 : Fin 3) = 0
    ∧ win1_1.index t (0 : Fin 4) = t.val / 8 ∧ win1_1.index t (1 : Fin 4) = 0 ∧ win1_1.index t (2 : Fin 4) = 0 ∧ win1_1.index t (3 : Fin 4) = 0
    ∧ win1_2.index t (0 : Fin 3) = t.val / 8 ∧ win1_2.index t (1 : Fin 3) = t.val % 8 ∧ win1_2.index t (2 : Fin 3) = 0 :=
  (by decide +kernel : ∀ t : Fin grid1.N, _)

/-- The input block at point `t`, read at an entry. -/
theorem iblk1_0_apply (c : Dev nD) (t : Fin cfg1.N) (u : Fin 1) (p : Fin 4096) (q : Fin 256) (b : Fin 4) (n : Fin 32768)
    (hb : b.val = t.val / 8) (hn : n.val = 4096 * (t.val % 8) + p.val) :
    (iblk1 V c 0 t : Vec F S1x4096x256 .f32) (ix3 u p q) = (V c main_arg0 : S4x32768x256.Idx → Elt F .f32) (ix3 b n q) := by
  obtain ⟨e0, e1, e2, -⟩ := blockIdx t
  unfold iblk1
  rw [View.read_apply]
  show (V c main_arg0 : S4x32768x256.Idx → Elt F .f32) _ = _
  refine congrArg _ (funext fun a => Fin.ext ?_)
  match a with
  | ⟨0, _⟩ => show win1_0.index t (0 : Fin 3) * 1 + 1 * u.val = b.val; omega
  | ⟨1, _⟩ => show win1_0.index t (1 : Fin 3) * 4096 + 1 * p.val = n.val; omega
  | ⟨2, _⟩ => show win1_0.index t (2 : Fin 3) * 256 + 1 * q.val = q.val; omega

/-- The block of matrices at point `t`, read at an entry. -/
theorem iblk1_1_apply (c : Dev nD) (t : Fin cfg1.N) (u : Fin 1) (h : Fin 8) (d e : Fin 32) (b : Fin 4) (hb : b.val = t.val / 8) :
    (iblk1 V c 1 t : Vec F S1x8x32x32 .f32) (ix4 u h d e) = (V c main_v4 : S4x8x32x32.Idx → Elt F .f32) (ix4 b h d e) := by
  obtain ⟨-, -, -, e0, e1, e2, e3, -⟩ := blockIdx t
  unfold iblk1
  rw [View.read_apply]
  show (V c main_v4 : S4x8x32x32.Idx → Elt F .f32) _ = _
  refine congrArg _ (funext fun a => Fin.ext ?_)
  match a with
  | ⟨0, _⟩ => show win1_1.index t (0 : Fin 4) * 1 + 1 * u.val = b.val; omega
  | ⟨1, _⟩ => show win1_1.index t (1 : Fin 4) * 8 + 1 * h.val = h.val; omega
  | ⟨2, _⟩ => show win1_1.index t (2 : Fin 4) * 32 + 1 * d.val = d.val; omega
  | ⟨3, _⟩ => show win1_1.index t (3 : Fin 4) * 32 + 1 * e.val = e.val; omega

/-- Block `t` of any contents of the output array, read at an entry. -/
theorem oblk1_apply (c : Dev nD) (t : Fin cfg1.N) (A : Buf (Elt F) ((c : Thread nD τ).loc main_v5)) (u : Fin 1) (p : Fin 4096) (q : Fin 256)
    (b : Fin 4) (n : Fin 32768) (hb : b.val = t.val / 8) (hn : n.val = 4096 * (t.val % 8) + p.val) :
    (((cfg1.win 2).blk t).view.read (Elt F) A : Vec F S1x4096x256 .f32) (ix3 u p q) = (A : S4x32768x256.Idx → Elt F .f32) (ix3 b n q) := by
  obtain ⟨-, -, -, -, -, -, -, e0, e1, e2⟩ := blockIdx t
  rw [View.read_apply]
  show (A : S4x32768x256.Idx → Elt F .f32) _ = _
  refine congrArg _ (funext fun a => Fin.ext ?_)
  match a with
  | ⟨0, _⟩ => show win1_2.index t (0 : Fin 3) * 1 + 1 * u.val = b.val; omega
  | ⟨1, _⟩ => show win1_2.index t (1 : Fin 3) * 4096 + 1 * p.val = n.val; omega
  | ⟨2, _⟩ => show win1_2.index t (2 : Fin 3) * 256 + 1 * q.val = q.val; omega

/-- An entry of the output array is in point `t`'s block iff each coordinate is in the block's range on its axis. -/
theorem mem_oblk1 (t : Fin cfg1.N) (i : S4x32768x256.Idx) :
    i ∈ ((cfg1.win 2).blk t).view.set ↔ ∀ a : Fin 3, win1_2.index t a * S1x4096x256.size a ≤ (i a).val ∧ (i a).val < win1_2.index t a * S1x4096x256.size a + S1x4096x256.size a := by
  show i ∈ ((View.whole main_v5).slice (win1_2.rect t)).set ↔ _
  rw [View.set_slice_whole, Rect.mem_set_unit]
  exact Iff.rfl

/-- Every entry of the output array is in the block some point writes back. -/
theorem cover_out1 (i : S4x32768x256.Idx) : ∃ t : Fin cfg1.N, (cfg1.win 2).flush t = true ∧ i ∈ ((cfg1.win 2).blk t).view.set := by
  have h0 : (i 0).val < 4 := (i 0).isLt
  have h1 : (i 1).val < 32768 := (i 1).isLt
  have h2 : (i 2).val < 256 := (i 2).isLt
  have hN : cfg1.N = 32 := N_1
  let t : Fin cfg1.N := ⟨8 * (i 0).val + (i 1).val / 4096, by rw [hN]; omega⟩
  have ht : t.val = 8 * (i 0).val + (i 1).val / 4096 := rfl
  obtain ⟨-, -, -, -, -, -, -, e0, e1, e2⟩ := blockIdx t
  refine ⟨t, flush1_2 t, ?_⟩
  rw [mem_oblk1]
  intro a
  match a with
  | ⟨0, _⟩ => show win1_2.index t (0 : Fin 3) * 1 ≤ (i 0).val ∧ (i 0).val < win1_2.index t (0 : Fin 3) * 1 + 1; omega
  | ⟨1, _⟩ => show win1_2.index t (1 : Fin 3) * 4096 ≤ (i 1).val ∧ (i 1).val < win1_2.index t (1 : Fin 3) * 4096 + 4096; omega
  | ⟨2, _⟩ => show win1_2.index t (2 : Fin 3) * 256 ≤ (i 2).val ∧ (i 2).val < win1_2.index t (2 : Fin 3) * 256 + 256; omega

end Cert.KernelIdeal.Hand

end
-- ==== Proof.Out.Value.lean ====
/-
  The array the second launch leaves, on the extended reals: at batch `b`, token `n` and column `e` of head `h` it holds
  `X b n (32 h + e) + ∑ d, X b n (32 h + d) * KV b h d e`, where `X` is the input array and `KV` the array of 32 × 32
  matrices as the launch finds them — the specification's `mix`. Each grid point writes back the block of this array
  it is responsible for (the stored value read at an entry, each block read where it sits in its array), and the blocks
  cover the array.
-/
import proofs.«173681_j5471788335757_2_alg».proof.Proof.Out.Payload
import proofs.«173681_j5471788335757_2_alg».proof.Proof.Out.Blocks

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)
open Cert.LinAttn (chan chan_val mix)

variable (V : (c : Dev nD) → (b : Ref sig .tc) → Buf (Elt Ideal) ((c : Thread nD τ).loc b))

/-- The input array and the array of matrices as the launch finds them, by coordinates. -/
abbrev inX (c : Dev nD) : Fin 4 → Fin 32768 → Fin 256 → EReal :=
  fun b n c' => (V c main_arg0 : S4x32768x256.Idx → EReal) (ix3 b n c')
abbrev inKV (c : Dev nD) : Fin 4 → Fin 8 → Fin 32 → Fin 32 → EReal :=
  fun b h d e => (V c main_v4 : S4x8x32x32.Idx → EReal) (ix4 b h d e)

/-- The array the launch leaves, as one function of the index: the channel `q` is column `q % 32` of head `q / 32`. -/
def mixArr (c : Dev nD) : S4x32768x256.Idx → EReal := fun i =>
  mix (inX V c) (inKV V c) ⟨(i 0).val, (i 0).isLt⟩ ⟨(i 1).val, (i 1).isLt⟩
    ⟨(i 2).val / 32, by have h : (i 2).val < 256 := (i 2).isLt; omega⟩ ⟨(i 2).val % 32, Nat.mod_lt _ (by omega)⟩

theorem mix_congr (X : Fin 4 → Fin 32768 → Fin 256 → EReal) (KV : Fin 4 → Fin 8 → Fin 32 → Fin 32 → EReal)
    {b b' : Fin 4} {n n' : Fin 32768} {h h' : Fin 8} {e e' : Fin 32} (hb : b = b') (hn : n = n') (hh : h = h') (he : e = e') :
    mix X KV b n h e = mix X KV b' n' h' e' := by subst hb hn hh he; rfl

/-- At the index of batch `b`, token `n`, column `e` of head `h`. -/
theorem mixArr_apply (c : Dev nD) (b : Fin 4) (n : Fin 32768) (h : Fin 8) (e : Fin 32) :
    mixArr V c (ix3 b n (chan h e)) = mix (inX V c) (inKV V c) b n h e :=
  mix_congr _ _ (Fin.ext rfl) (Fin.ext rfl)
    (Fin.ext (by show (chan h e).val / 32 = h.val; rw [chan_val]; omega))
    (Fin.ext (by show (chan h e).val % 32 = e.val; rw [chan_val]; omega))

/-- What point `t` writes back is block `t` of that array. -/
theorem flushed1_eq (c : Dev nD) (t : Fin cfg1.N) :
    (dat1 (F := Ideal) V c).flushed 2 t = ((cfg1.win 2).blk t).view.read (Elt Ideal) (mixArr V c) := by
  show (cfg1.win 2).cut (grid1.coords t) ((dat1 V c).after 2 t) = _
  rw [after1_2]
  unfold outBlock
  rw [View.canon_unit_zero zeroOff3]
  funext j
  obtain ⟨u, p, q, rfl⟩ : ∃ (u : Fin 1) (p : Fin 4096) (q : Fin 256), j = ix3 u p q := ⟨j 0, j 1, j 2, eq_ix3 j⟩
  obtain ⟨h, e, rfl⟩ := Cert.LinAttn.chan_surj q
  have hN : cfg1.N = 32 := N_1
  have ht : t.val < 32 := by have := t.isLt; omega
  have hp : p.val < 4096 := p.isLt
  refine (outVal_apply (iblk1 V c 0 t) (iblk1 V c 1 t) u p h e).trans ?_
  refine Eq.trans ?_ (oblk1_apply (F := Ideal) c t (mixArr V c) u p (chan h e) ⟨t.val / 8, by omega⟩ ⟨4096 * (t.val % 8) + p.val, by omega⟩ rfl rfl).symm
  rw [mixArr_apply]
  unfold Cert.LinAttn.mix
  rw [iblk1_0_apply V c t 0 p (chan h e) ⟨t.val / 8, by omega⟩ ⟨4096 * (t.val % 8) + p.val, by omega⟩ rfl rfl]
  refine congrArg₂ (· + ·) rfl (Finset.sum_congr rfl fun d _ => ?_)
  rw [iblk1_0_apply V c t 0 p (chan h d) ⟨t.val / 8, by omega⟩ ⟨4096 * (t.val % 8) + p.val, by omega⟩ rfl rfl,
    iblk1_1_apply V c t 0 h d e ⟨t.val / 8, by omega⟩ rfl]

/-- The array after the launch, at an entry. -/
theorem final1 (c : Dev nD) (b : Fin 4) (n : Fin 32768) (h : Fin 8) (e : Fin 32) :
    (dat1 (F := Ideal) V c).arrAt 2 cfg1.N (ix3 b n (chan h e))
      = mix (fun b n c' => (V c main_arg0 : S4x32768x256.Idx → EReal) (ix3 b n c'))
          (fun b h d e => (V c main_v4 : S4x8x32x32.Idx → EReal) (ix4 b h d e)) b n h e := by
  rw [(dat1 V c).arrAt_eq_of_cover 2 (mixArr V c) (fun t _ => flushed1_eq V c t) cover_out1]
  exact mixArr_apply V c b n h e

end Cert.KernelIdeal.Hand

end
-- ==== Proof.Kv.LibKeepdims.lean ====
/-
  Column ("keepdims") layouts read at an index: a vector viewed as a one-column matrix, and a one-column matrix
  broadcast along its unit axis. A row reduction kept as a column (`sum(-1, keepdims=True)`) is the first followed,
  where it meets the matrix it was reduced from, by the second.
-/
import Idealize.ShloMosaic.Lib.ValueIdx
import Idealize.ShloMosaic.Lib.Pipeline.Value

namespace Cert.Lib

open Idealize.ShloMosaic Idealize.ShloMosaic.ValueIdx

variable {α : Type}

/-- An `[a]` vector cast to the column `[a, 1]` reads, at `(i, u)`, the vector's entry `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast along its unit axis to `[a, b]` reads, at `(p, q)`, the column's entry `p`. -/
theorem broadcastTo_a1_ab_apply {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

end Cert.Lib
-- ==== Proof.Kv.LibRowReduce.lean ====
/-
  Row reductions kept as a column, read at an index, at the ideal values: the sum (or the maximum) of a matrix
  along its rows, viewed as a one-column matrix, holds at `(p, u)` the sum (the fold of `max`) of row `p`.
-/
import Idealize.ShloMosaic.PureOps.Ideal.Laws
import Idealize.ShloMosaic.Lib.ValueIdx
import Idealize.ShloMosaic.Lib.Pipeline.Value
import proofs.«173681_j5471788335757_2_alg».proof.Proof.Kv.LibKeepdims

namespace Cert.Lib

open Idealize.ShloMosaic Idealize.ShloMosaic.ValueIdx

variable {φ : FTy}

/-- Inserting the column coordinate `k` into the row index `p` gives `(p, k)`. -/
theorem lift_row {a b : ℕ} (h : (⟨2, ![a, b]⟩ : Shape).Reduces [1] ⟨1, ![a]⟩) (p : Fin a) (k : Fin b) :
    h.lift (ix1 p) k = ix2 p k := by
  funext c
  apply Fin.ext
  match c with
  | ⟨0, _⟩ => rfl
  | ⟨1, _⟩ => rfl

/-- The row sums of an `[a, b]` matrix, kept as an `[a, 1]` column: at `(p, u)` the sum of row `p`. -/
theorem rowSum_col {a b : ℕ} (v : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (hc : (⟨1, ![a]⟩ : Shape).ShapeCasts ⟨2, ![a, 1]⟩) (p : Fin a) (u : Fin 1) :
    shapeCast ⟨2, ![a, 1]⟩ (multiReduction .add [1] ⟨1, ![a]⟩ v acc h hφ hacc) hc (ix2 p u)
      = ∑ k : Fin b, v (ix2 p k) := by
  rw [shapeCast_a_a1_apply]
  refine (Ideal.multiReduction_add_single v acc h hφ hacc (ix1 p)).trans ?_
  exact Finset.sum_congr rfl fun k _ => congrArg v (lift_row h p k)

/-- The row maxima likewise: at `(p, u)` the fold of `max`, from the accumulator's value, over row `p`. -/
theorem rowMax_col {a b : ℕ} (v : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (hc : (⟨1, ![a]⟩ : Shape).ShapeCasts ⟨2, ![a, 1]⟩) (p : Fin a) (u : Fin 1) :
    shapeCast ⟨2, ![a, 1]⟩ (multiReduction .maximumf [1] ⟨1, ![a]⟩ v acc h hφ hacc) hc (ix2 p u)
      = (Finset.univ : Finset (Fin b)).fold max (Ideal.ofBits φ acc) (fun k => v (ix2 p k)) := by
  rw [shapeCast_a_a1_apply]
  refine (Ideal.multiReduction_maximumf_single v acc h hφ hacc (ix1 p)).trans ?_
  have e : (v ∘ h.lift (ix1 p)) = fun k : Fin b => v (ix2 p k) := funext fun k => congrArg v (lift_row h p k)
  rw [e]
  rfl

end Cert.Lib
-- ==== Proof.Kv.LibMatmulTN.lean ====
/-
  A matrix product that contracts the first axis of both operands, read at an entry.

  For a product of a [K, M] matrix with a [K, N] matrix (no batch axis; each operand contracts its first axis and
  keeps its second), taken into the zero accumulator and read at the exact extended reals, entry (p, q) is the sum
  over k of A (k, p) * B (k, q): the accumulator contributes nothing, and the contraction's one-axis index is the
  coordinate k. The statement is generic in the three extents and in the dimension-number record: any record with
  these six lists has these operand indices.
-/
import Idealize.ShloMosaic.PureOps.Ideal.Laws
import Idealize.ShloMosaic.Lib.ValueIdx

noncomputable section

namespace Cert.Lib.MatmulTN

open Idealize.ShloMosaic Idealize.ShloMosaic.ValueIdx

variable {M K N : Nat}

/-- A coordinate of an index read at a position that is a given number is the coordinate at that number. -/
private theorem coord_val_eq {n : Nat} {d : Fin n → Nat} (j : (⟨n, d⟩ : Shape).Idx) (a b : Nat) (ha : a < n) (hb : b < n)
    (h : a = b) : (j ⟨a, ha⟩).val = (j ⟨b, hb⟩).val := by subst h; rfl

/-- The contraction of such a record has one axis, -/
theorem contr_rank_tn (d : DotDims ⟨2, ![K, M]⟩ ⟨2, ![K, N]⟩ ⟨2, ![M, N]⟩) (hlc : d.lhsContracting = [0]) :
    d.contr.rank = 1 := by rw [d.rank_contr, hlc]; rfl

/-- of extent K. -/
theorem contr_size_tn (d : DotDims ⟨2, ![K, M]⟩ ⟨2, ![K, N]⟩ ⟨2, ![M, N]⟩) (hlc : d.lhsContracting = [0])
    (h0 : 0 < d.contr.rank) : d.contr.size ⟨0, h0⟩ = K := by
  have h := d.size_contr 0 (by rw [hlc]; exact Nat.one_pos)
  rw [h]
  simp [hlc]

/-- The left operand's index at result entry (p, q) and contraction coordinate k is (k, p). -/
theorem lhsIdx_tn (d : DotDims ⟨2, ![K, M]⟩ ⟨2, ![K, N]⟩ ⟨2, ![M, N]⟩)
    (hlb : d.lhsBatch = []) (hln : d.lhsNonContracting = [1]) (hlc : d.lhsContracting = [0])
    (hr : d.contr.rank = 1) (hs : d.contr.size ⟨0, by omega⟩ = K) (p : Fin M) (q : Fin N) (k : Fin K) :
    d.lhsIdx (ix2 p q) ((contrEquiv1 d K hr hs).symm k) = ix2 k p := by
  funext a
  apply Fin.ext
  match a with
  | ⟨0, h0⟩ =>
    exact (d.lhsIdx_val_of_single hlc (ix2 p q) _).trans (contrEquiv1_symm_val d K hr hs k)
  | ⟨1, h1⟩ =>
    have hb : (⟨1, h1⟩ : Fin 2) ∉ d.lhsBatch := by rw [hlb]; exact List.not_mem_nil
    have hn : (⟨1, h1⟩ : Fin 2) ∈ d.lhsNonContracting := by rw [hln]; exact List.mem_singleton.mpr rfl
    unfold DotDims.lhsIdx
    rw [dif_neg hb, dif_pos hn]
    simp only [Fin.val_cast]
    exact coord_val_eq (ix2 p q) _ 0 _ (by decide) (by simp [hlb, hln])

/-- The right operand's index there is (k, q). -/
theorem rhsIdx_tn (d : DotDims ⟨2, ![K, M]⟩ ⟨2, ![K, N]⟩ ⟨2, ![M, N]⟩)
    (hlb : d.lhsBatch = []) (hln : d.lhsNonContracting = [1])
    (hrb : d.rhsBatch = []) (hrn : d.rhsNonContracting = [1]) (hrc : d.rhsContracting = [0])
    (hr : d.contr.rank = 1) (hs : d.contr.size ⟨0, by omega⟩ = K) (p : Fin M) (q : Fin N) (k : Fin K) :
    d.rhsIdx (ix2 p q) ((contrEquiv1 d K hr hs).symm k) = ix2 k q := by
  funext a
  apply Fin.ext
  match a with
  | ⟨0, h0⟩ =>
    exact (d.rhsIdx_val_of_single hrc (ix2 p q) _).trans (contrEquiv1_symm_val d K hr hs k)
  | ⟨1, h1⟩ =>
    have hb : (⟨1, h1⟩ : Fin 2) ∉ d.rhsBatch := by rw [hrb]; exact List.not_mem_nil
    have hn : (⟨1, h1⟩ : Fin 2) ∈ d.rhsNonContracting := by rw [hrn]; exact List.mem_singleton.mpr rfl
    unfold DotDims.rhsIdx
    rw [dif_neg hb, dif_pos hn]
    simp only [Fin.val_cast]
    exact coord_val_eq (ix2 p q) _ 1 _ (by decide) (by simp [hlb, hln, hrn])

/-- Entry (p, q) of the product into the zero accumulator is the sum over k of A (k, p) * B (k, q). -/
theorem matmul_tn_apply {φ₁ φ₂ : FTy} (d : DotDims ⟨2, ![K, M]⟩ ⟨2, ![K, N]⟩ ⟨2, ![M, N]⟩)
    (hlb : d.lhsBatch = []) (hln : d.lhsNonContracting = [1]) (hlc : d.lhsContracting = [0])
    (hrb : d.rhsBatch = []) (hrn : d.rhsNonContracting = [1]) (hrc : d.rhsContracting = [0])
    (prec : Option ContractPrecision) (A : FVec Ideal ⟨2, ![K, M]⟩ φ₁) (B : FVec Ideal ⟨2, ![K, N]⟩ φ₂)
    (p : Fin M) (q : Fin N) :
    matmul d prec A B (constant (F := Ideal) ⟨2, ![M, N]⟩ .f32 0x00000000#32) (ix2 p q)
      = ∑ k : Fin K, A (ix2 k p) * B (ix2 k q) := by
  have hr : d.contr.rank = 1 := contr_rank_tn d hlc
  have hs : d.contr.size ⟨0, by omega⟩ = K := contr_size_tn d hlc _
  refine (Ideal.matmul_constant_zero_apply d prec A B (ix2 p q)).trans ?_
  rw [← Equiv.sum_comp (contrEquiv1 d K hr hs).symm]
  refine Finset.sum_congr rfl fun k _ => ?_
  rw [lhsIdx_tn d hlb hln hlc hr hs p q k, rhsIdx_tn d hlb hln hrb hrn hrc hr hs p q k]

end Cert.Lib.MatmulTN

end
-- ==== Proof.Kv.HeadValue.lean ====
/-
  One head's step of the first pass, read at an entry, on the extended reals.

  Row `p` of the head's 4096 × 32 block is a row `r` of 32 entries. The body takes the row's sum divided by 32 (its mean),
  subtracts it, sums the squared deviations and divides by 31, takes the square root and adds a small constant, and
  divides the deviation by that: the specification's `normed r`. A feature block multiplies by a row of weights and adds
  a row of biases: `feature r w b`. The product of two feature blocks contracts the token axis, so its entry `(d, e)` is
  the sum over the 4096 rows of the key feature at `d` times the value feature at `e`; the step adds it to what the
  slab held.
-/
import proofs.«173681_j5471788335757_2_alg».proof.Proof.Kv.Head
import proofs.«173681_j5471788335757_2_alg».proof.Proof.Kv.LibRowReduce
import proofs.«173681_j5471788335757_2_alg».proof.Proof.Kv.LibMatmulTN
import proofs.«173681_j5471788335757_2_alg».proof.Proof.Spec
import Idealize.ShloMosaic.Lib.ValueLayout

noncomputable section

namespace Cert.KernelIdeal.Hand

open Cert.KernelIdeal Cert.KernelIdeal.Gen
open Idealize.ShloMosaic Idealize.ShloMosaic.ValueIdx
open Cert.LinAttn (mean dev spread normed feature c32 c31 cEps)

/-- Row `p` of a head's block. -/
abbrev headRow (xh : FVec Ideal S4096x32 .f32) (p : Fin 4096) : Fin 32 → EReal := fun j => xh (ix2 p j)

/-- The column of row means, the block of deviations and the column of their mean squares (over 31), as the body
    writes them. -/
abbrev meanCol (xh : FVec Ideal S4096x32 .f32) : FVec Ideal S4096x1 .f32 :=
  divf (shapeCast S4096x1 (multiReduction .add [1] S4096 xh 0x00000000#32 reduces_S4096x32_S4096 (.inl rfl) rfl) shapeCasts_S4096_S4096x1)
    (broadcast S4096x1 (Scalar.ofBits .f32 0x42000000#32))
abbrev devBlock (xh : FVec Ideal S4096x32 .f32) : FVec Ideal S4096x32 .f32 :=
  subf xh (broadcastTo S4096x32 (meanCol xh) broadcasts_S4096x1_S4096x32)
abbrev varCol (xh : FVec Ideal S4096x32 .f32) : FVec Ideal S4096x1 .f32 :=
  divf (shapeCast S4096x1 (multiReduction .add [1] S4096 (mulf (devBlock xh) (devBlock xh)) 0x00000000#32 reduces_S4096x32_S4096 (.inl rfl) rfl) shapeCasts_S4096_S4096x1)
    (broadcast S4096x1 (Scalar.ofBits .f32 0x41F80000#32))

theorem headNormed_eq (xh : FVec Ideal S4096x32 .f32) :
    headNormed xh = divf (devBlock xh)
      (broadcastTo S4096x32 (addf (sqrt (varCol xh)) (broadcast S4096x1 (Scalar.ofBits .f32 0x3727C5AC#32))) broadcasts_S4096x1_S4096x32) := rfl

/-- The mean column at row `p` is the row's mean. -/
theorem meanCol_apply (xh : FVec Ideal S4096x32 .f32) (p : Fin 4096) (u : Fin 1) :
    meanCol xh (ix2 p u) = mean (headRow xh p) := by
  refine (divf_apply _ _ _).trans ?_
  refine congrArg₂ Ideal.div ?_ rfl
  exact Cert.Lib.rowSum_col xh 0x00000000#32 reduces_S4096x32_S4096 (.inl rfl) rfl shapeCasts_S4096_S4096x1 p u

/-- The deviation block at `(p, j)` is the row's deviation at `j`. -/
theorem devBlock_apply (xh : FVec Ideal S4096x32 .f32) (p : Fin 4096) (j : Fin 32) :
    devBlock xh (ix2 p j) = dev (headRow xh p) j := by
  refine (subf_apply _ _ _).trans ?_
  refine congrArg₂ (· - ·) rfl ?_
  exact (Cert.Lib.broadcastTo_a1_ab_apply _ broadcasts_S4096x1_S4096x32 p j).trans (meanCol_apply xh p 0)

/-- The column of mean squares at row `p`. -/
theorem varCol_apply (xh : FVec Ideal S4096x32 .f32) (p : Fin 4096) (u : Fin 1) :
    varCol xh (ix2 p u) = Ideal.div (∑ k, dev (headRow xh p) k * dev (headRow xh p) k) c31 := by
  refine (divf_apply _ _ _).trans ?_
  refine congrArg₂ Ideal.div ?_ rfl
  refine (Cert.Lib.rowSum_col (mulf (devBlock xh) (devBlock xh)) 0x00000000#32 reduces_S4096x32_S4096 (.inl rfl) rfl shapeCasts_S4096_S4096x1 p u).trans ?_
  refine Finset.sum_congr rfl fun k _ => ?_
  refine (mulf_apply _ _ _).trans ?_
  rw [devBlock_apply]

/-- The normalised block at `(p, j)` is the row's normalised entry `j`. -/
theorem headNormed_apply (xh : FVec Ideal S4096x32 .f32) (p : Fin 4096) (j : Fin 32) :
    headNormed xh (ix2 p j) = normed (headRow xh p) j := by
  rw [headNormed_eq]
  refine (divf_apply _ _ _).trans ?_
  unfold normed
  refine congrArg₂ Ideal.div (devBlock_apply xh p j) ?_
  refine (Cert.Lib.broadcastTo_a1_ab_apply _ broadcasts_S4096x1_S4096x32 p j).trans ?_
  refine (addf_apply _ _ _).trans ?_
  refine congrArg₂ (· + ·) ?_ rfl
  unfold spread
  exact congrArg Ideal.sqrt (varCol_apply xh p 0)

/-- A feature block at `(p, j)`: the entry times the weight plus the bias. -/
theorem headFeature_apply (nh : FVec Ideal S4096x32 .f32) (w b : FVec Ideal S32 .f32) (p : Fin 4096) (j : Fin 32) :
    headFeature nh w b (ix2 p j) = nh (ix2 p j) * w (ix1 j) + b (ix1 j) := by
  unfold headFeature
  refine (addf_apply _ _ _).trans ?_
  refine congrArg₂ (· + ·) ?_ ?_
  · refine (mulf_apply _ _ _).trans ?_
    refine congrArg₂ (· * ·) rfl ?_
    exact (broadcastTo_1b_ab_apply _ broadcasts_S1x32_S4096x32 p j).trans (shapeCast_a_1a_apply w shapeCasts_S32_S1x32 0 j)
  · exact (broadcastTo_1b_ab_apply _ broadcasts_S1x32_S4096x32 p j).trans (shapeCast_a_1a_apply b shapeCasts_S32_S1x32 0 j)

/-- The feature block of the normalised block is the specification's feature of the row. -/
theorem feature_row (xh : FVec Ideal S4096x32 .f32) (w b : FVec Ideal S32 .f32) (p : Fin 4096) (j : Fin 32) :
    headFeature (headNormed xh) w b (ix2 p j)
      = feature (fun j => xh (ix2 p j)) (fun j => w (ix1 j)) (fun j => b (ix1 j)) j := by
  rw [headFeature_apply, headNormed_apply]
  rfl

/-- The product of the two feature blocks at `(d, e)`: the sum over the rows. -/
theorem headProduct_apply (xh : FVec Ideal S4096x32 .f32) (kw kb vw vb : FVec Ideal S32 .f32) (d e : Fin 32) :
    headProduct xh kw kb vw vb (ix2 d e)
      = ∑ p : Fin 4096, feature (fun j => xh (ix2 p j)) (fun j => kw (ix1 j)) (fun j => kb (ix1 j)) d
          * feature (fun j => xh (ix2 p j)) (fun j => vw (ix1 j)) (fun j => vb (ix1 j)) e := by
  unfold headProduct
  refine (Cert.Lib.MatmulTN.matmul_tn_apply (M := 32) (K := 4096) (N := 32) dot_S4096x32_S4096x32_S32x32_0_0_1_1_n_n
    rfl rfl rfl rfl rfl rfl none _ _ d e).trans ?_
  refine Finset.sum_congr rfl fun p _ => ?_
  rw [truncf_apply, truncf_apply, feature_row, feature_row]

/-- The slab after the step at `(d, e)`: what it held plus the product's entry. -/
theorem headStep_apply (xh : FVec Ideal S4096x32 .f32) (kw kb vw vb : FVec Ideal S32 .f32) (acc : Vec Ideal S1x32x32 .f32) (d e : Fin 32) :
    headStep xh kw kb vw vb acc (ValueIdx.ix3 0 d e)
      = acc (ValueIdx.ix3 0 d e) + ∑ p : Fin 4096, Cert.LinAttn.feature (fun j => xh (ValueIdx.ix2 p j)) (fun j => kw (ValueIdx.ix1 j)) (fun j => kb (ValueIdx.ix1 j)) d
            * Cert.LinAttn.feature (fun j => xh (ValueIdx.ix2 p j)) (fun j => vw (ValueIdx.ix1 j)) (fun j => vb (ValueIdx.ix1 j)) e := by
  unfold headStep
  refine (shapeCast_ab_1ab_apply _ shapeCasts_S32x32_S1x32x32 0 d e).trans ?_
  refine (addf_apply _ _ _).trans ?_
  refine congrArg₂ (· + ·) (shapeCast_1ab_ab_apply acc shapeCasts_S1x32x32_S32x32 d e) (headProduct_apply xh kw kb vw vb d e)

end Cert.KernelIdeal.Hand

end
-- ==== Proof.Kv.SliceFacts.lean ====
/-
  The slices and casts with which the first pass cuts a head's share out of a token block and out of a row of 256
  weights, read at an entry, for any element type: columns `o … o + 31` of the 4096 × 256 matrix, entries
  `o … o + 31` of a vector of 256, the token block without its leading unit axis, and a 1 × 256 row as a vector.
-/
import proofs.«173681_j5471788335757_2_alg».proof.KernelIdeal
import Idealize.ShloMosaic.Lib.ValueLayout

noncomputable section

namespace Cert.KernelIdeal.Hand

open Cert.KernelIdeal
open Idealize.ShloMosaic Idealize.ShloMosaic.ValueIdx

variable {α : Type}

/-- Columns from `o` on of the 4096 × 256 matrix: entry `(p, j)` is the matrix at `(p, o + j)`. -/
theorem colSlice_apply (o : ℕ) (X : S4096x256.Idx → α) (h : S4096x256.Slices ![0, o] S4096x32) (p : Fin 4096) (j : Fin 32) :
    extractStridedSlice S4096x32 ![0, o] X h (ix2 p j)
      = X (ix2 p ⟨o + j.val, Nat.lt_of_lt_of_le (Nat.add_lt_add_left j.isLt o) (h.2 1)⟩) :=
  slice2_axis1_eq o X h p j

/-- The same with the column named by the caller. -/
theorem colSlice_apply_of (o : ℕ) (X : S4096x256.Idx → α) (h : S4096x256.Slices ![0, o] S4096x32) (p : Fin 4096) (j : Fin 32)
    (k : Fin 256) (hk : k.val = o + j.val) :
    extractStridedSlice S4096x32 ![0, o] X h (ix2 p j) = X (ix2 p k) :=
  slice2_axis1_apply o X h p j k hk

/-- Entries from `o` on of a vector of 256, the entry named by the caller. -/
theorem vecSlice_apply_of (o : ℕ) (Y : S256.Idx → α) (h : S256.Slices ![o] S32) (j : Fin 32) (k : Fin 256) (hk : k.val = o + j.val) :
    extractStridedSlice S32 ![o] Y h (ix1 j) = Y (ix1 k) :=
  extractStridedSlice_apply _ _ _ _ _ (fun ax => by
    match ax with
    | ⟨0, _⟩ => exact hk)

/-- Entry `j` is the vector at `o + j`. -/
theorem vecSlice_apply (o : ℕ) (Y : S256.Idx → α) (h : S256.Slices ![o] S32) (j : Fin 32) :
    extractStridedSlice S32 ![o] Y h (ix1 j)
      = Y (ix1 ⟨o + j.val, Nat.lt_of_lt_of_le (Nat.add_lt_add_left j.isLt o) (h.2 0)⟩) :=
  vecSlice_apply_of o Y h j _ rfl

/-- The token block without its leading unit axis. -/
theorem tokens_apply (x0 : S1x4096x256.Idx → α) (h : S1x4096x256.ShapeCasts S4096x256) (p : Fin 4096) (c : Fin 256) :
    shapeCast S4096x256 x0 h (ix2 p c) = x0 (ix3 (0 : Fin 1) p c) :=
  shapeCast_1ab_ab_apply x0 h p c

/-- A 1 × 256 row as a vector. -/
theorem flat_apply (x : S1x256.Idx → α) (h : S1x256.ShapeCasts S256) (c : Fin 256) :
    shapeCast S256 x h (ix1 c) = x (ix2 (0 : Fin 1) c) :=
  shapeCast_1a_a_apply x h c

end Cert.KernelIdeal.Hand

end
-- ==== Proof.Kv.AccValue.lean ====
/-
  What one grid point of the first pass adds to the accumulator, read at an entry, on the extended reals.

  The accumulator holds one 32 × 32 matrix per head. A point's eight stores each rewrite one head's matrix, so the
  entry `(h, p, q)` after the point is head `h`'s step at `(p, q)`: what the entry held plus the sum over the block's
  4096 tokens of the key feature at `p` times the value feature at `q`, the features taken of the token's row of head
  `h` (channels `32 h … 32 h + 31`) with the head's 32 weights and biases. The cleared accumulator holds zero; the
  output block is the accumulator times 2⁻¹⁵, which on the extended reals is division by the token count 32768.
-/
import proofs.«173681_j5471788335757_2_alg».proof.Proof.Kv.Pieces
import proofs.«173681_j5471788335757_2_alg».proof.Proof.Kv.HeadValue
import proofs.«173681_j5471788335757_2_alg».proof.Proof.Kv.SliceFacts

noncomputable section

namespace Cert.KernelIdeal.Hand

open Cert.KernelIdeal Cert.KernelIdeal.Gen
open Idealize.ShloMosaic Idealize.ShloMosaic.ValueIdx
open Cert.LinAttn (chan chan_val feature cTokens)

/-- A head's step on the head's columns of the token block and the head's entries of the four rows, the columns named
    by `col d = o + d`. -/
theorem headStep_sliced (o : ℕ) (hs : S4096x256.Slices ![0, o] S4096x32) (hv : S256.Slices ![o] S32)
    (x0 : Vec Ideal S1x4096x256 .f32) (x1 x2 x3 x4 : Vec Ideal S1x256 .f32) (acc : Vec Ideal S1x32x32 .f32) (p q : Fin 32)
    (col : Fin 32 → Fin 256) (hcol : ∀ d, (col d).val = o + d.val) :
    headStep (extractStridedSlice S4096x32 ![0, o] (tokens x0) hs) (extractStridedSlice S32 ![o] (flat x1) hv)
        (extractStridedSlice S32 ![o] (flat x2) hv) (extractStridedSlice S32 ![o] (flat x3) hv)
        (extractStridedSlice S32 ![o] (flat x4) hv) acc (ix3 0 p q)
      = acc (ix3 0 p q) + ∑ j : Fin 4096,
          feature (fun d => x0 (ix3 (0 : Fin 1) j (col d))) (fun d => x1 (ix2 (0 : Fin 1) (col d))) (fun d => x2 (ix2 (0 : Fin 1) (col d))) p
          * feature (fun d => x0 (ix3 (0 : Fin 1) j (col d))) (fun d => x3 (ix2 (0 : Fin 1) (col d))) (fun d => x4 (ix2 (0 : Fin 1) (col d))) q := by
  rw [headStep_apply]
  have hx : ∀ j : Fin 4096, (fun d => extractStridedSlice S4096x32 ![0, o] (tokens x0) hs (ix2 j d)) = fun d => x0 (ix3 (0 : Fin 1) j (col d)) :=
    fun j => funext fun d => by
      rw [colSlice_apply_of o _ hs j d (col d) (hcol d)]; exact tokens_apply x0 _ j (col d)
  have hw : ∀ x : Vec Ideal S1x256 .f32, (fun d => extractStridedSlice S32 ![o] (flat x) hv (ix1 d)) = fun d => x (ix2 (0 : Fin 1) (col d)) :=
    fun x => funext fun d => by
      rw [vecSlice_apply_of o _ hv d (col d) (hcol d)]; exact flat_apply x _ (col d)
  simp only [hx, hw]

/-- Head `h`'s step of a point, at an entry. -/
theorem slabStep_apply (x0 : Vec Ideal S1x4096x256 .f32) (x1 x2 x3 x4 : Vec Ideal S1x256 .f32) (h : Fin 8) (acc : Vec Ideal S1x32x32 .f32) (p q : Fin 32) :
    slabStep x0 x1 x2 x3 x4 h acc (ix3 0 p q)
      = acc (ix3 0 p q) + ∑ j : Fin 4096,
          feature (fun d => x0 (ix3 (0 : Fin 1) j (chan h d))) (fun d => x1 (ix2 (0 : Fin 1) (chan h d))) (fun d => x2 (ix2 (0 : Fin 1) (chan h d))) p
          * feature (fun d => x0 (ix3 (0 : Fin 1) j (chan h d))) (fun d => x3 (ix2 (0 : Fin 1) (chan h d))) (fun d => x4 (ix2 (0 : Fin 1) (chan h d))) q := by
  match h with
  | ⟨0, hk⟩ => exact headStep_sliced 0 _ _ x0 x1 x2 x3 x4 acc p q (chan ⟨0, hk⟩) (fun d => by rw [chan_val]; show 0 * 32 + d.val = 0 + d.val; omega)
  | ⟨1, hk⟩ => exact headStep_sliced 32 _ _ x0 x1 x2 x3 x4 acc p q (chan ⟨1, hk⟩) (fun d => by rw [chan_val]; show 1 * 32 + d.val = 32 + d.val; omega)
  | ⟨2, hk⟩ => exact headStep_sliced 64 _ _ x0 x1 x2 x3 x4 acc p q (chan ⟨2, hk⟩) (fun d => by rw [chan_val]; show 2 * 32 + d.val = 64 + d.val; omega)
  | ⟨3, hk⟩ => exact headStep_sliced 96 _ _ x0 x1 x2 x3 x4 acc p q (chan ⟨3, hk⟩) (fun d => by rw [chan_val]; show 3 * 32 + d.val = 96 + d.val; omega)
  | ⟨4, hk⟩ => exact headStep_sliced 128 _ _ x0 x1 x2 x3 x4 acc p q (chan ⟨4, hk⟩) (fun d => by rw [chan_val]; show 4 * 32 + d.val = 128 + d.val; omega)
  | ⟨5, hk⟩ => exact headStep_sliced 160 _ _ x0 x1 x2 x3 x4 acc p q (chan ⟨5, hk⟩) (fun d => by rw [chan_val]; show 5 * 32 + d.val = 160 + d.val; omega)
  | ⟨6, hk⟩ => exact headStep_sliced 192 _ _ x0 x1 x2 x3 x4 acc p q (chan ⟨6, hk⟩) (fun d => by rw [chan_val]; show 6 * 32 + d.val = 192 + d.val; omega)
  | ⟨7, hk⟩ => exact headStep_sliced 224 _ _ x0 x1 x2 x3 x4 acc p q (chan ⟨7, hk⟩) (fun d => by rw [chan_val]; show 7 * 32 + d.val = 224 + d.val; omega)

/-- The accumulator after a point, at an entry of head `h`: the head's step of what the entry's matrix held. -/
theorem accNext_slab (x0 : Vec Ideal S1x4096x256 .f32) (x1 x2 x3 x4 : Vec Ideal S1x256 .f32) (before : Vec Ideal S8x32x32 .f32)
    (h : Fin 8) (p q : Fin 32) :
    accNext x0 x1 x2 x3 x4 before (ix3 h p q) = slabStep x0 x1 x2 x3 x4 h (slabOf before h) (ix3 0 p q) := by
  unfold accNext slabPieces
  match h with
    | ⟨7, hk⟩ =>
      refine (Cert.LibSlabs.slab_hit (n := 8) (a := 32) (c := 32) 7 _ _ _ ⟨7, hk⟩ rfl p q).trans ?_
      rw [ld_slab 7 _ (by omega)]
      rfl
    | ⟨6, hk⟩ =>
      refine (Cert.LibSlabs.slab_miss (n := 8) (a := 32) (c := 32) 7 _ _ _ ⟨6, hk⟩ (by show (6 : ℕ) ≠ 7; omega) p q).trans ?_
      refine (Cert.LibSlabs.slab_hit (n := 8) (a := 32) (c := 32) 6 _ _ _ ⟨6, hk⟩ rfl p q).trans ?_
      rw [ld_slab 6 _ (by omega)]
      rfl
    | ⟨5, hk⟩ =>
      refine (Cert.LibSlabs.slab_miss (n := 8) (a := 32) (c := 32) 7 _ _ _ ⟨5, hk⟩ (by show (5 : ℕ) ≠ 7; omega) p q).trans ?_
      refine (Cert.LibSlabs.slab_miss (n := 8) (a := 32) (c := 32) 6 _ _ _ ⟨5, hk⟩ (by show (5 : ℕ) ≠ 6; omega) p q).trans ?_
      refine (Cert.LibSlabs.slab_hit (n := 8) (a := 32) (c := 32) 5 _ _ _ ⟨5, hk⟩ rfl p q).trans ?_
      rw [ld_slab 5 _ (by omega)]
      rfl
    | ⟨4, hk⟩ =>
      refine (Cert.LibSlabs.slab_miss (n := 8) (a := 32) (c := 32) 7 _ _ _ ⟨4, hk⟩ (by show (4 : ℕ) ≠ 7; omega) p q).trans ?_
      refine (Cert.LibSlabs.slab_miss (n := 8) (a := 32) (c := 32) 6 _ _ _ ⟨4, hk⟩ (by show (4 : ℕ) ≠ 6; omega) p q).trans ?_
      refine (Cert.LibSlabs.slab_miss (n := 8) (a := 32) (c := 32) 5 _ _ _ ⟨4, hk⟩ (by show (4 : ℕ) ≠ 5; omega) p q).trans ?_
      refine (Cert.LibSlabs.slab_hit (n := 8) (a := 32) (c := 32) 4 _ _ _ ⟨4, hk⟩ rfl p q).trans ?_
      rw [ld_slab 4 _ (by omega)]
      rfl
    | ⟨3, hk⟩ =>
      refine (Cert.LibSlabs.slab_miss (n := 8) (a := 32) (c := 32) 7 _ _ _ ⟨3, hk⟩ (by show (3 : ℕ) ≠ 7; omega) p q).trans ?_
      refine (Cert.LibSlabs.slab_miss (n := 8) (a := 32) (c := 32) 6 _ _ _ ⟨3, hk⟩ (by show (3 : ℕ) ≠ 6; omega) p q).trans ?_
      refine (Cert.LibSlabs.slab_miss (n := 8) (a := 32) (c := 32) 5 _ _ _ ⟨3, hk⟩ (by show (3 : ℕ) ≠ 5; omega) p q).trans ?_
      refine (Cert.LibSlabs.slab_miss (n := 8) (a := 32) (c := 32) 4 _ _ _ ⟨3, hk⟩ (by show (3 : ℕ) ≠ 4; omega) p q).trans ?_
      refine (Cert.LibSlabs.slab_hit (n := 8) (a := 32) (c := 32) 3 _ _ _ ⟨3, hk⟩ rfl p q).trans ?_
      rw [ld_slab 3 _ (by omega)]
      rfl
    | ⟨2, hk⟩ =>
      refine (Cert.LibSlabs.slab_miss (n := 8) (a := 32) (c := 32) 7 _ _ _ ⟨2, hk⟩ (by show (2 : ℕ) ≠ 7; omega) p q).trans ?_
      refine (Cert.LibSlabs.slab_miss (n := 8) (a := 32) (c := 32) 6 _ _ _ ⟨2, hk⟩ (by show (2 : ℕ) ≠ 6; omega) p q).trans ?_
      refine (Cert.LibSlabs.slab_miss (n := 8) (a := 32) (c := 32) 5 _ _ _ ⟨2, hk⟩ (by show (2 : ℕ) ≠ 5; omega) p q).trans ?_
      refine (Cert.LibSlabs.slab_miss (n := 8) (a := 32) (c := 32) 4 _ _ _ ⟨2, hk⟩ (by show (2 : ℕ) ≠ 4; omega) p q).trans ?_
      refine (Cert.LibSlabs.slab_miss (n := 8) (a := 32) (c := 32) 3 _ _ _ ⟨2, hk⟩ (by show (2 : ℕ) ≠ 3; omega) p q).trans ?_
      refine (Cert.LibSlabs.slab_hit (n := 8) (a := 32) (c := 32) 2 _ _ _ ⟨2, hk⟩ rfl p q).trans ?_
      rw [ld_slab 2 _ (by omega)]
      rfl
    | ⟨1, hk⟩ =>
      refine (Cert.LibSlabs.slab_miss (n := 8) (a := 32) (c := 32) 7 _ _ _ ⟨1, hk⟩ (by show (1 : ℕ) ≠ 7; omega) p q).trans ?_
      refine (Cert.LibSlabs.slab_miss (n := 8) (a := 32) (c := 32) 6 _ _ _ ⟨1, hk⟩ (by show (1 : ℕ) ≠ 6; omega) p q).trans ?_
      refine (Cert.LibSlabs.slab_miss (n := 8) (a := 32) (c := 32) 5 _ _ _ ⟨1, hk⟩ (by show (1 : ℕ) ≠ 5; omega) p q).trans ?_
      refine (Cert.LibSlabs.slab_miss (n := 8) (a := 32) (c := 32) 4 _ _ _ ⟨1, hk⟩ (by show (1 : ℕ) ≠ 4; omega) p q).trans ?_
      refine (Cert.LibSlabs.slab_miss (n := 8) (a := 32) (c := 32) 3 _ _ _ ⟨1, hk⟩ (by show (1 : ℕ) ≠ 3; omega) p q).trans ?_
      refine (Cert.LibSlabs.slab_miss (n := 8) (a := 32) (c := 32) 2 _ _ _ ⟨1, hk⟩ (by show (1 : ℕ) ≠ 2; omega) p q).trans ?_
      refine (Cert.LibSlabs.slab_hit (n := 8) (a := 32) (c := 32) 1 _ _ _ ⟨1, hk⟩ rfl p q).trans ?_
      rw [ld_slab 1 _ (by omega)]
      rfl
    | ⟨0, hk⟩ =>
      refine (Cert.LibSlabs.slab_miss (n := 8) (a := 32) (c := 32) 7 _ _ _ ⟨0, hk⟩ (by show (0 : ℕ) ≠ 7; omega) p q).trans ?_
      refine (Cert.LibSlabs.slab_miss (n := 8) (a := 32) (c := 32) 6 _ _ _ ⟨0, hk⟩ (by show (0 : ℕ) ≠ 6; omega) p q).trans ?_
      refine (Cert.LibSlabs.slab_miss (n := 8) (a := 32) (c := 32) 5 _ _ _ ⟨0, hk⟩ (by show (0 : ℕ) ≠ 5; omega) p q).trans ?_
      refine (Cert.LibSlabs.slab_miss (n := 8) (a := 32) (c := 32) 4 _ _ _ ⟨0, hk⟩ (by show (0 : ℕ) ≠ 4; omega) p q).trans ?_
      refine (Cert.LibSlabs.slab_miss (n := 8) (a := 32) (c := 32) 3 _ _ _ ⟨0, hk⟩ (by show (0 : ℕ) ≠ 3; omega) p q).trans ?_
      refine (Cert.LibSlabs.slab_miss (n := 8) (a := 32) (c := 32) 2 _ _ _ ⟨0, hk⟩ (by show (0 : ℕ) ≠ 2; omega) p q).trans ?_
      refine (Cert.LibSlabs.slab_miss (n := 8) (a := 32) (c := 32) 1 _ _ _ ⟨0, hk⟩ (by show (0 : ℕ) ≠ 1; omega) p q).trans ?_
      refine (Cert.LibSlabs.slab_hit (n := 8) (a := 32) (c := 32) 0 _ _ _ ⟨0, hk⟩ rfl p q).trans ?_
      rw [ld_slab 0 _ (by omega)]
      rfl

/-- The accumulator after a point, at an entry. -/
theorem accNext_apply (x0 : Vec Ideal S1x4096x256 .f32) (x1 x2 x3 x4 : Vec Ideal S1x256 .f32) (before : Vec Ideal S8x32x32 .f32)
    (h : Fin 8) (p q : Fin 32) :
    accNext x0 x1 x2 x3 x4 before (ix3 h p q)
      = before (ix3 h p q) + ∑ j : Fin 4096,
          feature (fun d => x0 (ix3 (0 : Fin 1) j (chan h d))) (fun d => x1 (ix2 (0 : Fin 1) (chan h d))) (fun d => x2 (ix2 (0 : Fin 1) (chan h d))) p
          * feature (fun d => x0 (ix3 (0 : Fin 1) j (chan h d))) (fun d => x3 (ix2 (0 : Fin 1) (chan h d))) (fun d => x4 (ix2 (0 : Fin 1) (chan h d))) q := by
  rw [accNext_slab, slabStep_apply]
  rfl

/-- The cleared accumulator holds zero. -/
theorem zerosAcc_apply (h : Fin 8) (p q : Fin 32) : (zerosAcc (F := Ideal)) (ix3 h p q) = 0 := by
  show shapeCast S8x32x32 (broadcast S8x32x32 (Scalar.ofBits (F := Ideal) .f32 0x00000000#32)) shapeCasts_S8x32x32_S8x32x32 (ix3 h p q) = 0
  rw [shapeCast_self]
  exact Ideal.ofBits_zero_f32

/-- The output block at an entry: the accumulator's entry times the constant 2⁻¹⁵. -/
theorem scaled_apply (acc : Vec Ideal S8x32x32 .f32) (u : Fin 1) (h : Fin 8) (p q : Fin 32) :
    scaled acc (ix4 u h p q) = acc (ix3 h p q) * Ideal.ofBits .f32 0x38000000#32 := by
  show shapeCast S1x8x32x32 (mulf acc (broadcast S8x32x32 (Scalar.ofBits (F := Ideal) .f32 0x38000000#32)))
    shapeCasts_S8x32x32_S1x8x32x32 (ix4 u h p q) = _
  rw [shapeCast_abc_1abc_apply]
  rfl

/-- The token count and its reciprocal, as the real numbers their patterns denote. -/
theorem tokens_val : Ideal.ofBits .f32 0x47000000#32 = ((32768 : ℝ) : EReal) := by
  simp [Ideal.ofBits, Ideal.ieee]
  norm_num
  rw [← EReal.coe_mul]
  norm_num

theorem invTokens_val : Ideal.ofBits .f32 0x38000000#32 = ((1 / 32768 : ℝ) : EReal) := by
  simp [Ideal.ofBits, Ideal.ieee]
  norm_num
  rw [← EReal.coe_mul]
  norm_num

/-- Multiplying by 2⁻¹⁵ is dividing by the token count, for every extended real. -/
theorem mul_invTokens (x : EReal) : x * Ideal.ofBits .f32 0x38000000#32 = Ideal.div x cTokens := by
  unfold cTokens
  rw [tokens_val, Ideal.div_coe (by norm_num), invTokens_val]

end Cert.KernelIdeal.Hand

end
-- ==== Proof.Kv.KvBlocks.lean ====
/-
  Where the blocks of the first pass sit in their arrays. Grid point `t` (of 32) works on batch `t / 8` and on the
  tokens `4096 (t % 8) … 4096 (t % 8) + 4095`: the token block at `t` is those tokens of that batch, all 256 channels;
  each of the four rows of 256 weights or biases is its whole array at every point; the output block is the batch's
  eight 32 × 32 matrices. Read at an entry, a block is its array at the entry moved by the block's offset. The output
  is written back at the last point `8 b + 7` of each batch, and those four blocks cover the output array.
-/
import proofs.«173681_j5471788335757_2_alg».proof.Proof.Kv.Data
import Idealize.ShloMosaic.Lib.ValueIdx
import Idealize.ShloMosaic.Lib.Pipeline.Value

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

variable {F : FTy → Type} [FloatOps F]

variable (V : (c : Dev nD) → (b : Ref sig .tc) → Buf (Elt F) ((c : Thread nD τ).loc b))

/-- The block indices of the six operands at every grid point, decided over the grid. -/
theorem blockIdx0 : ∀ t : Fin cfg0.N,
    win0_0.index t (0 : Fin 3) = t.val / 8 ∧ win0_0.index t (1 : Fin 3) = t.val % 8 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 4) = t.val / 8 ∧ win0_5.index t (1 : Fin 4) = 0 ∧ win0_5.index t (2 : Fin 4) = 0 ∧ win0_5.index t (3 : Fin 4) = 0 :=
  (by decide +kernel : ∀ t : Fin grid0.N, _)

/-- The token block at point `t`, read at an entry. -/
theorem iblk0_0_apply (c : Dev nD) (t : Fin cfg0.N) (u : Fin 1) (p : Fin 4096) (q : Fin 256) (b : Fin 4) (n : Fin 32768)
    (hb : b.val = t.val / 8) (hn : n.val = 4096 * (t.val % 8) + p.val) :
    (iblk0 V c 0 t : Vec F S1x4096x256 .f32) (ix3 u p q) = (V c main_arg0 : S4x32768x256.Idx → Elt F .f32) (ix3 b n q) := by
  obtain ⟨e0, e1, e2, -⟩ := blockIdx0 t
  unfold iblk0
  rw [View.read_apply]
  show (V c main_arg0 : S4x32768x256.Idx → Elt F .f32) _ = _
  refine congrArg _ (funext fun a => Fin.ext ?_)
  match a with
  | ⟨0, _⟩ => show win0_0.index t (0 : Fin 3) * 1 + 1 * u.val = b.val; omega
  | ⟨1, _⟩ => show win0_0.index t (1 : Fin 3) * 4096 + 1 * p.val = n.val; omega
  | ⟨2, _⟩ => show win0_0.index t (2 : Fin 3) * 256 + 1 * q.val = q.val; omega

/-- Each row of weights or biases at point `t`, read at an entry, is its array there. -/
theorem iblk0_1_apply (c : Dev nD) (t : Fin cfg0.N) (u : Fin 1) (q : Fin 256) :
    (iblk0 V c 1 t : Vec F S1x256 .f32) (ix2 u q) = (V c main_v0 : S1x256.Idx → Elt F .f32) (ix2 (0 : Fin 1) q) := by
  obtain ⟨-, -, -, e0, e1, -⟩ := blockIdx0 t
  unfold iblk0
  rw [View.read_apply]
  show (V c main_v0 : S1x256.Idx → Elt F .f32) _ = _
  refine congrArg _ (funext fun a => Fin.ext ?_)
  match a with
  | ⟨0, _⟩ => show win0_1.index t (0 : Fin 2) * 1 + 1 * u.val = 0; omega
  | ⟨1, _⟩ => show win0_1.index t (1 : Fin 2) * 256 + 1 * q.val = q.val; omega

theorem iblk0_2_apply (c : Dev nD) (t : Fin cfg0.N) (u : Fin 1) (q : Fin 256) :
    (iblk0 V c 2 t : Vec F S1x256 .f32) (ix2 u q) = (V c main_v1 : S1x256.Idx → Elt F .f32) (ix2 (0 : Fin 1) q) := by
  obtain ⟨-, -, -, -, -, e0, e1, -⟩ := blockIdx0 t
  unfold iblk0
  rw [View.read_apply]
  show (V c main_v1 : S1x256.Idx → Elt F .f32) _ = _
  refine congrArg _ (funext fun a => Fin.ext ?_)
  match a with
  | ⟨0, _⟩ => show win0_2.index t (0 : Fin 2) * 1 + 1 * u.val = 0; omega
  | ⟨1, _⟩ => show win0_2.index t (1 : Fin 2) * 256 + 1 * q.val = q.val; omega

theorem iblk0_3_apply (c : Dev nD) (t : Fin cfg0.N) (u : Fin 1) (q : Fin 256) :
    (iblk0 V c 3 t : Vec F S1x256 .f32) (ix2 u q) = (V c main_v2 : S1x256.Idx → Elt F .f32) (ix2 (0 : Fin 1) q) := by
  obtain ⟨-, -, -, -, -, -, -, e0, e1, -⟩ := blockIdx0 t
  unfold iblk0
  rw [View.read_apply]
  show (V c main_v2 : S1x256.Idx → Elt F .f32) _ = _
  refine congrArg _ (funext fun a => Fin.ext ?_)
  match a with
  | ⟨0, _⟩ => show win0_3.index t (0 : Fin 2) * 1 + 1 * u.val = 0; omega
  | ⟨1, _⟩ => show win0_3.index t (1 : Fin 2) * 256 + 1 * q.val = q.val; omega

theorem iblk0_4_apply (c : Dev nD) (t : Fin cfg0.N) (u : Fin 1) (q : Fin 256) :
    (iblk0 V c 4 t : Vec F S1x256 .f32) (ix2 u q) = (V c main_v3 : S1x256.Idx → Elt F .f32) (ix2 (0 : Fin 1) q) := by
  obtain ⟨-, -, -, -, -, -, -, -, -, e0, e1, -⟩ := blockIdx0 t
  unfold iblk0
  rw [View.read_apply]
  show (V c main_v3 : S1x256.Idx → Elt F .f32) _ = _
  refine congrArg _ (funext fun a => Fin.ext ?_)
  match a with
  | ⟨0, _⟩ => show win0_4.index t (0 : Fin 2) * 1 + 1 * u.val = 0; omega
  | ⟨1, _⟩ => show win0_4.index t (1 : Fin 2) * 256 + 1 * q.val = q.val; omega

/-- Block `t` of any contents of the output array, read at an entry. -/
theorem oblk0_apply (c : Dev nD) (t : Fin cfg0.N) (A : Buf (Elt F) ((c : Thread nD τ).loc main_v4)) (u : Fin 1) (h : Fin 8) (p q : Fin 32)
    (b : Fin 4) (hb : b.val = t.val / 8) :
    (((cfg0.win 5).blk t).view.read (Elt F) A : Vec F S1x8x32x32 .f32) (ix4 u h p q) = (A : S4x8x32x32.Idx → Elt F .f32) (ix4 b h p q) := by
  obtain ⟨-, -, -, -, -, -, -, -, -, -, -, e0, e1, e2, e3⟩ := blockIdx0 t
  rw [View.read_apply]
  show (A : S4x8x32x32.Idx → Elt F .f32) _ = _
  refine congrArg _ (funext fun a => Fin.ext ?_)
  match a with
  | ⟨0, _⟩ => show win0_5.index t (0 : Fin 4) * 1 + 1 * u.val = b.val; omega
  | ⟨1, _⟩ => show win0_5.index t (1 : Fin 4) * 8 + 1 * h.val = h.val; omega
  | ⟨2, _⟩ => show win0_5.index t (2 : Fin 4) * 32 + 1 * p.val = p.val; omega
  | ⟨3, _⟩ => show win0_5.index t (3 : Fin 4) * 32 + 1 * q.val = q.val; omega

/-- An entry of the output array is in point `t`'s block iff each coordinate is in the block's range on its axis. -/
theorem mem_oblk0 (t : Fin cfg0.N) (i : S4x8x32x32.Idx) :
    i ∈ ((cfg0.win 5).blk t).view.set ↔ ∀ a : Fin 4, win0_5.index t a * S1x8x32x32.size a ≤ (i a).val ∧ (i a).val < win0_5.index t a * S1x8x32x32.size a + S1x8x32x32.size a := by
  show i ∈ ((View.whole main_v4).slice (win0_5.rect t)).set ↔ _
  rw [View.set_slice_whole, Rect.mem_set_unit]
  exact Iff.rfl

/-- Every entry of the output array is in the block the last point of its batch writes back. -/
theorem cover_out0 (i : S4x8x32x32.Idx) : ∃ t : Fin cfg0.N, (cfg0.win 5).flush t = true ∧ i ∈ ((cfg0.win 5).blk t).view.set := by
  have h0 : (i 0).val < 4 := (i 0).isLt
  have h1 : (i 1).val < 8 := (i 1).isLt
  have h2 : (i 2).val < 32 := (i 2).isLt
  have h3 : (i 3).val < 32 := (i 3).isLt
  have hN : cfg0.N = 32 := N_0
  let t : Fin cfg0.N := ⟨8 * (i 0).val + 7, by rw [hN]; omega⟩
  have ht : t.val = 8 * (i 0).val + 7 := rfl
  obtain ⟨-, -, -, -, -, -, -, -, -, -, -, e0, e1, e2, e3⟩ := blockIdx0 t
  refine ⟨t, (flush0_5 t).mpr (by omega), ?_⟩
  rw [mem_oblk0]
  intro a
  match a with
  | ⟨0, _⟩ => show win0_5.index t (0 : Fin 4) * 1 ≤ (i 0).val ∧ (i 0).val < win0_5.index t (0 : Fin 4) * 1 + 1; omega
  | ⟨1, _⟩ => show win0_5.index t (1 : Fin 4) * 8 ≤ (i 1).val ∧ (i 1).val < win0_5.index t (1 : Fin 4) * 8 + 8; omega
  | ⟨2, _⟩ => show win0_5.index t (2 : Fin 4) * 32 ≤ (i 2).val ∧ (i 2).val < win0_5.index t (2 : Fin 4) * 32 + 32; omega
  | ⟨3, _⟩ => show win0_5.index t (3 : Fin 4) * 32 ≤ (i 3).val ∧ (i 3).val < win0_5.index t (3 : Fin 4) * 32 + 32; omega

end Cert.KernelIdeal.Hand

end
-- ==== Proof.Kv.LibPeriodicTotal.lean ====
/-
  A running total that is reset at the start of every period.

  Steps are counted 0, 1, 2, …; a period has `p + 1` steps. At a step whose number is a multiple of `p + 1` the total is
  set to `0 + g n`; at every other step `g n` is added to what the step before left. Then at the LAST step of period
  `q` — step `(p + 1) * q + p` — the total is the sum of that period's `p + 1` terms, `∑ b, g ((p + 1) * q + b)`
  (`total_period_end`). This is what an accumulator zeroed under "first step of the sweep" and read out under "last step
  of the sweep" holds, one sweep after another on one grid. Everything is stated in a commutative additive monoid: only
  associativity and `0 + x = x` are used, so it holds on the extended reals with no finiteness assumed.
-/
import Mathlib.Algebra.BigOperators.Fin
import Mathlib.Algebra.BigOperators.Intervals

namespace Cert.LibPeriodicTotal

open Finset

variable {M : Type*} [AddCommMonoid M]

/-- The running total after step `n`: reset to `0 + g n` when `n` is a multiple of the period `p + 1`, otherwise the
    step before plus `g n`. -/
def total (p : ℕ) (g : ℕ → M) : ℕ → M
  | 0 => 0 + g 0
  | n + 1 => if (n + 1) % (p + 1) = 0 then 0 + g (n + 1) else total p g n + g (n + 1)

/-- At the first step of a period the total is `0 + g n`. -/
theorem total_reset (p : ℕ) (g : ℕ → M) (n : ℕ) (h : n % (p + 1) = 0) : total p g n = 0 + g n := by
  cases n with
  | zero => rfl
  | succ n => exact if_pos h

/-- At any other step the term is added to the step before. -/
theorem total_step (p : ℕ) (g : ℕ → M) (n : ℕ) (h : ¬(n + 1) % (p + 1) = 0) :
    total p g (n + 1) = total p g n + g (n + 1) := if_neg h

/-- Inside period `q`, after its step number `n ≤ p`, the total is the sum of the period's first `n + 1` terms. -/
theorem total_within (p : ℕ) (g : ℕ → M) (q : ℕ) :
    ∀ n, n ≤ p → total p g ((p + 1) * q + n) = ∑ i ∈ range (n + 1), g ((p + 1) * q + i)
  | 0, _ => by
    rw [total_reset p g _ (by rw [Nat.add_zero, Nat.mul_mod_right]), zero_add, sum_range_one]
  | n + 1, hn => by
    have hne : ¬((p + 1) * q + n + 1) % (p + 1) = 0 := by
      rw [Nat.add_assoc, Nat.mul_add_mod, Nat.mod_eq_of_lt (by omega)]; omega
    rw [show (p + 1) * q + (n + 1) = (p + 1) * q + n + 1 from rfl, total_step p g _ hne,
      total_within p g q n (by omega), sum_range_succ _ (n + 1)]
    rfl

/-- At the last step of period `q` the total is the sum of the period's `p + 1` terms. -/
theorem total_period_end (p : ℕ) (g : ℕ → M) (q : ℕ) :
    total p g ((p + 1) * q + p) = ∑ b : Fin (p + 1), g ((p + 1) * q + b.val) := by
  rw [total_within p g q p (Nat.le_refl p), Finset.sum_range]

end Cert.LibPeriodicTotal
-- ==== Proof.Kv.LibSumBlocks.lean ====
/-
  A sum over Fin (a * b), read in a blocks of b: position t * b + i is entry i of block t. (A product over a row-stack of a
  planes of b rows each is the sum over the planes of each plane's product; a convolution's taps packed along the contraction
  axis, tap-major, are the sum over the taps of each tap's channels.)
-/
import Mathlib.Algebra.BigOperators.Fin
import Mathlib.Logic.Equiv.Fin.Basic

namespace Cert.Lib

open scoped BigOperators

/-- BLOCKS OF A SUM: a sum over `Fin (a * b)` is the sum over the `a` blocks of the sums over each block's `b` entries, entry
    `i` of block `t` sitting at position `i + b * t`. -/
theorem sum_blocks {M : Type*} [AddCommMonoid M] (a b : Nat) (f : Fin (a * b) → M) :
    ∑ k : Fin (a * b), f k = ∑ t : Fin a, ∑ i : Fin b, f (finProdFinEquiv (t, i)) := by
  rw [← Equiv.sum_comp finProdFinEquiv f, Fintype.sum_prod_type]

/-- The position of entry `i` of block `t`. -/
theorem finProdFinEquiv_val (a b : Nat) (t : Fin a) (i : Fin b) : (finProdFinEquiv (t, i) : Fin (a * b)).val = i.val + b * t.val := rfl

/-- The same with the position spelled out, for a function given on the naturals below `a * b`. -/
theorem sum_blocks_nat {M : Type*} [AddCommMonoid M] (a b : Nat) (g : Nat → M) :
    ∑ k : Fin (a * b), g k.val = ∑ t : Fin a, ∑ i : Fin b, g (i.val + b * t.val) := by
  rw [sum_blocks a b (fun k => g k.val)]
  rfl

end Cert.Lib
-- ==== Proof.Kv.KvValue.lean ====
/-
  The array the first pass leaves, on the extended reals: at batch `b`, head `h` and entry `(d, e)` it holds the
  specification's `kv`: the sum over all 32768 tokens of the batch of the key feature at `d` times the value feature at
  `e`, divided by the token count.

  A grid point adds to the accumulator's entry the sum over its 4096 tokens; the accumulator starts from zero at the
  first point of a batch, so after the batch's eighth point the entry is the sum of the eight points' sums, which is
  the sum over the batch's tokens regrouped in blocks of 4096 (only the order and grouping of a sum change, so nothing
  is assumed finite). That point scales the accumulator into the output block and writes it back as the batch's block
  of the array; the four batches' blocks cover the array.
-/
import proofs.«173681_j5471788335757_2_alg».proof.Proof.Kv.AccValue
import proofs.«173681_j5471788335757_2_alg».proof.Proof.Kv.KvBlocks
import proofs.«173681_j5471788335757_2_alg».proof.Proof.Kv.LibPeriodicTotal
import proofs.«173681_j5471788335757_2_alg».proof.Proof.Kv.LibSumBlocks

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)
open Cert.LinAttn (chan chan_val feature row term moment kv cTokens)

variable (V : (c : Dev nD) → (b : Ref sig .tc) → Buf (Elt Ideal) ((c : Thread nD τ).loc b))

/-- The input array and the four rows of weights and biases as the pass finds them, by coordinates. -/
abbrev kvX (c : Dev nD) : Fin 4 → Fin 32768 → Fin 256 → EReal :=
  fun b n c' => (V c main_arg0 : S4x32768x256.Idx → EReal) (ix3 b n c')
abbrev kvKW (c : Dev nD) : Fin 8 → Fin 32 → EReal := fun h d => (V c main_v0 : S1x256.Idx → EReal) (ix2 0 (chan h d))
abbrev kvKB (c : Dev nD) : Fin 8 → Fin 32 → EReal := fun h d => (V c main_v1 : S1x256.Idx → EReal) (ix2 0 (chan h d))
abbrev kvVW (c : Dev nD) : Fin 8 → Fin 32 → EReal := fun h d => (V c main_v2 : S1x256.Idx → EReal) (ix2 0 (chan h d))
abbrev kvVB (c : Dev nD) : Fin 8 → Fin 32 → EReal := fun h d => (V c main_v3 : S1x256.Idx → EReal) (ix2 0 (chan h d))

theorem term_congr (X : Fin 4 → Fin 32768 → Fin 256 → EReal) (KW KB VW VB : Fin 8 → Fin 32 → EReal) (h : Fin 8) (d e : Fin 32)
    {b b' : Fin 4} {n n' : Fin 32768} (hb : b = b') (hn : n = n') :
    term X KW KB VW VB b h d e n = term X KW KB VW VB b' h d e n' := by subst hb hn; rfl

/-- What grid point `t` adds to the entry `(d, e)` of head `h`: the sum over the point's 4096 tokens. -/
def pointSum (c : Dev nD) (h : Fin 8) (d e : Fin 32) (t : ℕ) : EReal :=
  if ht : t < 32 then
    ∑ j : Fin 4096, term (kvX V c) (kvKW V c) (kvKB V c) (kvVW V c) (kvVB V c) ⟨t / 8, by omega⟩ h d e
      ⟨4096 * (t % 8) + j.val, by have := j.isLt; omega⟩
  else 0

/-- The accumulator after point `t`, at an entry, from what it held. -/
theorem accNext_point (c : Dev nD) (t : Fin cfg0.N) (before : Vec Ideal S8x32x32 .f32) (h : Fin 8) (d e : Fin 32) :
    accNext (iblk0 V c 0 t) (iblk0 V c 1 t) (iblk0 V c 2 t) (iblk0 V c 3 t) (iblk0 V c 4 t) before (ix3 h d e)
      = before (ix3 h d e) + pointSum V c h d e t.val := by
  have hN : cfg0.N = 32 := N_0
  have ht : t.val < 32 := by have := t.isLt; omega
  rw [accNext_apply]
  unfold pointSum
  rw [dif_pos ht]
  refine congrArg₂ (· + ·) rfl (Finset.sum_congr rfl fun j _ => ?_)
  have hj : j.val < 4096 := j.isLt
  have hx : (fun k => (iblk0 V c 0 t : Vec Ideal S1x4096x256 .f32) (ix3 (0 : Fin 1) j (chan h k)))
      = row (kvX V c) ⟨t.val / 8, by omega⟩ h ⟨4096 * (t.val % 8) + j.val, by omega⟩ :=
    funext fun k => iblk0_0_apply V c t 0 j (chan h k) ⟨t.val / 8, by omega⟩ ⟨4096 * (t.val % 8) + j.val, by omega⟩ rfl rfl
  have h1 : (fun k => (iblk0 V c 1 t : Vec Ideal S1x256 .f32) (ix2 (0 : Fin 1) (chan h k))) = kvKW V c h :=
    funext fun k => iblk0_1_apply V c t 0 (chan h k)
  have h2 : (fun k => (iblk0 V c 2 t : Vec Ideal S1x256 .f32) (ix2 (0 : Fin 1) (chan h k))) = kvKB V c h :=
    funext fun k => iblk0_2_apply V c t 0 (chan h k)
  have h3 : (fun k => (iblk0 V c 3 t : Vec Ideal S1x256 .f32) (ix2 (0 : Fin 1) (chan h k))) = kvVW V c h :=
    funext fun k => iblk0_3_apply V c t 0 (chan h k)
  have h4 : (fun k => (iblk0 V c 4 t : Vec Ideal S1x256 .f32) (ix2 (0 : Fin 1) (chan h k))) = kvVB V c h :=
    funext fun k => iblk0_4_apply V c t 0 (chan h k)
  rw [hx, h1, h2, h3, h4]
  rfl

/-- The accumulator after the point at position `t` is the running total of the points' sums, started again at every
    multiple of 8. -/
theorem accAt_total (c : Dev nD) (h : Fin 8) (d e : Fin 32) :
    ∀ (t : ℕ) (ht : t < cfg0.N), accAt V c t ht (ix3 h d e) = Cert.LibPeriodicTotal.total 7 (pointSum V c h d e) t
  | 0, ht => by
    refine (congrFun (accAt_first V c ⟨0, ht⟩ rfl) (ix3 h d e)).trans ?_
    rw [accNext_point, zerosAcc_apply]
    rfl
  | t + 1, ht => by
    by_cases hm : (t + 1) % 8 = 0
    · refine (congrFun (accAt_first V c ⟨t + 1, ht⟩ hm) (ix3 h d e)).trans ?_
      rw [accNext_point, zerosAcc_apply]
      exact (Cert.LibPeriodicTotal.total_reset 7 _ (t + 1) hm).symm
    · refine (congrFun (accAt_next V c ⟨t + 1, ht⟩ hm) (ix3 h d e)).trans ?_
      rw [accNext_point]
      refine Eq.trans ?_ (Cert.LibPeriodicTotal.total_step 7 _ t hm).symm
      exact congrArg (· + pointSum V c h d e (t + 1)) (accAt_total c h d e t (Nat.lt_of_succ_lt ht))

/-- After the last point of batch `b` the running total is the sum over the batch's tokens. -/
theorem batch_total (c : Dev nD) (b : Fin 4) (h : Fin 8) (d e : Fin 32) :
    Cert.LibPeriodicTotal.total 7 (pointSum V c h d e) (8 * b.val + 7)
      = moment (kvX V c) (kvKW V c) (kvKB V c) (kvVW V c) (kvVB V c) b h d e := by
  have hb : b.val < 4 := b.isLt
  refine (Cert.LibPeriodicTotal.total_period_end 7 (pointSum V c h d e) b.val).trans ?_
  unfold moment
  refine Eq.trans ?_ (Cert.Lib.sum_blocks 8 4096 (fun n : Fin (8 * 4096) =>
    term (kvX V c) (kvKW V c) (kvKB V c) (kvVW V c) (kvVB V c) b h d e n)).symm
  refine Finset.sum_congr rfl fun k _ => ?_
  have hk : k.val < 8 := k.isLt
  unfold pointSum
  rw [dif_pos (by omega)]
  refine Finset.sum_congr rfl fun j _ => ?_
  have hj : j.val < 4096 := j.isLt
  exact term_congr _ _ _ _ _ h d e (Fin.ext (by show ((7 + 1) * b.val + k.val) / 8 = b.val; omega))
    (Fin.ext (by show 4096 * (((7 + 1) * b.val + k.val) % 8) + j.val = j.val + 4096 * k.val; omega))

/-- The array the pass leaves, as one function of the index. -/
def kvArr (c : Dev nD) : S4x8x32x32.Idx → EReal := fun i =>
  kv (kvX V c) (kvKW V c) (kvKB V c) (kvVW V c) (kvVB V c) ⟨(i 0).val, (i 0).isLt⟩ ⟨(i 1).val, (i 1).isLt⟩
    ⟨(i 2).val, (i 2).isLt⟩ ⟨(i 3).val, (i 3).isLt⟩

theorem kvArr_apply (c : Dev nD) (b : Fin 4) (h : Fin 8) (d e : Fin 32) :
    kvArr V c (ix4 b h d e) = kv (kvX V c) (kvKW V c) (kvKB V c) (kvVW V c) (kvVB V c) b h d e := rfl

/-- What the last point of a batch writes back is the batch's block of that array. -/
theorem flushed0_eq (c : Dev nD) (t : Fin cfg0.N) (hf : (cfg0.win 5).flush t = true) :
    (dat0 (F := Ideal) V c).flushed 5 t = ((cfg0.win 5).blk t).view.read (Elt Ideal) (kvArr V c) := by
  have h7 : t.val % 8 = 7 := (flush0_5 t).mp hf
  have hN : cfg0.N = 32 := N_0
  have ht : t.val < 32 := by have := t.isLt; omega
  show (cfg0.win 5).cut (grid0.coords t) ((dat0 V c).after 5 t) = _
  rw [after0_5]
  funext j
  obtain ⟨u, h, d, e, rfl⟩ : ∃ (u : Fin 1) (h : Fin 8) (d e : Fin 32), j = ix4 u h d e := ⟨j 0, j 1, j 2, j 3, eq_ix4 j⟩
  refine (scaled_apply _ u h d e).trans ?_
  refine Eq.trans ?_ (oblk0_apply (F := Ideal) c t (kvArr V c) u h d e ⟨t.val / 8, by omega⟩ rfl).symm
  rw [kvArr_apply, accAt_total V c h d e t.val t.isLt, mul_invTokens]
  unfold kv
  refine congrArg (fun x => Ideal.div x cTokens) ?_
  exact (congrArg (Cert.LibPeriodicTotal.total 7 (pointSum V c h d e)) (show t.val = 8 * (t.val / 8) + 7 by omega)).trans
    (batch_total V c ⟨t.val / 8, by omega⟩ h d e)

/-- The array after the pass, at an entry. -/
theorem final0 (c : Dev nD) (b : Fin 4) (h : Fin 8) (d e : Fin 32) :
    (dat0 (F := Ideal) V c).arrAt 5 cfg0.N (ValueIdx.ix4 b h d e)
      = Cert.LinAttn.kv (fun b n c' => (V c main_arg0 : S4x32768x256.Idx → EReal) (ValueIdx.ix3 b n c'))
          (fun h d => (V c main_v0 : S1x256.Idx → EReal) (ValueIdx.ix2 0 (Cert.LinAttn.chan h d))) (fun h d => (V c main_v1 : S1x256.Idx → EReal) (ValueIdx.ix2 0 (Cert.LinAttn.chan h d)))
          (fun h d => (V c main_v2 : S1x256.Idx → EReal) (ValueIdx.ix2 0 (Cert.LinAttn.chan h d))) (fun h d => (V c main_v3 : S1x256.Idx → EReal) (ValueIdx.ix2 0 (Cert.LinAttn.chan h d))) b h d e := by
  rw [(dat0 V c).arrAt_eq_of_cover 5 (kvArr V c) (fun t hf => flushed0_eq V c t hf) cover_out0]
  exact kvArr_apply V c b h d e

end Cert.KernelIdeal.Hand

end
-- ==== Proof.Kv.Weights.lean ====
/-
  The four parameter arrays as the first pass receives them. Each has shape [8, 1, 32] (head, a unit axis, column)
  and is re-laid as one row of 256 channels before the pass: channel `chan h d` of the row is the entry of head `h`
  at column `d`, because both are the entry at row-major position 32 h + d.
-/
import proofs.«173681_j5471788335757_2_alg».proof.KernelIdeal
import proofs.«173681_j5471788335757_2_alg».proof.Proof.Spec
import Idealize.ShloMosaic.Lib.Pipeline.Value

noncomputable section

namespace Cert.KernelIdeal.Hand

open Cert.KernelIdeal Idealize.ShloMosaic Idealize.ShloMosaic.ValueIdx Cert.LinAttn

theorem paramRow_apply {α : Type} (a : S8x1x32.Idx → α) (h : S8x1x32.ShapeCasts S1x256) (hd : Fin 8) (d : Fin 32) :
    shapeCast S1x256 a h (ix2 (0 : Fin 1) (chan hd d)) = a (ix3 hd (0 : Fin 1) d) := by
  refine shapeCast_apply a h _ (ix3 hd (0 : Fin 1) d) ?_
  rw [Shape.rowMajor_val_three, Shape.rowMajor_val_two]
  show (hd.val * 1 + 0) * 32 + d.val = 0 * 256 + (hd.val * 32 + d.val)
  omega

end Cert.KernelIdeal.Hand

end
-- ==== Proof.Ref.Stages.lean ====
/-
  The reference computation, written as whole-array stages over the extended reals.

  The input `[batch, token, channel]` is re-laid as `[batch, head, token, column]` (`heads`). For every row of 32
  columns the mean is the row sum divided by 32 (`rowMean`); the sample variance is the sum of squared deviations
  from that mean divided by `32 - 1`, guarded by a test that the divisor is positive (`rowVar`); the deviation
  is its square root (`rowStd`). A row is centred, divided by its deviation plus a small constant (`normedAll`),
  then scaled and shifted per head and column (`featAll`). Two such feature arrays are contracted over the tokens
  and divided by the token count (`kvAll`); the raw rows are multiplied by that 32 × 32 matrix (`attnAll`), and the
  product, re-laid as `[batch, token, channel]`, is added to the input (`result`).
-/
import proofs.«173681_j5471788335757_2_alg».proof.Proof.Gen.ReferenceIdeal
import Idealize.ShloMosaic.PureOps.Ideal

noncomputable section

namespace Cert.ReferenceIdeal.RefValue

open Cert.ReferenceIdeal Cert.ReferenceIdeal.Gen Idealize.ShloMosaic

/-- A scalar constant spread over one entry per row. -/
def perRow (w : BitVec 32) : FVec Ideal S4x8x32768x1 .f32 :=
  broadcastInDim S4x8x32768x1 ![] bcast_S_S4x8x32768x1 (constant (F := Ideal) S_ .f32 w)

/-- A one-entry-per-row array repeated along the 32 columns. -/
def alongRow (x : FVec Ideal S4x8x32768x1 .f32) : FVec Ideal S4x8x32768x32 .f32 :=
  broadcastInDim S4x8x32768x32 ![0, 1, 2, 3] bcast_S4x8x32768x1_S4x8x32768x32_0_1_2_3 x

/-- The sum of every row, one entry per row. -/
def rowSum (x : FVec Ideal S4x8x32768x32 .f32) : FVec Ideal S4x8x32768x1 .f32 :=
  broadcastInDim S4x8x32768x1 ![0, 1, 2] bcast_S4x8x32768_S4x8x32768x1_0_1_2
    (Host.reduceAdd (F := Ideal) x (constant (F := Ideal) S_ .f32 0x00000000#32) reducesTo_S4x8x32768x32_S4x8x32768_d3 h_S_)

/-- `[batch, token, channel]` re-laid as `[batch, head, token, column]`. -/
def heads (a0 : FVec Ideal S4x32768x256 .f32) : FVec Ideal S4x8x32768x32 .f32 :=
  transpose S4x8x32768x32 [0, 2, 1, 3] (shapeCast S4x32768x8x32 a0 shapeCasts_S4x32768x256_S4x32768x8x32)
    transposes_S4x32768x8x32_S4x8x32768x32_0_2_1_3

/-- Every row's mean: its sum divided by 32. -/
def rowMean (x : FVec Ideal S4x8x32768x32 .f32) : FVec Ideal S4x8x32768x1 .f32 :=
  Host.divf (F := Ideal) (rowSum x) (perRow 0x42000000#32)

/-- The divisor of the sample variance: 32 minus the integer 1 read as a float. -/
def divisor : FVec Ideal S_ .f32 :=
  subf (F := Ideal) (constant (F := Ideal) S_ .f32 0x42000000#32) (sitofp (F := Ideal) .f32 (constantI S_ 32 1#32))

/-- Every entry's deviation from its row's mean. -/
def devAll (x : FVec Ideal S4x8x32768x32 .f32) : FVec Ideal S4x8x32768x32 .f32 :=
  subf (F := Ideal) x (alongRow (rowMean x))

/-- Every row's sample variance: where the divisor is positive the sum of squared deviations over the divisor,
    elsewhere the not-a-number pattern. -/
def rowVar (x : FVec Ideal S4x8x32768x32 .f32) : FVec Ideal S4x8x32768x1 .f32 :=
  select (broadcastInDim S4x8x32768x1 ![] bcast_S_S4x8x32768x1
      (cmpf (F := Ideal) .ogt divisor (constant (F := Ideal) S_ .f32 0x00000000#32)))
    (Host.divf (F := Ideal) (rowSum (mulf (F := Ideal) (devAll x) (devAll x)))
      (broadcastInDim S4x8x32768x1 ![] bcast_S_S4x8x32768x1 divisor))
    (broadcastInDim S4x8x32768x1 ![] bcast_S_S4x8x32768x1 (constant (F := Ideal) S_ .f32 0x7FC00000#32))

/-- Every row's sample standard deviation. -/
def rowStd (x : FVec Ideal S4x8x32768x32 .f32) : FVec Ideal S4x8x32768x1 .f32 :=
  Host.sqrt (F := Ideal) (rowVar x)

/-- Every entry centred and divided by its row's deviation plus the small constant. -/
def normedAll (x : FVec Ideal S4x8x32768x32 .f32) : FVec Ideal S4x8x32768x32 .f32 :=
  Host.divf (F := Ideal) (subf (F := Ideal) x (alongRow (rowMean x)))
    (alongRow (addf (F := Ideal) (rowStd x) (perRow 0x3727C5AC#32)))

/-- A per-head, per-column parameter repeated over batches and tokens. -/
def perHead (w : FVec Ideal S8x1x32 .f32) : FVec Ideal S4x8x32768x32 .f32 :=
  broadcastInDim S4x8x32768x32 ![0, 1, 2, 3] bcast_S1x8x1x32_S4x8x32768x32_0_1_2_3
    (broadcastInDim S1x8x1x32 ![1, 2, 3] bcast_S8x1x32_S1x8x1x32_1_2_3 w)

/-- The normalised rows scaled by a weight and shifted by a bias. -/
def featAll (x : FVec Ideal S4x8x32768x32 .f32) (w b : FVec Ideal S8x1x32 .f32) : FVec Ideal S4x8x32768x32 .f32 :=
  addf (F := Ideal) (mulf (F := Ideal) (perHead w) (normedAll x)) (perHead b)

/-- The key and value features contracted over the tokens, divided by the token count. -/
def kvAll (x : FVec Ideal S4x8x32768x32 .f32) (a1 a2 a3 a4 : FVec Ideal S8x1x32 .f32) : FVec Ideal S4x8x32x32 .f32 :=
  Host.divf (F := Ideal)
    (Host.dotGeneral (F := Ideal) dot_S4x8x32768x32_S4x8x32768x32_S4x8x32x32_2_2_3_3_01_01 none (featAll x a1 a2) (featAll x a3 a4))
    (broadcastInDim S4x8x32x32 ![] bcast_S_S4x8x32x32 (constant (F := Ideal) S_ .f32 0x47000000#32))

/-- The raw rows multiplied by the 32 × 32 matrix of their batch and head. -/
def attnAll (x : FVec Ideal S4x8x32768x32 .f32) (kv : FVec Ideal S4x8x32x32 .f32) : FVec Ideal S4x8x32768x32 .f32 :=
  Host.dotGeneral (F := Ideal) dot_S4x8x32768x32_S4x8x32x32_S4x8x32768x32_3_2_2_3_01_01 none x kv

/-- `[batch, head, token, column]` re-laid as `[batch, token, channel]`. -/
def unheads (y : FVec Ideal S4x8x32768x32 .f32) : FVec Ideal S4x32768x256 .f32 :=
  shapeCast S4x32768x256 (transpose S4x32768x8x32 [0, 2, 1, 3] y transposes_S4x8x32768x32_S4x32768x8x32_0_2_1_3)
    shapeCasts_S4x32768x8x32_S4x32768x256

/-- The whole reference: the re-laid product added to the input. -/
def result (a0 : FVec Ideal S4x32768x256 .f32) (a1 a2 a3 a4 : FVec Ideal S8x1x32 .f32) : FVec Ideal S4x32768x256 .f32 :=
  addf (F := Ideal) (unheads (attnAll (heads a0) (kvAll (heads a0) a1 a2 a3 a4))) a0

end Cert.ReferenceIdeal.RefValue

end
-- ==== Proof.Ref.Run.lean ====
/-
  The reference program's run. Its entry function is a straight line of host operations once the three
  helper functions it calls (the deviation, the variance under it, and the guarded quotient under that) are
  opened at their two call sites: ninety-eight operations, listed here in program order over the buffers each
  call names. Every weakly fair execution of that line terminates, leaves the five argument arrays as they were,
  and leaves in the result buffer the composition `result` of the whole-array stages applied to the arguments.
-/
import proofs.«173681_j5471788335757_2_alg».proof.Proof.Ref.Stages
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The entry function's operations in order, each helper's operations in place of its call. -/
abbrev ops : List (HloOp τ sig (Elt F)) :=
  [ StableHlo.reshape main_arg0 main_v0 rfl shapeCasts_S4x32768x256_S4x32768x8x32,
    StableHlo.unary main_v0 main_v1 ((transpose S4x8x32768x32 [0, 2, 1, 3] · transposes_S4x32768x8x32_S4x8x32768x32_0_2_1_3) : (⟨S4x32768x8x32, .f32⟩ : BufTy).Contents (Elt F) → (⟨S4x8x32768x32, .f32⟩ : BufTy).Contents (Elt F)),
    StableHlo.nullary main_cst (constant S_ .f32 0x00000000#32),
    StableHlo.binary main_v1 main_cst main_v2 ((fun x v => Host.reduceAdd x v reducesTo_S4x8x32768x32_S4x8x32768_d3 h_S_) : (⟨S4x8x32768x32, .f32⟩ : BufTy).Contents (Elt F) → (⟨S_, .f32⟩ : BufTy).Contents (Elt F) → (⟨S4x8x32768, .f32⟩ : BufTy).Contents (Elt F)),
    StableHlo.unary main_v2 main_v3 (broadcastInDim S4x8x32768x1 ![0, 1, 2] bcast_S4x8x32768_S4x8x32768x1_0_1_2 : (⟨S4x8x32768, .f32⟩ : BufTy).Contents (Elt F) → (⟨S4x8x32768x1, .f32⟩ : BufTy).Contents (Elt F)),
    StableHlo.nullary main_cst_0 (constant S_ .f32 0x42000000#32),
    StableHlo.unary main_cst_0 main_v4 (broadcastInDim S4x8x32768x1 ![] bcast_S_S4x8x32768x1 : (⟨S_, .f32⟩ : BufTy).Contents (Elt F) → (⟨S4x8x32768x1, .f32⟩ : BufTy).Contents (Elt F)),
    StableHlo.binary main_v3 main_v4 main_v5 (Host.divf : (⟨S4x8x32768x1, .f32⟩ : BufTy).Contents (Elt F) → (⟨S4x8x32768x1, .f32⟩ : BufTy).Contents (Elt F) → (⟨S4x8x32768x1, .f32⟩ : BufTy).Contents (Elt F)),
    StableHlo.nullary main_c (constantI S_ 32 1#32),
    StableHlo.TRef.nullary main_call0.call0.cst (constant S_ .f32 0x00000000#32),
    StableHlo.TRef.binary (StableHlo.TRef.of main_v1 : StableHlo.TRef sig ⟨S4x8x32768x32, .f32⟩) main_call0.call0.cst main_call0.call0.v0 (fun x v => Host.reduceAdd x v reducesTo_S4x8x32768x32_S4x8x32768_d3 h_S_),
    StableHlo.TRef.unary main_call0.call0.v0 main_call0.call0.v1 (broadcastInDim S4x8x32768x1 ![0, 1, 2] bcast_S4x8x32768_S4x8x32768x1_0_1_2),
    StableHlo.TRef.nullary main_call0.call0.cst_0 (constant S_ .f32 0x42000000#32),
    StableHlo.TRef.unary main_call0.call0.cst_0 main_call0.call0.v2 (broadcastInDim S4x8x32768x1 ![] bcast_S_S4x8x32768x1),
    StableHlo.TRef.binary main_call0.call0.v1 main_call0.call0.v2 main_call0.call0.v3 Host.divf,
    StableHlo.TRef.unary main_call0.call0.v3 main_call0.call0.v4 (broadcastInDim S4x8x32768x32 ![0, 1, 2, 3] bcast_S4x8x32768x1_S4x8x32768x32_0_1_2_3),
    StableHlo.TRef.binary (StableHlo.TRef.of main_v1 : StableHlo.TRef sig ⟨S4x8x32768x32, .f32⟩) main_call0.call0.v4 main_call0.call0.v5 subf,
    StableHlo.TRef.binary main_call0.call0.v5 main_call0.call0.v5 main_call0.call0.v6 mulf,
    StableHlo.TRef.unary (StableHlo.TRef.of main_c : StableHlo.TRef sig ⟨S_, .i32⟩) main_call0.call0.v7 (sitofp .f32),
    StableHlo.TRef.nullary main_call0.call0.cst_1 (constant S_ .f32 0x42000000#32),
    StableHlo.TRef.binary main_call0.call0.cst_1 main_call0.call0.v7 main_call0.call0.v8 subf,
    StableHlo.TRef.nullary main_call0.call0.cst_2 (constant S_ .f32 0x00000000#32),
    StableHlo.TRef.binary main_call0.call0.v6 main_call0.call0.cst_2 main_call0.call0.v9 (fun x v => Host.reduceAdd x v reducesTo_S4x8x32768x32_S4x8x32768_d3 h_S_),
    StableHlo.TRef.unary main_call0.call0.v9 main_call0.call0.v10 (broadcastInDim S4x8x32768x1 ![0, 1, 2] bcast_S4x8x32768_S4x8x32768x1_0_1_2),
    StableHlo.TRef.unary main_call0.call0.v8 main_call0.call0.v11 (broadcastInDim S4x8x32768x1 ![] bcast_S_S4x8x32768x1),
    StableHlo.TRef.binary main_call0.call0.v10 main_call0.call0.v11 main_call0.call0.v12 Host.divf,
    StableHlo.TRef.nullary main_call0.call0.cst_3 (constant S_ .f32 0x00000000#32),
    StableHlo.TRef.binary main_call0.call0.v8 main_call0.call0.cst_3 main_call0.call0.v13 (cmpf .ogt),
    StableHlo.TRef.nullary main_call0.call0.cst_4 (constant S_ .f32 0x7FC00000#32),
    StableHlo.TRef.unary main_call0.call0.cst_4 main_call0.call0.call0.v0 id,
    StableHlo.TRef.unary main_call0.call0.call0.v0 main_call0.call0.call0.v1 (broadcastInDim S4x8x32768x1 ![] bcast_S_S4x8x32768x1),
    StableHlo.TRef.ternary main_call0.call0.v13 main_call0.call0.v12 main_call0.call0.call0.v1 main_call0.call0.call0.v2 (fun p a b => select (broadcastInDim S4x8x32768x1 ![] bcast_S_S4x8x32768x1 p) a b),
    StableHlo.TRef.unary main_call0.call0.call0.v2 main_call0.v1 Host.sqrt,
    StableHlo.unary main_v5 main_v7 (broadcastInDim S4x8x32768x32 ![0, 1, 2, 3] bcast_S4x8x32768x1_S4x8x32768x32_0_1_2_3 : (⟨S4x8x32768x1, .f32⟩ : BufTy).Contents (Elt F) → (⟨S4x8x32768x32, .f32⟩ : BufTy).Contents (Elt F)),
    StableHlo.binary main_v1 main_v7 main_v8 (subf : (⟨S4x8x32768x32, .f32⟩ : BufTy).Contents (Elt F) → (⟨S4x8x32768x32, .f32⟩ : BufTy).Contents (Elt F) → (⟨S4x8x32768x32, .f32⟩ : BufTy).Contents (Elt F)),
    StableHlo.nullary main_cst_1 (constant S_ .f32 0x3727C5AC#32),
    StableHlo.unary main_cst_1 main_v9 (broadcastInDim S4x8x32768x1 ![] bcast_S_S4x8x32768x1 : (⟨S_, .f32⟩ : BufTy).Contents (Elt F) → (⟨S4x8x32768x1, .f32⟩ : BufTy).Contents (Elt F)),
    StableHlo.binary main_v6 main_v9 main_v10 (addf : (⟨S4x8x32768x1, .f32⟩ : BufTy).Contents (Elt F) → (⟨S4x8x32768x1, .f32⟩ : BufTy).Contents (Elt F) → (⟨S4x8x32768x1, .f32⟩ : BufTy).Contents (Elt F)),
    StableHlo.unary main_v10 main_v11 (broadcastInDim S4x8x32768x32 ![0, 1, 2, 3] bcast_S4x8x32768x1_S4x8x32768x32_0_1_2_3 : (⟨S4x8x32768x1, .f32⟩ : BufTy).Contents (Elt F) → (⟨S4x8x32768x32, .f32⟩ : BufTy).Contents (Elt F)),
    StableHlo.binary main_v8 main_v11 main_v12 (Host.divf : (⟨S4x8x32768x32, .f32⟩ : BufTy).Contents (Elt F) → (⟨S4x8x32768x32, .f32⟩ : BufTy).Contents (Elt F) → (⟨S4x8x32768x32, .f32⟩ : BufTy).Contents (Elt F)),
    StableHlo.unary main_arg1 main_v13 (broadcastInDim S1x8x1x32 ![1, 2, 3] bcast_S8x1x32_S1x8x1x32_1_2_3 : (⟨S8x1x32, .f32⟩ : BufTy).Contents (Elt F) → (⟨S1x8x1x32, .f32⟩ : BufTy).Contents (Elt F)),
    StableHlo.unary main_v13 main_v14 (broadcastInDim S4x8x32768x32 ![0, 1, 2, 3] bcast_S1x8x1x32_S4x8x32768x32_0_1_2_3 : (⟨S1x8x1x32, .f32⟩ : BufTy).Contents (Elt F) → (⟨S4x8x32768x32, .f32⟩ : BufTy).Contents (Elt F)),
    StableHlo.binary main_v14 main_v12 main_v15 (mulf : (⟨S4x8x32768x32, .f32⟩ : BufTy).Contents (Elt F) → (⟨S4x8x32768x32, .f32⟩ : BufTy).Contents (Elt F) → (⟨S4x8x32768x32, .f32⟩ : BufTy).Contents (Elt F)),
    StableHlo.unary main_arg2 main_v16 (broadcastInDim S1x8x1x32 ![1, 2, 3] bcast_S8x1x32_S1x8x1x32_1_2_3 : (⟨S8x1x32, .f32⟩ : BufTy).Contents (Elt F) → (⟨S1x8x1x32, .f32⟩ : BufTy).Contents (Elt F)),
    StableHlo.unary main_v16 main_v17 (broadcastInDim S4x8x32768x32 ![0, 1, 2, 3] bcast_S1x8x1x32_S4x8x32768x32_0_1_2_3 : (⟨S1x8x1x32, .f32⟩ : BufTy).Contents (Elt F) → (⟨S4x8x32768x32, .f32⟩ : BufTy).Contents (Elt F)),
    StableHlo.binary main_v15 main_v17 main_v18 (addf : (⟨S4x8x32768x32, .f32⟩ : BufTy).Contents (Elt F) → (⟨S4x8x32768x32, .f32⟩ : BufTy).Contents (Elt F) → (⟨S4x8x32768x32, .f32⟩ : BufTy).Contents (Elt F)),
    StableHlo.nullary main_cst_2 (constant S_ .f32 0x00000000#32),
    StableHlo.binary main_v1 main_cst_2 main_v19 ((fun x v => Host.reduceAdd x v reducesTo_S4x8x32768x32_S4x8x32768_d3 h_S_) : (⟨S4x8x32768x32, .f32⟩ : BufTy).Contents (Elt F) → (⟨S_, .f32⟩ : BufTy).Contents (Elt F) → (⟨S4x8x32768, .f32⟩ : BufTy).Contents (Elt F)),
    StableHlo.unary main_v19 main_v20 (broadcastInDim S4x8x32768x1 ![0, 1, 2] bcast_S4x8x32768_S4x8x32768x1_0_1_2 : (⟨S4x8x32768, .f32⟩ : BufTy).Contents (Elt F) → (⟨S4x8x32768x1, .f32⟩ : BufTy).Contents (Elt F)),
    StableHlo.nullary main_cst_3 (constant S_ .f32 0x42000000#32),
    StableHlo.unary main_cst_3 main_v21 (broadcastInDim S4x8x32768x1 ![] bcast_S_S4x8x32768x1 : (⟨S_, .f32⟩ : BufTy).Contents (Elt F) → (⟨S4x8x32768x1, .f32⟩ : BufTy).Contents (Elt F)),
    StableHlo.binary main_v20 main_v21 main_v22 (Host.divf : (⟨S4x8x32768x1, .f32⟩ : BufTy).Contents (Elt F) → (⟨S4x8x32768x1, .f32⟩ : BufTy).Contents (Elt F) → (⟨S4x8x32768x1, .f32⟩ : BufTy).Contents (Elt F)),
    StableHlo.nullary main_c_4 (constantI S_ 32 1#32),
    StableHlo.TRef.nullary main_call1.call0.cst (constant S_ .f32 0x00000000#32),
    StableHlo.TRef.binary (StableHlo.TRef.of main_v1 : StableHlo.TRef sig ⟨S4x8x32768x32, .f32⟩) main_call1.call0.cst main_call1.call0.v0 (fun x v => Host.reduceAdd x v reducesTo_S4x8x32768x32_S4x8x32768_d3 h_S_),
    StableHlo.TRef.unary main_call1.call0.v0 main_call1.call0.v1 (broadcastInDim S4x8x32768x1 ![0, 1, 2] bcast_S4x8x32768_S4x8x32768x1_0_1_2),
    StableHlo.TRef.nullary main_call1.call0.cst_0 (constant S_ .f32 0x42000000#32),
    StableHlo.TRef.unary main_call1.call0.cst_0 main_call1.call0.v2 (broadcastInDim S4x8x32768x1 ![] bcast_S_S4x8x32768x1),
    StableHlo.TRef.binary main_call1.call0.v1 main_call1.call0.v2 main_call1.call0.v3 Host.divf,
    StableHlo.TRef.unary main_call1.call0.v3 main_call1.call0.v4 (broadcastInDim S4x8x32768x32 ![0, 1, 2, 3] bcast_S4x8x32768x1_S4x8x32768x32_0_1_2_3),
    StableHlo.TRef.binary (StableHlo.TRef.of main_v1 : StableHlo.TRef sig ⟨S4x8x32768x32, .f32⟩) main_call1.call0.v4 main_call1.call0.v5 subf,
    StableHlo.TRef.binary main_call1.call0.v5 main_call1.call0.v5 main_call1.call0.v6 mulf,
    StableHlo.TRef.unary (StableHlo.TRef.of main_c_4 : StableHlo.TRef sig ⟨S_, .i32⟩) main_call1.call0.v7 (sitofp .f32),
    StableHlo.TRef.nullary main_call1.call0.cst_1 (constant S_ .f32 0x42000000#32),
    StableHlo.TRef.binary main_call1.call0.cst_1 main_call1.call0.v7 main_call1.call0.v8 subf,
    StableHlo.TRef.nullary main_call1.call0.cst_2 (constant S_ .f32 0x00000000#32),
    StableHlo.TRef.binary main_call1.call0.v6 main_call1.call0.cst_2 main_call1.call0.v9 (fun x v => Host.reduceAdd x v reducesTo_S4x8x32768x32_S4x8x32768_d3 h_S_),
    StableHlo.TRef.unary main_call1.call0.v9 main_call1.call0.v10 (broadcastInDim S4x8x32768x1 ![0, 1, 2] bcast_S4x8x32768_S4x8x32768x1_0_1_2),
    StableHlo.TRef.unary main_call1.call0.v8 main_call1.call0.v11 (broadcastInDim S4x8x32768x1 ![] bcast_S_S4x8x32768x1),
    StableHlo.TRef.binary main_call1.call0.v10 main_call1.call0.v11 main_call1.call0.v12 Host.divf,
    StableHlo.TRef.nullary main_call1.call0.cst_3 (constant S_ .f32 0x00000000#32),
    StableHlo.TRef.binary main_call1.call0.v8 main_call1.call0.cst_3 main_call1.call0.v13 (cmpf .ogt),
    StableHlo.TRef.nullary main_call1.call0.cst_4 (constant S_ .f32 0x7FC00000#32),
    StableHlo.TRef.unary main_call1.call0.cst_4 main_call1.call0.call0.v0 id,
    StableHlo.TRef.unary main_call1.call0.call0.v0 main_call1.call0.call0.v1 (broadcastInDim S4x8x32768x1 ![] bcast_S_S4x8x32768x1),
    StableHlo.TRef.ternary main_call1.call0.v13 main_call1.call0.v12 main_call1.call0.call0.v1 main_call1.call0.call0.v2 (fun p a b => select (broadcastInDim S4x8x32768x1 ![] bcast_S_S4x8x32768x1 p) a b),
    StableHlo.TRef.unary main_call1.call0.call0.v2 main_call1.v1 Host.sqrt,
    StableHlo.unary main_v22 main_v24 (broadcastInDim S4x8x32768x32 ![0, 1, 2, 3] bcast_S4x8x32768x1_S4x8x32768x32_0_1_2_3 : (⟨S4x8x32768x1, .f32⟩ : BufTy).Contents (Elt F) → (⟨S4x8x32768x32, .f32⟩ : BufTy).Contents (Elt F)),
    StableHlo.binary main_v1 main_v24 main_v25 (subf : (⟨S4x8x32768x32, .f32⟩ : BufTy).Contents (Elt F) → (⟨S4x8x32768x32, .f32⟩ : BufTy).Contents (Elt F) → (⟨S4x8x32768x32, .f32⟩ : BufTy).Contents (Elt F)),
    StableHlo.nullary main_cst_5 (constant S_ .f32 0x3727C5AC#32),
    StableHlo.unary main_cst_5 main_v26 (broadcastInDim S4x8x32768x1 ![] bcast_S_S4x8x32768x1 : (⟨S_, .f32⟩ : BufTy).Contents (Elt F) → (⟨S4x8x32768x1, .f32⟩ : BufTy).Contents (Elt F)),
    StableHlo.binary main_v23 main_v26 main_v27 (addf : (⟨S4x8x32768x1, .f32⟩ : BufTy).Contents (Elt F) → (⟨S4x8x32768x1, .f32⟩ : BufTy).Contents (Elt F) → (⟨S4x8x32768x1, .f32⟩ : BufTy).Contents (Elt F)),
    StableHlo.unary main_v27 main_v28 (broadcastInDim S4x8x32768x32 ![0, 1, 2, 3] bcast_S4x8x32768x1_S4x8x32768x32_0_1_2_3 : (⟨S4x8x32768x1, .f32⟩ : BufTy).Contents (Elt F) → (⟨S4x8x32768x32, .f32⟩ : BufTy).Contents (Elt F)),
    StableHlo.binary main_v25 main_v28 main_v29 (Host.divf : (⟨S4x8x32768x32, .f32⟩ : BufTy).Contents (Elt F) → (⟨S4x8x32768x32, .f32⟩ : BufTy).Contents (Elt F) → (⟨S4x8x32768x32, .f32⟩ : BufTy).Contents (Elt F)),
    StableHlo.unary main_arg3 main_v30 (broadcastInDim S1x8x1x32 ![1, 2, 3] bcast_S8x1x32_S1x8x1x32_1_2_3 : (⟨S8x1x32, .f32⟩ : BufTy).Contents (Elt F) → (⟨S1x8x1x32, .f32⟩ : BufTy).Contents (Elt F)),
    StableHlo.unary main_v30 main_v31 (broadcastInDim S4x8x32768x32 ![0, 1, 2, 3] bcast_S1x8x1x32_S4x8x32768x32_0_1_2_3 : (⟨S1x8x1x32, .f32⟩ : BufTy).Contents (Elt F) → (⟨S4x8x32768x32, .f32⟩ : BufTy).Contents (Elt F)),
    StableHlo.binary main_v31 main_v29 main_v32 (mulf : (⟨S4x8x32768x32, .f32⟩ : BufTy).Contents (Elt F) → (⟨S4x8x32768x32, .f32⟩ : BufTy).Contents (Elt F) → (⟨S4x8x32768x32, .f32⟩ : BufTy).Contents (Elt F)),
    StableHlo.unary main_arg4 main_v33 (broadcastInDim S1x8x1x32 ![1, 2, 3] bcast_S8x1x32_S1x8x1x32_1_2_3 : (⟨S8x1x32, .f32⟩ : BufTy).Contents (Elt F) → (⟨S1x8x1x32, .f32⟩ : BufTy).Contents (Elt F)),
    StableHlo.unary main_v33 main_v34 (broadcastInDim S4x8x32768x32 ![0, 1, 2, 3] bcast_S1x8x1x32_S4x8x32768x32_0_1_2_3 : (⟨S1x8x1x32, .f32⟩ : BufTy).Contents (Elt F) → (⟨S4x8x32768x32, .f32⟩ : BufTy).Contents (Elt F)),
    StableHlo.binary main_v32 main_v34 main_v35 (addf : (⟨S4x8x32768x32, .f32⟩ : BufTy).Contents (Elt F) → (⟨S4x8x32768x32, .f32⟩ : BufTy).Contents (Elt F) → (⟨S4x8x32768x32, .f32⟩ : BufTy).Contents (Elt F)),
    StableHlo.binary main_v18 main_v35 main_v36 ((fun l r => Host.dotGeneral dot_S4x8x32768x32_S4x8x32768x32_S4x8x32x32_2_2_3_3_01_01 none l r) : (⟨S4x8x32768x32, .f32⟩ : BufTy).Contents (Elt F) → (⟨S4x8x32768x32, .f32⟩ : BufTy).Contents (Elt F) → (⟨S4x8x32x32, .f32⟩ : BufTy).Contents (Elt F)),
    StableHlo.nullary main_cst_6 (constant S_ .f32 0x47000000#32),
    StableHlo.unary main_cst_6 main_v37 (broadcastInDim S4x8x32x32 ![] bcast_S_S4x8x32x32 : (⟨S_, .f32⟩ : BufTy).Contents (Elt F) → (⟨S4x8x32x32, .f32⟩ : BufTy).Contents (Elt F)),
    StableHlo.binary main_v36 main_v37 main_v38 (Host.divf : (⟨S4x8x32x32, .f32⟩ : BufTy).Contents (Elt F) → (⟨S4x8x32x32, .f32⟩ : BufTy).Contents (Elt F) → (⟨S4x8x32x32, .f32⟩ : BufTy).Contents (Elt F)),
    StableHlo.binary main_v1 main_v38 main_v39 ((fun l r => Host.dotGeneral dot_S4x8x32768x32_S4x8x32x32_S4x8x32768x32_3_2_2_3_01_01 none l r) : (⟨S4x8x32768x32, .f32⟩ : BufTy).Contents (Elt F) → (⟨S4x8x32x32, .f32⟩ : BufTy).Contents (Elt F) → (⟨S4x8x32768x32, .f32⟩ : BufTy).Contents (Elt F)),
    StableHlo.unary main_v39 main_v40 ((transpose S4x32768x8x32 [0, 2, 1, 3] · transposes_S4x8x32768x32_S4x32768x8x32_0_2_1_3) : (⟨S4x8x32768x32, .f32⟩ : BufTy).Contents (Elt F) → (⟨S4x32768x8x32, .f32⟩ : BufTy).Contents (Elt F)),
    StableHlo.reshape main_v40 main_v41 rfl shapeCasts_S4x32768x8x32_S4x32768x256,
    StableHlo.binary main_v41 main_arg0 main_v42 (addf : (⟨S4x32768x256, .f32⟩ : BufTy).Contents (Elt F) → (⟨S4x32768x256, .f32⟩ : BufTy).Contents (Elt F) → (⟨S4x32768x256, .f32⟩ : BufTy).Contents (Elt F)) ]

set_option maxRecDepth 16384 in
set_option maxHeartbeats 4000000 in
/-- The entry function is that straight line: the helpers' bodies opened at their calls, the sequencing reassociated. -/
theorem main_eq (c : Dev nD) : main (F := F) c = seq ops := by
  simp only [main, fn_std.body, fn_var.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

set_option maxRecDepth 16384 in
theorem ops_sub : (ops : List (HloOp τ sig (Elt F))).Forall fun op => op.bufs ⊆ tcRefs τ sig :=
  ⟨reshape_bufs_sub .., unary_bufs_sub .., nullary_bufs_sub .., binary_bufs_sub .., unary_bufs_sub .., nullary_bufs_sub ..,
    unary_bufs_sub .., binary_bufs_sub .., nullary_bufs_sub .., nullary_bufs_sub .., binary_bufs_sub .., unary_bufs_sub ..,
    nullary_bufs_sub .., unary_bufs_sub .., binary_bufs_sub .., unary_bufs_sub .., binary_bufs_sub .., binary_bufs_sub ..,
    unary_bufs_sub .., nullary_bufs_sub .., binary_bufs_sub .., nullary_bufs_sub .., binary_bufs_sub .., unary_bufs_sub ..,
    unary_bufs_sub .., binary_bufs_sub .., nullary_bufs_sub .., binary_bufs_sub .., nullary_bufs_sub .., unary_bufs_sub ..,
    unary_bufs_sub .., ternary_bufs_sub .., unary_bufs_sub .., unary_bufs_sub .., binary_bufs_sub .., nullary_bufs_sub ..,
    unary_bufs_sub .., binary_bufs_sub .., unary_bufs_sub .., binary_bufs_sub .., unary_bufs_sub .., unary_bufs_sub ..,
    binary_bufs_sub .., unary_bufs_sub .., unary_bufs_sub .., binary_bufs_sub .., nullary_bufs_sub .., binary_bufs_sub ..,
    unary_bufs_sub .., nullary_bufs_sub .., unary_bufs_sub .., binary_bufs_sub .., nullary_bufs_sub .., nullary_bufs_sub ..,
    binary_bufs_sub .., unary_bufs_sub .., nullary_bufs_sub .., unary_bufs_sub .., binary_bufs_sub .., unary_bufs_sub ..,
    binary_bufs_sub .., binary_bufs_sub .., unary_bufs_sub .., nullary_bufs_sub .., binary_bufs_sub .., nullary_bufs_sub ..,
    binary_bufs_sub .., unary_bufs_sub .., unary_bufs_sub .., binary_bufs_sub .., nullary_bufs_sub .., binary_bufs_sub ..,
    nullary_bufs_sub .., unary_bufs_sub .., unary_bufs_sub .., ternary_bufs_sub .., unary_bufs_sub .., unary_bufs_sub ..,
    binary_bufs_sub .., nullary_bufs_sub .., unary_bufs_sub .., binary_bufs_sub .., unary_bufs_sub .., binary_bufs_sub ..,
    unary_bufs_sub .., unary_bufs_sub .., binary_bufs_sub .., unary_bufs_sub .., unary_bufs_sub .., binary_bufs_sub ..,
    binary_bufs_sub .., nullary_bufs_sub .., unary_bufs_sub .., binary_bufs_sub .., binary_bufs_sub .., unary_bufs_sub ..,
    reshape_bufs_sub .., binary_bufs_sub ..⟩

/-- Every buffer after the line, as the fold of the operations over the launch contents. -/
theorem run_fold (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

set_option maxRecDepth 16384 in
set_option maxHeartbeats 8000000 in
/-- The result buffer after the line holds `result` of the arguments' contents. -/
theorem after_result (V : Valuation τ sig (Elt Ideal)) :
    after (ops (F := Ideal)) V (main_v42 : DevRef τ sig)
      = result (V (main_arg0 : DevRef τ sig)) (V (main_arg1 : DevRef τ sig)) (V (main_arg2 : DevRef τ sig))
          (V (main_arg3 : DevRef τ sig)) (V (main_arg4 : DevRef τ sig)) := by
  after_results_simp
  rfl

set_option maxRecDepth 16384 in
theorem after_arg0 (V : Valuation τ sig (Elt F)) :
    after (ops (F := F)) V (main_arg0 : DevRef τ sig) = V (main_arg0 : DevRef τ sig) := by
  after_results_simp <;> rfl

set_option maxRecDepth 16384 in
theorem after_arg1 (V : Valuation τ sig (Elt F)) :
    after (ops (F := F)) V (main_arg1 : DevRef τ sig) = V (main_arg1 : DevRef τ sig) := by
  after_results_simp <;> rfl

set_option maxRecDepth 16384 in
theorem after_arg2 (V : Valuation τ sig (Elt F)) :
    after (ops (F := F)) V (main_arg2 : DevRef τ sig) = V (main_arg2 : DevRef τ sig) := by
  after_results_simp <;> rfl

set_option maxRecDepth 16384 in
theorem after_arg3 (V : Valuation τ sig (Elt F)) :
    after (ops (F := F)) V (main_arg3 : DevRef τ sig) = V (main_arg3 : DevRef τ sig) := by
  after_results_simp <;> rfl

set_option maxRecDepth 16384 in
theorem after_arg4 (V : Valuation τ sig (Elt F)) :
    after (ops (F := F)) V (main_arg4 : DevRef τ sig) = V (main_arg4 : DevRef τ sig) := by
  after_results_simp <;> rfl

/-- From any memory with zero counters: every weakly fair execution of the entry function terminates with the result
    buffer at `result` of the arguments and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v42) = result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(h c main_v42).trans (after_result _),
      (h c main_arg0).trans (after_arg0 _), (h c main_arg1).trans (after_arg1 _), (h c main_arg2).trans (after_arg2 _),
      (h c main_arg3).trans (after_arg3 _), (h c main_arg4).trans (after_arg4 _)⟩)
    (run_fold (F := Ideal) m ρ)

end Cert.ReferenceIdeal.RefValue

end
-- ==== Proof.Ref.Layout.lean ====
/-
  The layout stages of the reference read at an index. Re-laying `[batch, token, channel]` as
  `[batch, head, token, column]` puts channel `32 h + d` at column `d` of head `h`, and back; an array with one
  entry per row repeated along the row reads that entry at every column; a scalar spread over an array reads the scalar;
  a per-head, per-column parameter repeated over batches and tokens reads the parameter at its head and column; and the
  sum of a row, kept as one entry per row, is the sum of the row's 32 entries.
-/
import proofs.«173681_j5471788335757_2_alg».proof.Proof.Ref.Stages
import proofs.«173681_j5471788335757_2_alg».proof.Proof.Spec
import Idealize.ShloMosaic.Lib.Pipeline.Value
import Idealize.ShloMosaic.Lib.IdealHost

noncomputable section

namespace Cert.ReferenceIdeal.RefValue

open Cert.ReferenceIdeal Cert.ReferenceIdeal.Gen Idealize.ShloMosaic Idealize.ShloMosaic.ValueIdx Cert.LinAttn
open scoped BigOperators

/-- Column `d` of head `h` at token `n` is channel `32 h + d` of that token. -/
theorem heads_apply (a0 : FVec Ideal S4x32768x256 .f32) (b : Fin 4) (h : Fin 8) (n : Fin 32768) (d : Fin 32) :
    heads a0 (ix4 b h n d) = a0 (ix3 b n (chan h d)) := by
  unfold heads
  refine (transpose_apply _ _ _ (ix4 b h n d) (ix4 b n h d)
    (fun a => by match a with | ⟨0, _⟩ => rfl | ⟨1, _⟩ => rfl | ⟨2, _⟩ => rfl | ⟨3, _⟩ => rfl)).trans ?_
  refine shapeCast_apply a0 _ (ix4 b n h d) (ix3 b n (chan h d)) ?_
  rw [Shape.rowMajor_val_three, Shape.rowMajor_val_four]
  show (b.val * 32768 + n.val) * 256 + (h.val * 32 + d.val) = ((b.val * 32768 + n.val) * 8 + h.val) * 32 + d.val
  omega

/-- Channel `32 h + e` of token `n` is column `e` of head `h` at that token. -/
theorem unheads_apply (y : FVec Ideal S4x8x32768x32 .f32) (b : Fin 4) (n : Fin 32768) (h : Fin 8) (e : Fin 32) :
    unheads y (ix3 b n (chan h e)) = y (ix4 b h n e) := by
  unfold unheads
  refine (shapeCast_apply _ _ (ix3 b n (chan h e)) (ix4 b n h e) ?_).trans ?_
  · rw [Shape.rowMajor_val_three, Shape.rowMajor_val_four]
    show ((b.val * 32768 + n.val) * 8 + h.val) * 32 + e.val = (b.val * 32768 + n.val) * 256 + (h.val * 32 + e.val)
    omega
  · exact transpose_apply _ _ _ (ix4 b n h e) (ix4 b h n e)
      (fun a => by match a with | ⟨0, _⟩ => rfl | ⟨1, _⟩ => rfl | ⟨2, _⟩ => rfl | ⟨3, _⟩ => rfl)

/-- A scalar spread over one entry per row reads the scalar. -/
theorem perRow_apply (w : BitVec 32) (j : S4x8x32768x1.Idx) : perRow w j = Ideal.ofBits .f32 w := by
  unfold perRow
  exact broadcastInDim_scalar_apply _ _ j

/-- An entry per row repeated along the row reads that entry at every column. -/
theorem alongRow_apply (x : FVec Ideal S4x8x32768x1 .f32) (b : Fin 4) (h : Fin 8) (n : Fin 32768) (d : Fin 32) :
    alongRow x (ix4 b h n d) = x (ix4 b h n (0 : Fin 1)) := by
  unfold alongRow
  refine broadcastInDim_apply _ _ x (ix4 b h n d) (ix4 b h n (0 : Fin 1)) ?_
  intro a
  match a with
  | ⟨0, _⟩ => rfl
  | ⟨1, _⟩ => rfl
  | ⟨2, _⟩ => rfl
  | ⟨3, _⟩ => rfl

/-- A per-head, per-column parameter repeated over batches and tokens reads the parameter at its head and column. -/
theorem perHead_apply (w : FVec Ideal S8x1x32 .f32) (b : Fin 4) (h : Fin 8) (n : Fin 32768) (d : Fin 32) :
    perHead w (ix4 b h n d) = w (ix3 h (0 : Fin 1) d) := by
  unfold perHead
  refine (broadcastInDim_apply _ _ _ (ix4 b h n d) (ix4 (0 : Fin 1) h (0 : Fin 1) d) ?_).trans ?_
  · intro a
    match a with
    | ⟨0, _⟩ => rfl
    | ⟨1, _⟩ => rfl
    | ⟨2, _⟩ => rfl
    | ⟨3, _⟩ => rfl
  · refine broadcastInDim_apply _ _ w (ix4 (0 : Fin 1) h (0 : Fin 1) d) (ix3 h (0 : Fin 1) d) ?_
    intro a
    match a with
    | ⟨0, _⟩ => rfl
    | ⟨1, _⟩ => rfl
    | ⟨2, _⟩ => rfl

/-- The sum of a row, kept as one entry per row, is the sum of the row's 32 entries. -/
theorem rowSum_apply (x : FVec Ideal S4x8x32768x32 .f32) (b : Fin 4) (h : Fin 8) (n : Fin 32768) :
    rowSum x (ix4 b h n (0 : Fin 1)) = ∑ k : Fin 32, x (ix4 b h n k) := by
  unfold rowSum
  refine (broadcastInDim_apply _ _ _ (ix4 b h n (0 : Fin 1)) (ix3 b h n) ?_).trans ?_
  · intro a
    match a with
    | ⟨0, _⟩ => rfl
    | ⟨1, _⟩ => rfl
    | ⟨2, _⟩ => rfl
  · rw [hostReduceAdd_apply, Ideal.hostReduceAdd_single reducesTo_S4x8x32768x32_S4x8x32768_d3 (by decide)]
    rw [constant_apply, Ideal.ofBits_zero_f32, zero_add]
    refine Finset.sum_congr rfl fun k _ => ?_
    exact congrArg x (funext fun a => Fin.ext (by
      match a with | ⟨0, _⟩ => rfl | ⟨1, _⟩ => rfl | ⟨2, _⟩ => rfl | ⟨3, _⟩ => rfl))

end Cert.ReferenceIdeal.RefValue

end
-- ==== Proof.Ref.Rows.lean ====
/-
  The per-row stages of the reference read at an index, against the specification's row functions. For an array `x`
  laid out `[batch, head, token, column]` the row at `(b, h, n)` is the function `rowOf x b h n` of the column.
  At that row: the mean stage is the specification's mean, the centred entries are its deviations, the guarded
  variance is the sum of squared deviations over 31 (the divisor, 32 minus the integer 1 read as a real, is the real 31,
  which is positive, so the guard always takes the quotient), its root is the specification's spread, the normalised
  entries are its normalised entries, and the scaled and shifted rows are its features (the reference multiplies the
  weight by the normalised entry, the specification the other way round: multiplication of extended reals commutes).
-/
import proofs.«173681_j5471788335757_2_alg».proof.Proof.Ref.Layout

noncomputable section

namespace Cert.ReferenceIdeal.RefValue

open Cert.ReferenceIdeal Cert.ReferenceIdeal.Gen Idealize.ShloMosaic Idealize.ShloMosaic.ValueIdx Cert.LinAttn
open scoped BigOperators

/-- The row of `x` at batch `b`, head `h`, token `n`. -/
def rowOf (x : FVec Ideal S4x8x32768x32 .f32) (b : Fin 4) (h : Fin 8) (n : Fin 32768) : Fin 32 → EReal :=
  fun k => x (ix4 b h n k)

/-- The pattern of 32 denotes the real 32. -/
theorem bits32_eq : Ideal.ofBits .f32 0x42000000#32 = ((32 : ℝ) : EReal) := by
  simp [Ideal.ofBits, Ideal.ieee, -EReal.coe_mul]; norm_num

/-- The pattern of 31 denotes the real 31. -/
theorem bits31_eq : Ideal.ofBits .f32 0x41F80000#32 = ((31 : ℝ) : EReal) := by
  simp [Ideal.ofBits, Ideal.ieee, -EReal.coe_mul]; norm_num

/-- The variance's divisor, 32 minus the integer 1 read as a real, is 31. -/
theorem divisor_apply (j : S_.Idx) : divisor j = c31 := by
  show Ideal.ofBits .f32 0x42000000#32 - (((1#32 : BitVec 32).toInt : ℝ) : EReal) = Ideal.ofBits .f32 0x41F80000#32
  rw [bits32_eq, bits31_eq, show ((1#32 : BitVec 32).toInt) = 1 by decide, ← EReal.coe_sub]
  norm_num

/-- The divisor is positive, so the guard holds at every row. -/
theorem guard_apply (j : S4x8x32768x1.Idx) :
    broadcastInDim S4x8x32768x1 ![] bcast_S_S4x8x32768x1
      (cmpf (F := Ideal) .ogt divisor (constant (F := Ideal) S_ .f32 0x00000000#32)) j = 1#1 := by
  rw [broadcastInDim_scalar_apply]
  show Ideal.cmp .ogt (divisor ix0) (Ideal.ofBits .f32 0x00000000#32) = 1#1
  rw [divisor_apply, Ideal.ofBits_zero_f32]
  unfold c31
  rw [bits31_eq]
  have h : (0 : EReal) < ((31 : ℝ) : EReal) := EReal.coe_pos.mpr (by norm_num)
  simp [Ideal.cmp, h]

/-- The mean stage at a row is the specification's mean of the row. -/
theorem rowMean_apply (x : FVec Ideal S4x8x32768x32 .f32) (b : Fin 4) (h : Fin 8) (n : Fin 32768) :
    rowMean x (ix4 b h n (0 : Fin 1)) = mean (rowOf x b h n) := by
  unfold rowMean
  rw [hostDivf_apply, rowSum_apply, perRow_apply]
  rfl

/-- The centred entries are the specification's deviations. -/
theorem devAll_apply (x : FVec Ideal S4x8x32768x32 .f32) (b : Fin 4) (h : Fin 8) (n : Fin 32768) (d : Fin 32) :
    devAll x (ix4 b h n d) = dev (rowOf x b h n) d := by
  unfold devAll
  rw [subf_apply, alongRow_apply, rowMean_apply]
  rfl

/-- The guarded variance at a row is the sum of squared deviations over 31. -/
theorem rowVar_apply (x : FVec Ideal S4x8x32768x32 .f32) (b : Fin 4) (h : Fin 8) (n : Fin 32768) :
    rowVar x (ix4 b h n (0 : Fin 1))
      = Ideal.div (∑ k : Fin 32, dev (rowOf x b h n) k * dev (rowOf x b h n) k) c31 := by
  unfold rowVar
  rw [select_apply, guard_apply, select_one, hostDivf_apply, rowSum_apply, broadcastInDim_scalar_apply, divisor_apply]
  refine congrArg (fun s => Ideal.div s c31) (Finset.sum_congr rfl fun k _ => ?_)
  rw [mulf_apply, devAll_apply]

/-- The deviation stage at a row is the specification's spread of the row. -/
theorem rowStd_apply (x : FVec Ideal S4x8x32768x32 .f32) (b : Fin 4) (h : Fin 8) (n : Fin 32768) :
    rowStd x (ix4 b h n (0 : Fin 1)) = spread (rowOf x b h n) := by
  unfold rowStd
  show Ideal.sqrt (rowVar x (ix4 b h n (0 : Fin 1))) = _
  rw [rowVar_apply]
  rfl

/-- The normalised entries are the specification's. -/
theorem normedAll_apply (x : FVec Ideal S4x8x32768x32 .f32) (b : Fin 4) (h : Fin 8) (n : Fin 32768) (d : Fin 32) :
    normedAll x (ix4 b h n d) = normed (rowOf x b h n) d := by
  unfold normedAll
  rw [hostDivf_apply, subf_apply, alongRow_apply, alongRow_apply, rowMean_apply, addf_apply, rowStd_apply, perRow_apply]
  rfl

/-- The scaled and shifted rows are the specification's features at the head's weight and bias. -/
theorem featAll_apply (x : FVec Ideal S4x8x32768x32 .f32) (w bb : FVec Ideal S8x1x32 .f32)
    (b : Fin 4) (h : Fin 8) (n : Fin 32768) (d : Fin 32) :
    featAll x w bb (ix4 b h n d)
      = feature (rowOf x b h n) (fun d => w (ix3 h (0 : Fin 1) d)) (fun d => bb (ix3 h (0 : Fin 1) d)) d := by
  unfold featAll
  rw [addf_apply, mulf_apply, perHead_apply, perHead_apply, normedAll_apply]
  show _ = normed (rowOf x b h n) d * w (ix3 h (0 : Fin 1) d) + bb (ix3 h (0 : Fin 1) d)
  rw [mul_comm]

/-- The rows of the re-laid input are the specification's rows of the input. -/
theorem rowOf_heads (a0 : FVec Ideal S4x32768x256 .f32) (b : Fin 4) (h : Fin 8) (n : Fin 32768) :
    rowOf (heads a0) b h n = row (fun b n c => a0 (ix3 b n c)) b h n :=
  funext fun k => heads_apply a0 b h n k

end Cert.ReferenceIdeal.RefValue

end
-- ==== Proof.Ref.Contract.lean ====
/-
  The two contractions of the reference read at an index. The key–value moment contracts the token axis of two
  `[batch, head, token, column]` arrays, batch and head being carried along: its entry at `(b, h, d, e)` is the sum
  over the 32768 tokens `n` of the left array at `(b, h, n, d)` times the right at `(b, h, n, e)`; it is then
  divided by the token count. The mixing product contracts the column axis of the rows with the first matrix axis:
  its entry at `(b, h, n, e)` is the sum over the 32 columns `d` of the row entry at `(b, h, n, d)` times the matrix
  entry at `(b, h, d, e)`. In each, the contraction's one-axis index set is identified with the axis's coordinates.
-/
import proofs.«173681_j5471788335757_2_alg».proof.Proof.Ref.Layout

noncomputable section

namespace Cert.ReferenceIdeal.RefValue

open Cert.ReferenceIdeal Cert.ReferenceIdeal.Gen Idealize.ShloMosaic Idealize.ShloMosaic.ValueIdx Cert.LinAttn
open scoped BigOperators

/-- The dimension numbers of the moment: tokens contracted, batch and head carried. -/
abbrev dKV : DotDims S4x8x32768x32 S4x8x32768x32 S4x8x32x32 := dot_S4x8x32768x32_S4x8x32768x32_S4x8x32x32_2_2_3_3_01_01

/-- The dimension numbers of the mixing product: columns contracted, batch and head carried. -/
abbrev dMix : DotDims S4x8x32768x32 S4x8x32x32 S4x8x32768x32 := dot_S4x8x32768x32_S4x8x32x32_S4x8x32768x32_3_2_2_3_01_01

/-! Which coordinate of the result, or of the contraction index, each operand axis reads. -/

theorem lhs_kv_0 (i : S4x8x32x32.Idx) (q : dKV.contr.Idx) :
    (dKV.lhsIdx i q 0).val = (i 0).val := by
  unfold DotDims.lhsIdx
  rw [dif_pos (show (0 : Fin S4x8x32768x32.rank) ∈ dKV.lhsBatch by decide)]
  rfl
theorem lhs_kv_1 (i : S4x8x32x32.Idx) (q : dKV.contr.Idx) :
    (dKV.lhsIdx i q 1).val = (i 1).val := by
  unfold DotDims.lhsIdx
  rw [dif_pos (show (1 : Fin S4x8x32768x32.rank) ∈ dKV.lhsBatch by decide)]
  rfl
theorem lhs_kv_2 (i : S4x8x32x32.Idx) (q : dKV.contr.Idx) :
    (dKV.lhsIdx i q 2).val = (q ⟨0, by decide⟩).val :=
  dKV.lhsIdx_val_of_single rfl i q
theorem lhs_kv_3 (i : S4x8x32x32.Idx) (q : dKV.contr.Idx) :
    (dKV.lhsIdx i q 3).val = (i 2).val := by
  unfold DotDims.lhsIdx
  rw [dif_neg (show ¬(3 : Fin S4x8x32768x32.rank) ∈ dKV.lhsBatch by decide), dif_pos (show (3 : Fin S4x8x32768x32.rank) ∈ dKV.lhsNonContracting by decide)]
  rfl
theorem rhs_kv_0 (i : S4x8x32x32.Idx) (q : dKV.contr.Idx) :
    (dKV.rhsIdx i q 0).val = (i 0).val := by
  unfold DotDims.rhsIdx
  rw [dif_pos (show (0 : Fin S4x8x32768x32.rank) ∈ dKV.rhsBatch by decide)]
  rfl
theorem rhs_kv_1 (i : S4x8x32x32.Idx) (q : dKV.contr.Idx) :
    (dKV.rhsIdx i q 1).val = (i 1).val := by
  unfold DotDims.rhsIdx
  rw [dif_pos (show (1 : Fin S4x8x32768x32.rank) ∈ dKV.rhsBatch by decide)]
  rfl
theorem rhs_kv_2 (i : S4x8x32x32.Idx) (q : dKV.contr.Idx) :
    (dKV.rhsIdx i q 2).val = (q ⟨0, by decide⟩).val :=
  dKV.rhsIdx_val_of_single rfl i q
theorem rhs_kv_3 (i : S4x8x32x32.Idx) (q : dKV.contr.Idx) :
    (dKV.rhsIdx i q 3).val = (i 3).val := by
  unfold DotDims.rhsIdx
  rw [dif_neg (show ¬(3 : Fin S4x8x32768x32.rank) ∈ dKV.rhsBatch by decide), dif_pos (show (3 : Fin S4x8x32768x32.rank) ∈ dKV.rhsNonContracting by decide)]
  rfl

theorem lhs_mix_0 (i : S4x8x32768x32.Idx) (q : dMix.contr.Idx) :
    (dMix.lhsIdx i q 0).val = (i 0).val := by
  unfold DotDims.lhsIdx
  rw [dif_pos (show (0 : Fin S4x8x32768x32.rank) ∈ dMix.lhsBatch by decide)]
  rfl
theorem lhs_mix_1 (i : S4x8x32768x32.Idx) (q : dMix.contr.Idx) :
    (dMix.lhsIdx i q 1).val = (i 1).val := by
  unfold DotDims.lhsIdx
  rw [dif_pos (show (1 : Fin S4x8x32768x32.rank) ∈ dMix.lhsBatch by decide)]
  rfl
theorem lhs_mix_2 (i : S4x8x32768x32.Idx) (q : dMix.contr.Idx) :
    (dMix.lhsIdx i q 2).val = (i 2).val := by
  unfold DotDims.lhsIdx
  rw [dif_neg (show ¬(2 : Fin S4x8x32768x32.rank) ∈ dMix.lhsBatch by decide), dif_pos (show (2 : Fin S4x8x32768x32.rank) ∈ dMix.lhsNonContracting by decide)]
  rfl
theorem lhs_mix_3 (i : S4x8x32768x32.Idx) (q : dMix.contr.Idx) :
    (dMix.lhsIdx i q 3).val = (q ⟨0, by decide⟩).val :=
  dMix.lhsIdx_val_of_single rfl i q
theorem rhs_mix_0 (i : S4x8x32768x32.Idx) (q : dMix.contr.Idx) :
    (dMix.rhsIdx i q 0).val = (i 0).val := by
  unfold DotDims.rhsIdx
  rw [dif_pos (show (0 : Fin S4x8x32x32.rank) ∈ dMix.rhsBatch by decide)]
  rfl
theorem rhs_mix_1 (i : S4x8x32768x32.Idx) (q : dMix.contr.Idx) :
    (dMix.rhsIdx i q 1).val = (i 1).val := by
  unfold DotDims.rhsIdx
  rw [dif_pos (show (1 : Fin S4x8x32x32.rank) ∈ dMix.rhsBatch by decide)]
  rfl
theorem rhs_mix_2 (i : S4x8x32768x32.Idx) (q : dMix.contr.Idx) :
    (dMix.rhsIdx i q 2).val = (q ⟨0, by decide⟩).val :=
  dMix.rhsIdx_val_of_single rfl i q
theorem rhs_mix_3 (i : S4x8x32768x32.Idx) (q : dMix.contr.Idx) :
    (dMix.rhsIdx i q 3).val = (i 3).val := by
  unfold DotDims.rhsIdx
  rw [dif_neg (show ¬(3 : Fin S4x8x32x32.rank) ∈ dMix.rhsBatch by decide), dif_pos (show (3 : Fin S4x8x32x32.rank) ∈ dMix.rhsNonContracting by decide)]
  rfl

/-- The moment of two arrays at `(b, h, d, e)`: the sum over the tokens. -/
theorem moment_apply (y0 y1 : FVec Ideal S4x8x32768x32 .f32) (b : Fin 4) (h : Fin 8) (d e : Fin 32) :
    Host.dotGeneral (F := Ideal) dKV none y0 y1 (ix4 b h d e)
      = ∑ n : Fin 32768, y0 (ix4 b h n d) * y1 (ix4 b h n e) := by
  simp only [Host.dotGeneral]
  rw [Ideal.dotGeneral_apply, ← Equiv.sum_comp (contrEquiv1 dKV 32768 rfl rfl).symm]
  refine Finset.sum_congr rfl fun k _ => ?_
  have hk := contrEquiv1_symm_val dKV 32768 rfl rfl k
  have el : dKV.lhsIdx (ix4 b h d e) ((contrEquiv1 dKV 32768 rfl rfl).symm k) = ix4 b h k d := funext fun a => Fin.ext (by
    match a with
    | ⟨0, _⟩ => exact lhs_kv_0 _ _
    | ⟨1, _⟩ => exact lhs_kv_1 _ _
    | ⟨2, _⟩ => exact (lhs_kv_2 _ _).trans hk
    | ⟨3, _⟩ => exact lhs_kv_3 _ _)
  have er : dKV.rhsIdx (ix4 b h d e) ((contrEquiv1 dKV 32768 rfl rfl).symm k) = ix4 b h k e := funext fun a => Fin.ext (by
    match a with
    | ⟨0, _⟩ => exact rhs_kv_0 _ _
    | ⟨1, _⟩ => exact rhs_kv_1 _ _
    | ⟨2, _⟩ => exact (rhs_kv_2 _ _).trans hk
    | ⟨3, _⟩ => exact rhs_kv_3 _ _)
  rw [el, er]

/-- The mixing product at `(b, h, n, e)`: the sum over the columns. -/
theorem attnAll_apply (x : FVec Ideal S4x8x32768x32 .f32) (kv : FVec Ideal S4x8x32x32 .f32) (b : Fin 4) (h : Fin 8) (n : Fin 32768) (e : Fin 32) :
    attnAll x kv (ix4 b h n e) = ∑ d : Fin 32, x (ix4 b h n d) * kv (ix4 b h d e) := by
  unfold attnAll
  simp only [Host.dotGeneral]
  rw [Ideal.dotGeneral_apply, ← Equiv.sum_comp (contrEquiv1 dMix 32 rfl rfl).symm]
  refine Finset.sum_congr rfl fun k _ => ?_
  have hk := contrEquiv1_symm_val dMix 32 rfl rfl k
  have el : dMix.lhsIdx (ix4 b h n e) ((contrEquiv1 dMix 32 rfl rfl).symm k) = ix4 b h n k := funext fun a => Fin.ext (by
    match a with
    | ⟨0, _⟩ => exact lhs_mix_0 _ _
    | ⟨1, _⟩ => exact lhs_mix_1 _ _
    | ⟨2, _⟩ => exact lhs_mix_2 _ _
    | ⟨3, _⟩ => exact (lhs_mix_3 _ _).trans hk)
  have er : dMix.rhsIdx (ix4 b h n e) ((contrEquiv1 dMix 32 rfl rfl).symm k) = ix4 b h k e := funext fun a => Fin.ext (by
    match a with
    | ⟨0, _⟩ => exact rhs_mix_0 _ _
    | ⟨1, _⟩ => exact rhs_mix_1 _ _
    | ⟨2, _⟩ => exact (rhs_mix_2 _ _).trans hk
    | ⟨3, _⟩ => exact rhs_mix_3 _ _)
  rw [el, er]

/-- The key–value stage at `(b, h, d, e)`: the moment of the two feature arrays divided by the token count. -/
theorem kvAll_apply (x : FVec Ideal S4x8x32768x32 .f32) (a1 a2 a3 a4 : FVec Ideal S8x1x32 .f32) (b : Fin 4) (h : Fin 8) (d e : Fin 32) :
    kvAll x a1 a2 a3 a4 (ix4 b h d e)
      = Ideal.div (∑ n : Fin 32768, featAll x a1 a2 (ix4 b h n d) * featAll x a3 a4 (ix4 b h n e)) cTokens := by
  unfold kvAll
  rw [hostDivf_apply, broadcastInDim_scalar_apply, constant_apply]
  exact congrArg (fun s => Ideal.div s cTokens) (moment_apply (featAll x a1 a2) (featAll x a3 a4) b h d e)

end Cert.ReferenceIdeal.RefValue

end
-- ==== Proof.Ref.Read.lean ====
/-
  The reference's result read at an index, against the specification. At batch `b`, token `n` and channel `32 h + e`
  the result is the re-laid mixing product at `(b, h, n, e)` plus the input there. The mixing product is the sum over
  the columns `d` of the raw row entry times the key–value stage at `(b, h, d, e)`; that stage is the specification's
  `kv`: the sum over the tokens of the products of the two feature maps of the row, divided by the token count. The
  reference adds the input after the product, the specification before it: addition of extended reals commutes.
-/
import proofs.«173681_j5471788335757_2_alg».proof.Proof.Ref.Rows
import proofs.«173681_j5471788335757_2_alg».proof.Proof.Ref.Contract

noncomputable section

namespace Cert.ReferenceIdeal.RefValue

open Cert.ReferenceIdeal Cert.ReferenceIdeal.Gen Idealize.ShloMosaic Idealize.ShloMosaic.ValueIdx
open scoped BigOperators

/-- The key–value stage of the re-laid input is the specification's `kv` of the input and the four parameters. -/
theorem kvAll_heads_apply (a0 : FVec Ideal S4x32768x256 .f32) (a1 a2 a3 a4 : FVec Ideal S8x1x32 .f32)
    (b : Fin 4) (h : Fin 8) (d e : Fin 32) :
    kvAll (heads a0) a1 a2 a3 a4 (ix4 b h d e)
      = Cert.LinAttn.kv (fun b n c => a0 (ix3 b n c)) (fun h d => a1 (ix3 h 0 d)) (fun h d => a2 (ix3 h 0 d))
          (fun h d => a3 (ix3 h 0 d)) (fun h d => a4 (ix3 h 0 d)) b h d e := by
  rw [kvAll_apply]
  unfold Cert.LinAttn.kv Cert.LinAttn.moment
  refine congrArg (fun s => Ideal.div s Cert.LinAttn.cTokens) (Finset.sum_congr rfl fun n _ => ?_)
  rw [featAll_apply, featAll_apply, rowOf_heads]
  rfl

/-- The reference's result at batch `b`, token `n`, channel `32 h + e` is the specification's `mix` of the input
    with the specification's `kv`. -/
theorem result_apply (a0 : FVec Ideal S4x32768x256 .f32) (a1 a2 a3 a4 : FVec Ideal S8x1x32 .f32)
    (b : Fin 4) (n : Fin 32768) (h : Fin 8) (e : Fin 32) :
    result a0 a1 a2 a3 a4 (ValueIdx.ix3 b n (Cert.LinAttn.chan h e))
      = Cert.LinAttn.mix (fun b n c => a0 (ValueIdx.ix3 b n c))
          (Cert.LinAttn.kv (fun b n c => a0 (ValueIdx.ix3 b n c)) (fun h d => a1 (ValueIdx.ix3 h 0 d))
            (fun h d => a2 (ValueIdx.ix3 h 0 d)) (fun h d => a3 (ValueIdx.ix3 h 0 d)) (fun h d => a4 (ValueIdx.ix3 h 0 d)))
          b n h e := by
  unfold result
  rw [addf_apply, unheads_apply, attnAll_apply, add_comm]
  unfold Cert.LinAttn.mix
  refine congrArg (a0 (ix3 b n (Cert.LinAttn.chan h e)) + ·) (Finset.sum_congr rfl fun d _ => ?_)
  rw [heads_apply, kvAll_heads_apply]

/-- Every index of the result array is a batch, a token and a column of a head; so an array that reads as the
    specification's `mix` at every such index is the reference's result. -/
theorem result_eq_of_apply (a0 : FVec Ideal S4x32768x256 .f32) (a1 a2 a3 a4 : FVec Ideal S8x1x32 .f32)
    (G : FVec Ideal S4x32768x256 .f32)
    (hG : ∀ (b : Fin 4) (n : Fin 32768) (h : Fin 8) (e : Fin 32),
      G (ValueIdx.ix3 b n (Cert.LinAttn.chan h e))
        = Cert.LinAttn.mix (fun b n c => a0 (ValueIdx.ix3 b n c))
            (Cert.LinAttn.kv (fun b n c => a0 (ValueIdx.ix3 b n c)) (fun h d => a1 (ValueIdx.ix3 h 0 d))
              (fun h d => a2 (ValueIdx.ix3 h 0 d)) (fun h d => a3 (ValueIdx.ix3 h 0 d)) (fun h d => a4 (ValueIdx.ix3 h 0 d)))
            b n h e) :
    result a0 a1 a2 a3 a4 = G := by
  funext i
  obtain ⟨b, n, c, rfl⟩ : ∃ (b : Fin 4) (n : Fin 32768) (c : Fin 256), i = ix3 b n c := ⟨i 0, i 1, i 2, eq_ix3 i⟩
  obtain ⟨h, e, rfl⟩ := Cert.LinAttn.chan_surj c
  rw [result_apply, hG]

end Cert.ReferenceIdeal.RefValue

end
-- ==== Proof.lean ====
/-
  Linear attention over per-head normalised features, computed in two passes by the kernel program and with
  whole-array operations by the reference: the two agree on the extended reals, entry by entry.

  The mathematics is Proof/Spec.lean: `mix X (kv X KW KB VW VB)`. The reference's result array is that function of
  its arguments (Proof/Ref: its run, and its result read at an index). The kernel program's first pass leaves in its
  intermediate array the key–value moment divided by the token count (`kv`, Proof/Kv: eight blocks of 4096 tokens per
  batch summed into an accumulator that is cleared at a batch's first block and scaled and stored at its last, the
  scaling by 2⁻¹⁵ being the division by 32768 on every extended real), from the token array and the four parameter
  arrays re-laid as rows of 256 channels; its second pass leaves `mix` of the token array and that intermediate array
  in the result (Proof/Out). Both passes run block by block under the launch's bookkeeping (Proof/Launch), which also
  shows that the program terminates, faults nowhere and leaves its arguments as launched — for the program as printed
  (Proof/Word) as for its reading on the extended reals. No finiteness of the inputs is used: the two sides apply the
  same operations to the same entries, in sums that differ only by their grouping.
-/
import proofs.«173681_j5471788335757_2_alg».proof.Defs
import proofs.«173681_j5471788335757_2_alg».proof.Proof.Gen.Kernel
import proofs.«173681_j5471788335757_2_alg».proof.Proof.Gen.KernelIdeal
import proofs.«173681_j5471788335757_2_alg».proof.Proof.Gen.ReferenceIdeal
import proofs.«173681_j5471788335757_2_alg».proof.Proof.Gen.Pre_finite_inputs
import proofs.«173681_j5471788335757_2_alg».proof.Proof.Launch.Run
import proofs.«173681_j5471788335757_2_alg».proof.Proof.Word.Launch.Run
import proofs.«173681_j5471788335757_2_alg».proof.Proof.Out.Value
import proofs.«173681_j5471788335757_2_alg».proof.Proof.Kv.KvValue
import proofs.«173681_j5471788335757_2_alg».proof.Proof.Kv.Weights
import proofs.«173681_j5471788335757_2_alg».proof.Proof.Ref.Run
import proofs.«173681_j5471788335757_2_alg».proof.Proof.Ref.Read

noncomputable section

namespace Cert.Proof

open Idealize.ShloMosaic Idealize.ShloMosaic.TcCoe Idealize.SL.Sem Idealize.ShloMosaic.ValueIdx
open Cert.LinAttn

/-! ## The kernel program's result is the reference's term -/

section Value

open Cert.KernelIdeal Cert.KernelIdeal.Gen Cert.KernelIdeal.Hand

variable (m : (ℓ : Loc nD τ sig) → Buf (Elt Ideal) ℓ) (ρ : Dev nD → PrngReg)

/-- The intermediate array after the first pass is `kv` of the launch memory's arguments: the first pass's value,
    with the parameter rows read back as the parameter arrays' entries. -/
theorem intermediate_eq (c : Dev nD) :
    (fun (b : Fin 4) (h : Fin 8) (d e : Fin 32) => (Vmid m ρ c main_v4 : S4x8x32x32.Idx → EReal) (ix4 b h d e))
      = kv (fun b n c' => (m ((c : Thread nD τ).loc main_arg0) : S4x32768x256.Idx → EReal) (ix3 b n c'))
          (fun h d => (m ((c : Thread nD τ).loc main_arg1) : S8x1x32.Idx → EReal) (ix3 h 0 d))
          (fun h d => (m ((c : Thread nD τ).loc main_arg2) : S8x1x32.Idx → EReal) (ix3 h 0 d))
          (fun h d => (m ((c : Thread nD τ).loc main_arg3) : S8x1x32.Idx → EReal) (ix3 h 0 d))
          (fun h d => (m ((c : Thread nD τ).loc main_arg4) : S8x1x32.Idx → EReal) (ix3 h 0 d)) := by
  funext b h d e
  rw [Vmid_main_v4, final0, Vin_main_arg0, Vin_main_v0, Vin_main_v1, Vin_main_v2, Vin_main_v3]
  simp only [paramRow_apply]

/-- The result array after the second pass, entry by entry. -/
theorem result_entry (c : Dev nD) (b : Fin 4) (n : Fin 32768) (h : Fin 8) (e : Fin 32) :
    (dat1 (F := Ideal) (Vmid m ρ) c).arrAt 2 cfg1.N (ix3 b n (chan h e))
      = mix (fun b n c' => (m ((c : Thread nD τ).loc main_arg0) : S4x32768x256.Idx → EReal) (ix3 b n c'))
          (kv (fun b n c' => (m ((c : Thread nD τ).loc main_arg0) : S4x32768x256.Idx → EReal) (ix3 b n c'))
            (fun h d => (m ((c : Thread nD τ).loc main_arg1) : S8x1x32.Idx → EReal) (ix3 h 0 d))
            (fun h d => (m ((c : Thread nD τ).loc main_arg2) : S8x1x32.Idx → EReal) (ix3 h 0 d))
            (fun h d => (m ((c : Thread nD τ).loc main_arg3) : S8x1x32.Idx → EReal) (ix3 h 0 d))
            (fun h d => (m ((c : Thread nD τ).loc main_arg4) : S8x1x32.Idx → EReal) (ix3 h 0 d))) b n h e := by
  rw [final1, intermediate_eq m ρ c, Vmid_main_arg0]

end Value

/-! ## The claims -/

theorem frame_kernel : Cert.frame_Kernel := fun m ρ _ => Cert.Kernel.Hand.frame (F := Bits) m ρ

theorem frame_kernelIdeal : Cert.frame_KernelIdeal := fun m ρ _ => Cert.KernelIdeal.Hand.frame (F := Ideal) m ρ

theorem frame_reference : Cert.frame_ReferenceIdeal := fun m ρ _ =>
  (θ_run Cert.ReferenceIdeal.defs _ _).mono (fun _ h c => (h c).2) (Cert.ReferenceIdeal.RefValue.run m ρ)

/-- The idealization rewrote nothing. -/
theorem preserves : Cert.preserves_Kernel_KernelIdeal := trivial

/-- Run from memories that agree on the arguments, both programs end with the result array holding the
    reference's term of those arguments. -/
theorem algebraic : Cert.algebraic_KernelIdeal_ReferenceIdeal := by
  intro m ρ m' ρ' _ hagree
  refine ⟨fun c => Cert.ReferenceIdeal.RefValue.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)), ?_, ?_⟩
  · refine (θ_run Cert.KernelIdeal.defs _ _).mono (fun _ h c => ⟨(h c).1.trans ?_, (h c).2⟩) (Cert.KernelIdeal.Hand.run_value (F := Ideal) m ρ)
    exact (Cert.ReferenceIdeal.RefValue.result_eq_of_apply _ _ _ _ _ _ (result_entry m ρ c)).symm
  · refine (θ_run Cert.ReferenceIdeal.defs _ _).mono (fun _ h c => ⟨(h c).1.trans ?_, (h c).2⟩) (Cert.ReferenceIdeal.RefValue.run m' ρ')
    rw [(hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
